-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg12 : FVec F S256x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  main_v58

def fn_part2 {F : FTy → Type} [FloatOps F] (main_arg8 : FVec F S128 .f32) (main_arg9 : FVec F S128x128 .f32) (main_arg10 : FVec F S256x128 .f32) (main_arg11 : FVec F S128 .f32) (main_arg12 : FVec F S256x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_v48 main_v49 main_v50

def fn_part1 {F : FTy → Type} [FloatOps F] (main_arg5 : FVec F S64 .f32) (main_arg6 : FVec F S64x64 .f32) (main_arg7 : FVec F S128x128 .f32) (main_arg8 : FVec F S128 .f32) (main_arg9 : FVec F S128x128 .f32) (main_arg10 : FVec F S256x128 .f32) (main_arg11 : FVec F S128 .f32) (main_arg12 : FVec F S256x128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) (main_arg6 : FVec F S64x64 .f32) (main_arg7 : FVec F S128x128 .f32) (main_arg8 : FVec F S128 .f32) (main_arg9 : FVec F S128x128 .f32) (main_arg10 : FVec F S256x128 .f32) (main_arg11 : FVec F S128 .f32) (main_arg12 : FVec F S256x128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S2000x64 : Shape := ⟨2, ![2000, 64]⟩
abbrev S2000x1 : Shape := ⟨2, ![2000, 1]⟩
abbrev S64x128 : Shape := ⟨2, ![64, 128]⟩
abbrev S1x128 : Shape := ⟨2, ![1, 128]⟩
abbrev S50000x128 : Shape := ⟨2, ![50000, 128]⟩
abbrev S2000x128 : Shape := ⟨2, ![2000, 128]⟩
abbrev S800000x128 : Shape := ⟨2, ![800000, 128]⟩

abbrev nBuf : Space → Nat
  | .hbm => 101
  | .vmem => 55
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S256x128, .f32⟩
  | .hbm, ⟨11, _⟩ => ⟨S128, .f32⟩
  | .hbm, ⟨12, _⟩ => ⟨S256x128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S_, .i32⟩
  | .hbm, ⟨20, _⟩ => ⟨S50000, .i32⟩
  | .hbm, ⟨21, _⟩ => ⟨S800000x1, .i32⟩
  | .hbm, ⟨22, _⟩ => ⟨S50000, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S1x64, .f32⟩
  | .hbm, ⟨45, _⟩ => ⟨S1x64, .f32⟩
  | .hbm, ⟨46, _⟩ => ⟨S50000x64, .f32⟩
  | .hbm, ⟨47, _⟩ => ⟨S50000x64, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x64, .f32⟩
  | .hbm, ⟨57, _⟩ => ⟨S_, .f32⟩
  | .hbm, ⟨58, _⟩ => ⟨S50000x64, .f32⟩
  | .hbm, ⟨59, _⟩ => ⟨S800000x1, .i32⟩
  | .hbm, ⟨60, _⟩ => ⟨S50000x64, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S64x128, .f32⟩
  | .hbm, ⟨75, _⟩ => ⟨S64x128, .f32⟩
  | .hbm, ⟨76, _⟩ => ⟨S64x128, .f32⟩
  | .hbm, ⟨77, _⟩ => ⟨S64x128, .f32⟩
  | .hbm, ⟨78, _⟩ => ⟨S1x128, .f32⟩
  | .hbm, ⟨79, _⟩ => ⟨S50000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S64x128, .f32⟩
  | .hbm, ⟨94, _⟩ => ⟨S64x128, .f32⟩
  | .hbm, ⟨95, _⟩ => ⟨S128x128, .f32⟩
  | .hbm, ⟨96, _⟩ => ⟨S64x128, .f32⟩
  | .hbm, ⟨97, _⟩ => ⟨S64x128, .f32⟩
  | .hbm, ⟨98, _⟩ => ⟨S128x128, .f32⟩
  | .hbm, ⟨99, _⟩ => ⟨S1x128, .f32⟩
  | .hbm, ⟨100, _⟩ => ⟨S50000x128, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x1, .f32⟩
  | .local _ .vmem, ⟨5, _⟩ => ⟨S2000x1, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x1, .f32⟩
  | .local _ .vmem, ⟨20, _⟩ => ⟨S2000x1, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S64x128, .f32⟩
  | .local _ .vmem, ⟨26, _⟩ => ⟨S64x128, .f32⟩
  | .local _ .vmem, ⟨27, _⟩ => ⟨S1x128, .f32⟩
  | .local _ .vmem, ⟨28, _⟩ => ⟨S64x128, .f32⟩
  | .local _ .vmem, ⟨29, _⟩ => ⟨S64x128, .f32⟩
  | .local _ .vmem, ⟨30, _⟩ => ⟨S2000x128, .f32⟩
  | .local _ .vmem, ⟨31, _⟩ => ⟨S2000x128, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x128, .f32⟩
  | .local _ .vmem, ⟨37, _⟩ => ⟨S2000x128, .f32⟩
  | .local _ .vmem, ⟨38, _⟩ => ⟨S2000x1, .f32⟩
  | .local _ .vmem, ⟨39, _⟩ => ⟨S2000x1, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S2000x128, .f32⟩
  | .local _ .vmem, ⟨45, _⟩ => ⟨S2000x128, .f32⟩
  | .local _ .vmem, ⟨46, _⟩ => ⟨S64x128, .f32⟩
  | .local _ .vmem, ⟨47, _⟩ => ⟨S64x128, .f32⟩
  | .local _ .vmem, ⟨48, _⟩ => ⟨S128x128, .f32⟩
  | .local _ .vmem, ⟨49, _⟩ => ⟨S1x128, .f32⟩
  | .local _ .vmem, ⟨50, _⟩ => ⟨S64x128, .f32⟩
  | .local _ .vmem, ⟨51, _⟩ => ⟨S64x128, .f32⟩
  | .local _ .vmem, ⟨52, _⟩ => ⟨S128x128, .f32⟩
  | .local _ .vmem, ⟨53, _⟩ => ⟨S2000x128, .f32⟩
  | .local _ .vmem, ⟨54, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26_0 : Ref sig .tc := ⟨.hbm, 46, rfl⟩
abbrev main_v26_1 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_c_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg10_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg8_0 : Ref sig .tc := ⟨.vmem, 47, rfl⟩
abbrev cc2_stg9_0 : Ref sig .tc := ⟨.vmem, 48, rfl⟩
abbrev cc2_stg10_0 : Ref sig .tc := ⟨.vmem, 49, rfl⟩
abbrev cc2_stg11_0 : Ref sig .tc := ⟨.vmem, 50, rfl⟩
abbrev cc2_stg12_0 : Ref sig .tc := ⟨.vmem, 51, rfl⟩
abbrev cc2_stg13_0 : Ref sig .tc := ⟨.vmem, 52, rfl⟩
abbrev cc2_stg14_0 : Ref sig .tc := ⟨.vmem, 53, rfl⟩
abbrev cc2_stg14_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem10_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem8_0 : DmaSem sig := 47
abbrev cc2_sem9_0 : DmaSem sig := 48
abbrev cc2_sem10_0 : DmaSem sig := 49
abbrev cc2_sem11_0 : DmaSem sig := 50
abbrev cc2_sem12_0 : DmaSem sig := 51
abbrev cc2_sem13_0 : DmaSem sig := 52
abbrev cc2_sem14_0 : DmaSem sig := 53
abbrev cc2_sem14_1 : DmaSem sig := 54

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S64x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S2000x128 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x64 : S_.BroadcastsInDim S50000x64 (![] : Fin 0 → Fin S50000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x64_S2000x64 : S2000x64.ShapeCasts S2000x64
  broadcasts_S2000x1_S2000x64 : S2000x1.Broadcasts S2000x64
  slices_S128x128_S64x128_0_0 : S128x128.Slices ![0, 0] S64x128
  slices_S128x128_S64x128_64_0 : S128x128.Slices ![64, 0] S64x128
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  slices_S256x128_S64x128_0_0 : S256x128.Slices ![0, 0] S64x128
  slices_S256x128_S64x128_64_0 : S256x128.Slices ![64, 0] S64x128
  slices_S256x128_S128x128_128_0 : S256x128.Slices ![128, 0] S128x128
  shapeCasts_S2000x128_S2000x128 : S2000x128.ShapeCasts S2000x128
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x64_S64x128_S2000x128_1_0_0_1_n_n_wf : DotDims.WF S2000x64 S64x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S50000x64.size a
  hwx0_8 : ∀ i : grid0.Coords, EltTy.bits .f32 = 32 ∨ (Rect.block (s := S50000x64) S2000x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S50000x64.size a
  hwx0_9 : ∀ i : grid0.Coords, EltTy.bits .f32 = 32 ∨ (Rect.block (s := S50000x64) S2000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x128.size a ≤ S64x128.size a
  hwx1_6 : ∀ i : grid1.Coords, EltTy.bits .f32 = 32 ∨ (Rect.block (s := S64x128) S64x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x128.size a ≤ S64x128.size a
  hwx1_8 : ∀ i : grid1.Coords, EltTy.bits .f32 = 32 ∨ (Rect.block (s := S64x128) S64x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x128.size a ≤ S64x128.size a
  hwx1_9 : ∀ i : grid1.Coords, EltTy.bits .f32 = 32 ∨ (Rect.block (s := S64x128) S64x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .f32 = 32 ∨ (Rect.block (s := S50000x64) S2000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x128.size a ≤ S64x128.size a
  hwx2_7 : ∀ i : grid2.Coords, EltTy.bits .f32 = 32 ∨ (Rect.block (s := S64x128) S64x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x128.size a ≤ S64x128.size a
  hwx2_8 : ∀ i : grid2.Coords, EltTy.bits .f32 = 32 ∨ (Rect.block (s := S64x128) S64x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64x128.size a ≤ S64x128.size a
  hwx2_11 : ∀ i : grid2.Coords, EltTy.bits .f32 = 32 ∨ (Rect.block (s := S64x128) S64x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S64x128.size a ≤ S64x128.size a
  hwx2_12 : ∀ i : grid2.Coords, EltTy.bits .f32 = 32 ∨ (Rect.block (s := S64x128) S64x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .f32 = 32 ∨ (Rect.block (s := S128x128) S128x128.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S2000x128.size a ≤ S50000x128.size a
  hwx2_14 : ∀ i : grid2.Coords, EltTy.bits .f32 = 32 ∨ (Rect.block (s := S50000x128) S2000x128.size (cc2_transform_14 i) (hinb2_14 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26_0) S2000x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v26_1) S2000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v36) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26_0) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v26_1) S2000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v47) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S64x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v49) S64x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v50) S64x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v52) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v36) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v26_0) S2000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v26_1) S2000x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v52) S2000x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v63) S64x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v64) S64x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v65) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v69) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v66) S64x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v67) S64x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v68) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v70) S2000x128.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S256x128 : Shape := ⟨2, ![256, 128]⟩
abbrev S1x800000 : Shape := ⟨2, ![1, 800000]⟩
abbrev S800000 : Shape := ⟨1, ![800000]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S800000x128 : Shape := ⟨2, ![800000, 128]⟩
abbrev S1x128 : Shape := ⟨2, ![1, 128]⟩
abbrev S50000x256 : Shape := ⟨2, ![50000, 256]⟩
abbrev S800000x256 : Shape := ⟨2, ![800000, 256]⟩

abbrev nBuf : Space → Nat
  | .hbm => 128
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S256x128, .f32⟩
  | .hbm, ⟨11, _⟩ => ⟨S128, .f32⟩
  | .hbm, ⟨12, _⟩ => ⟨S256x128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x64, .f32⟩
  | .hbm, ⟨18, _⟩ => ⟨S1x64, .f32⟩
  | .hbm, ⟨19, _⟩ => ⟨S50000x64, .f32⟩
  | .hbm, ⟨20, _⟩ => ⟨S50000x64, .f32⟩
  | .hbm, ⟨21, _⟩ => ⟨S_, .f32⟩
  | .hbm, ⟨22, _⟩ => ⟨S50000x64, .f32⟩
  | .hbm, ⟨23, _⟩ => ⟨S50000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S_, .f32⟩
  | .hbm, ⟨38, _⟩ => ⟨S800000, .f32⟩
  | .hbm, ⟨39, _⟩ => ⟨S_, .f32⟩
  | .hbm, ⟨40, _⟩ => ⟨S50000, .f32⟩
  | .hbm, ⟨41, _⟩ => ⟨S800000x1, .i32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S50000x64, .f32⟩
  | .hbm, ⟨48, _⟩ => ⟨S50000x64, .f32⟩
  | .hbm, ⟨49, _⟩ => ⟨S50000x64, .f32⟩
  | .hbm, ⟨50, _⟩ => ⟨S1x64, .f32⟩
  | .hbm, ⟨51, _⟩ => ⟨S50000x64, .f32⟩
  | .hbm, ⟨52, _⟩ => ⟨S50000x64, .f32⟩
  | .hbm, ⟨53, _⟩ => ⟨S50000x64, .f32⟩
  | .hbm, ⟨54, _⟩ => ⟨S50000x64, .f32⟩
  | .hbm, ⟨55, _⟩ => ⟨S_, .f32⟩
  | .hbm, ⟨56, _⟩ => ⟨S50000x64, .f32⟩
  | .hbm, ⟨57, _⟩ => ⟨S50000x64, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S_, .f32⟩
  | .hbm, ⟨73, _⟩ => ⟨S800000, .f32⟩
  | .hbm, ⟨74, _⟩ => ⟨S_, .f32⟩
  | .hbm, ⟨75, _⟩ => ⟨S50000, .f32⟩
  | .hbm, ⟨76, _⟩ => ⟨S800000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000x1, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S50000x256, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x256, .f32⟩
  | .hbm, ⟨103, _⟩ => ⟨S_, .f32⟩
  | .hbm, ⟨104, _⟩ => ⟨S50000x256, .f32⟩
  | .hbm, ⟨105, _⟩ => ⟨S800000x1, .i32⟩
  | .hbm, ⟨106, _⟩ => ⟨S50000x256, .f32⟩
  | .hbm, ⟨107, _⟩ => ⟨S_, .f32⟩
  | .hbm, ⟨108, _⟩ => ⟨S800000, .f32⟩
  | .hbm, ⟨109, _⟩ => ⟨S_, .f32⟩
  | .hbm, ⟨110, _⟩ => ⟨S50000, .f32⟩
  | .hbm, ⟨111, _⟩ => ⟨S800000x1, .i32⟩
  | .hbm, ⟨112, _⟩ => ⟨S50000, .f32⟩
  | .hbm, ⟨113, _⟩ => ⟨S_, .f32⟩
  | .hbm, ⟨114, _⟩ => ⟨S50000, .f32⟩
  | .hbm, ⟨115, _⟩ => ⟨S50000, .f32⟩
  | .hbm, ⟨116, _⟩ => ⟨S50000x1, .f32⟩
  | .hbm, ⟨117, _⟩ => ⟨S50000x256, .f32⟩
  | .hbm, ⟨118, _⟩ => ⟨S50000x256, .f32⟩
  | .hbm, ⟨119, _⟩ => ⟨S50000x128, .f32⟩
  | .hbm, ⟨120, _⟩ => ⟨S1x128, .f32⟩
  | .hbm, ⟨121, _⟩ => ⟨S50000x128, .f32⟩
  | .hbm, ⟨122, _⟩ => ⟨S50000x128, .f32⟩
  | .hbm, ⟨123, _⟩ => ⟨S50000x128, .f32⟩
  | .hbm, ⟨124, _⟩ => ⟨S50000x128, .f32⟩
  | .hbm, ⟨125, _⟩ => ⟨S_, .f32⟩
  | .hbm, ⟨126, _⟩ => ⟨S50000x128, .f32⟩
  | .hbm, ⟨127, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_cst : Ref sig .tc := ⟨.hbm, 55, rfl⟩
abbrev main_call1_v0 : Ref sig .tc := ⟨.hbm, 56, rfl⟩
abbrev main_v34 : Ref sig .tc := ⟨.hbm, 57, rfl⟩
abbrev main_v35 : Ref sig .tc := ⟨.hbm, 58, rfl⟩
abbrev main_c_4 : Ref sig .tc := ⟨.hbm, 59, rfl⟩
abbrev main_v36 : Ref sig .tc := ⟨.hbm, 60, rfl⟩
abbrev main_v37 : Ref sig .tc := ⟨.hbm, 61, rfl⟩
abbrev main_c_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call2_cst : Ref sig .tc := ⟨.hbm, 90, rfl⟩
abbrev main_call2_v0 : Ref sig .tc := ⟨.hbm, 91, rfl⟩
abbrev main_v61 : Ref sig .tc := ⟨.hbm, 92, rfl⟩
abbrev main_v62 : Ref sig .tc := ⟨.hbm, 93, rfl⟩
abbrev main_c_10 : Ref sig .tc := ⟨.hbm, 94, rfl⟩
abbrev main_v63 : Ref sig .tc := ⟨.hbm, 95, rfl⟩
abbrev main_v64 : Ref sig .tc := ⟨.hbm, 96, rfl⟩
abbrev main_c_11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_12 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_15 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call3_cst : Ref sig .tc := ⟨.hbm, 125, rfl⟩
abbrev main_call3_v0 : Ref sig .tc := ⟨.hbm, 126, rfl⟩
abbrev main_v88 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x64_S50000x64_S50000x128_S50000x256_d1 : Shape.Concatenates [S50000x64, S50000x64, S50000x128] S50000x256 1
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibSageSpec.lean ====
/-
  Three mean-aggregating graph layers, entry by entry, on the extended reals.

  A graph on `N` nodes is given by two index columns with one 32-bit entry per edge: the source column names the row
  an edge reads (read signed and clamped into range) and the destination column the node it lands on (read signed; an
  entry that is no node number lands nowhere). Collecting a node array along the edges sums, for each node, the source
  rows of the edges landing on it; the mean divides that by the in-degree, at least one. A layer is
  `relu((mean · Wl + bl) + X · Wr)`.

  The layers are written twice. The first spelling divides the collected rows by the degree and multiplies one wide
  array — earlier layers' results joined column-wise — by one tall weight matrix. The second multiplies the collected
  rows by the reciprocal of the degree, keeps the joined parts apart, and sums one product per part against the
  matching rows of the weight matrix. That the two spellings agree is the law of the module beside this one.
-/
import Idealize.ShloMosaic.PureOps.Ideal
import Idealize.ShloMosaic.Lib.ValueIdx

noncomputable section

open scoped BigOperators

namespace Cert.Sage

open Idealize.ShloMosaic Idealize.ShloMosaic.ValueIdx

/-- An index column: one 32-bit entry per edge. -/
abbrev Col (E : Nat) := IVec ⟨2, ![E, 1]⟩ 32

/-- Edge `e` lands on node `n`: its destination entry, read signed and not clamped, is `n`. -/
def lands {N E : Nat} (dst : Col E) (e : Fin E) (n : Fin N) : Prop :=
  (dst (ix2 e ⟨0, Nat.one_pos⟩)).toInt = (n.val : Int)

instance {N E : Nat} (dst : Col E) (e : Fin E) (n : Fin N) : Decidable (lands dst e n) :=
  inferInstanceAs (Decidable (_ = _))

/-- The row edge `e` reads: its source entry, read signed and clamped into `[0, N − 1]`. -/
def srcRow {N E : Nat} (hN : 0 < N) (src : Col E) (e : Fin E) : Fin N :=
  ⟨min (src (ix2 e ⟨0, Nat.one_pos⟩)).toInt.toNat (N - 1), by omega⟩

/-- The in-degree of node `n`: how many edges land on it. -/
def deg {N E : Nat} (dst : Col E) (n : Fin N) : ℕ :=
  (Finset.univ.filter fun e : Fin E => lands dst e n).card

/-- The mean's divisor: the in-degree, at least one. -/
def den {N E : Nat} (dst : Col E) (n : Fin N) : EReal := max ((deg dst n : ℝ) : EReal) 1

/-- Its reciprocal, as the exact quotient `1 / den`. -/
def inv {N E : Nat} (dst : Col E) (n : Fin N) : EReal := Ideal.div 1 (den dst n)

section
variable {N E : Nat} (hN : 0 < N) (dst src : Col E)

/-- Rows collected along the edges: entry `(n, q)` is the sum, over the edges landing on `n`, of entry `q` of the
    edge's source row. -/
def coll {C : Nat} (X : Fin N → Fin C → EReal) : Fin N → Fin C → EReal :=
  fun n q => ∑ e : Fin E, if lands dst e n then X (srcRow hN src e) q else 0

/-- The collected rows divided by the degree. -/
def meanDiv {C : Nat} (X : Fin N → Fin C → EReal) : Fin N → Fin C → EReal :=
  fun n q => Ideal.div (coll hN dst src X n q) (den dst n)

/-- The collected rows times the reciprocal of the degree. -/
def meanMul {C : Nat} (X : Fin N → Fin C → EReal) : Fin N → Fin C → EReal :=
  fun n q => coll hN dst src X n q * inv dst n

end

/-- A matrix product, entry by entry. -/
def dense {N K C : Nat} (X : Fin N → Fin K → EReal) (W : Fin K → Fin C → EReal) : Fin N → Fin C → EReal :=
  fun n j => ∑ k : Fin K, X n k * W k j

/-- The input projection `relu(X · W + b)`. -/
def proj {N K C : Nat} (X : Fin N → Fin K → EReal) (W : Fin K → Fin C → EReal) (b : Fin C → EReal) :
    Fin N → Fin C → EReal :=
  fun n j => max (dense X W n j + b j) 0

/-- Two arrays joined column-wise. -/
def cat2 {N : Nat} (A B : Fin N → Fin 64 → EReal) : Fin N → Fin 128 → EReal :=
  fun n k => if h : k.val < 64 then A n ⟨k.val, h⟩ else B n ⟨k.val - 64, by omega⟩

/-- Three arrays joined column-wise. -/
def cat3 {N : Nat} (A B : Fin N → Fin 64 → EReal) (D : Fin N → Fin 128 → EReal) : Fin N → Fin 256 → EReal :=
  fun n k => if h : k.val < 64 then A n ⟨k.val, h⟩
    else if h' : k.val < 128 then B n ⟨k.val - 64, by omega⟩ else D n ⟨k.val - 128, by omega⟩

/-- Rows `o … o + K − 1` of a weight matrix. -/
def rowsFrom {K' C : Nat} (K o : Nat) (h : o + K ≤ K') (W : Fin K' → Fin C → EReal) : Fin K → Fin C → EReal :=
  fun k j => W ⟨o + k.val, by omega⟩ j

section
variable {N E : Nat} (hN : 0 < N) (dst src : Col E)

/-- A layer in the first spelling: `relu((mean · Wl + bl) + X · Wr)` with the mean a quotient. -/
def layerDiv {K C : Nat} (X : Fin N → Fin K → EReal) (Wl : Fin K → Fin C → EReal) (bl : Fin C → EReal)
    (Wr : Fin K → Fin C → EReal) : Fin N → Fin C → EReal :=
  fun n j => max ((dense (meanDiv hN dst src X) Wl n j + bl j) + dense X Wr n j) 0

/-- The same layer with the mean a product by the reciprocal degree. -/
def layerMul {K C : Nat} (X : Fin N → Fin K → EReal) (Wl : Fin K → Fin C → EReal) (bl : Fin C → EReal)
    (Wr : Fin K → Fin C → EReal) : Fin N → Fin C → EReal :=
  fun n j => max ((dense (meanMul hN dst src X) Wl n j + bl j) + dense X Wr n j) 0

/-- A layer over two parts kept apart, each against its rows of the weights. -/
def layerMul2 {C : Nat} (A B : Fin N → Fin 64 → EReal) (Wl : Fin 128 → Fin C → EReal) (bl : Fin C → EReal)
    (Wr : Fin 128 → Fin C → EReal) : Fin N → Fin C → EReal :=
  fun n j => max (((dense (meanMul hN dst src A) (rowsFrom 64 0 (by omega) Wl) n j
        + dense (meanMul hN dst src B) (rowsFrom 64 64 (by omega) Wl) n j) + bl j)
      + (dense A (rowsFrom 64 0 (by omega) Wr) n j + dense B (rowsFrom 64 64 (by omega) Wr) n j)) 0

/-- A layer over three parts kept apart. -/
def layerMul3 {C : Nat} (A B : Fin N → Fin 64 → EReal) (D : Fin N → Fin 128 → EReal) (Wl : Fin 256 → Fin C → EReal)
    (bl : Fin C → EReal) (Wr : Fin 256 → Fin C → EReal) : Fin N → Fin C → EReal :=
  fun n j => max ((((dense (meanMul hN dst src A) (rowsFrom 64 0 (by omega) Wl) n j
          + dense (meanMul hN dst src B) (rowsFrom 64 64 (by omega) Wl) n j)
        + dense (meanMul hN dst src D) (rowsFrom 128 128 (by omega) Wl) n j) + bl j)
      + ((dense A (rowsFrom 64 0 (by omega) Wr) n j + dense B (rowsFrom 64 64 (by omega) Wr) n j)
        + dense D (rowsFrom 128 128 (by omega) Wr) n j)) 0

variable (x : Fin N → Fin 64 → EReal) (Wp : Fin 64 → Fin 64 → EReal) (bp : Fin 64 → EReal)
  (Wl1 : Fin 64 → Fin 64 → EReal) (bl1 : Fin 64 → EReal) (Wr1 : Fin 64 → Fin 64 → EReal)
  (Wl2 : Fin 128 → Fin 128 → EReal) (bl2 : Fin 128 → EReal) (Wr2 : Fin 128 → Fin 128 → EReal)
  (Wl3 : Fin 256 → Fin 128 → EReal) (bl3 : Fin 128 → EReal) (Wr3 : Fin 256 → Fin 128 → EReal)

/-- The three layers in the first spelling: joined inputs, quotient means. -/
def netDiv : Fin N → Fin 128 → EReal :=
  let xp := proj x Wp bp
  let h1 := layerDiv hN dst src x Wl1 bl1 Wr1
  let h2 := layerDiv hN dst src (cat2 xp h1) Wl2 bl2 Wr2
  layerDiv hN dst src (cat3 xp h1 h2) Wl3 bl3 Wr3

/-- The first hidden array of the second spelling. -/
def hid1 : Fin N → Fin 64 → EReal := layerMul hN dst src x Wl1 bl1 Wr1

/-- The second hidden array of the second spelling. -/
def hid2 : Fin N → Fin 128 → EReal :=
  layerMul2 hN dst src (proj x Wp bp) (hid1 hN dst src x Wl1 bl1 Wr1) Wl2 bl2 Wr2

/-- The three layers in the second spelling: parts kept apart, reciprocal means. -/
def netMul : Fin N → Fin 128 → EReal :=
  layerMul3 hN dst src (proj x Wp bp) (hid1 hN dst src x Wl1 bl1 Wr1)
    (hid2 hN dst src x Wp bp Wl1 bl1 Wr1 Wl2 bl2 Wr2) Wl3 bl3 Wr3

end

end Cert.Sage

end
-- ==== Proof.LibSageLaw.lean ====
/-
  The two spellings of the three mean-aggregating graph layers agree, entry by entry, on the extended reals.

  Three facts carry the proof. The mean's divisor is a real number at least one, so dividing by it and multiplying
  by its reciprocal are the same operation at every extended real. Collecting rows along the edges acts on each
  column by itself, so it commutes with joining arrays column-wise. A contraction over a joined axis is the sum of
  the contractions over the parts, each against its rows of the weights; this uses only that addition on the
  extended reals is commutative and associative.
-/
import proofs.«176597_j21869973471634_2_alg».proof.Proof.LibSageSpec

noncomputable section

open scoped BigOperators

namespace Cert.Sage

open Idealize.ShloMosaic Idealize.ShloMosaic.ValueIdx

/-! ### The divisor is a real number at least one -/

/-- The mean's divisor is the real number `max (deg) 1`. -/
theorem den_eq_coe {N E : Nat} (dst : Col E) (n : Fin N) :
    den dst n = ((max (deg dst n : ℝ) 1 : ℝ) : EReal) := by
  unfold den
  rw [EReal.coe_strictMono.monotone.map_max, EReal.coe_one]

/-- The real divisor is not zero: it is at least one. -/
theorem max_deg_one_ne_zero {N E : Nat} (dst : Col E) (n : Fin N) : (max (deg dst n : ℝ) 1 : ℝ) ≠ 0 := by
  have h : (1 : ℝ) ≤ max (deg dst n : ℝ) 1 := le_max_right _ _
  intro h0
  rw [h0] at h
  exact absurd h (by norm_num)

/-- The reciprocal of the divisor is the real number `1 / max (deg) 1`. -/
theorem inv_eq_coe {N E : Nat} (dst : Col E) (n : Fin N) :
    inv dst n = ((1 / max (deg dst n : ℝ) 1 : ℝ) : EReal) := by
  unfold inv
  rw [den_eq_coe, Ideal.div_coe (max_deg_one_ne_zero dst n), one_mul]

section
variable {N E : Nat} (hN : 0 < N) (dst src : Col E)

/-! ### Quotient mean and reciprocal mean agree -/

/-- Multiplying by the reciprocal degree is dividing by the degree, at every extended real. -/
theorem meanMul_eq_meanDiv {C : Nat} (X : Fin N → Fin C → EReal) :
    meanMul hN dst src X = meanDiv hN dst src X := by
  funext n q
  unfold meanMul meanDiv
  rw [inv_eq_coe, den_eq_coe, Ideal.div_coe (max_deg_one_ne_zero dst n)]

/-- Hence the two spellings of one layer agree. -/
theorem layerMul_eq_layerDiv {K C : Nat} (X : Fin N → Fin K → EReal) (Wl : Fin K → Fin C → EReal)
    (bl : Fin C → EReal) (Wr : Fin K → Fin C → EReal) :
    layerMul hN dst src X Wl bl Wr = layerDiv hN dst src X Wl bl Wr := by
  unfold layerMul layerDiv
  rw [meanMul_eq_meanDiv]

/-! ### Collecting commutes with joining columns -/

/-- Collecting two joined arrays is joining the two collected arrays. -/
theorem coll_cat2 (A B : Fin N → Fin 64 → EReal) :
    coll hN dst src (cat2 A B) = cat2 (coll hN dst src A) (coll hN dst src B) := by
  funext n k
  by_cases h : k.val < 64
  · simp only [coll, cat2, dif_pos h]
  · simp only [coll, cat2, dif_neg h]

/-- Collecting three joined arrays is joining the three collected arrays. -/
theorem coll_cat3 (A B : Fin N → Fin 64 → EReal) (D : Fin N → Fin 128 → EReal) :
    coll hN dst src (cat3 A B D) = cat3 (coll hN dst src A) (coll hN dst src B) (coll hN dst src D) := by
  funext n k
  by_cases h : k.val < 64
  · simp only [coll, cat3, dif_pos h]
  · by_cases h' : k.val < 128
    · simp only [coll, cat3, dif_neg h, dif_pos h']
    · simp only [coll, cat3, dif_neg h, dif_neg h']

/-- The quotient mean of two joined arrays is the two quotient means joined. -/
theorem meanDiv_cat2 (A B : Fin N → Fin 64 → EReal) :
    meanDiv hN dst src (cat2 A B) = cat2 (meanDiv hN dst src A) (meanDiv hN dst src B) := by
  funext n k
  unfold meanDiv
  rw [coll_cat2]
  by_cases h : k.val < 64
  · simp only [cat2, dif_pos h]
  · simp only [cat2, dif_neg h]

/-- The quotient mean of three joined arrays is the three quotient means joined. -/
theorem meanDiv_cat3 (A B : Fin N → Fin 64 → EReal) (D : Fin N → Fin 128 → EReal) :
    meanDiv hN dst src (cat3 A B D)
      = cat3 (meanDiv hN dst src A) (meanDiv hN dst src B) (meanDiv hN dst src D) := by
  funext n k
  unfold meanDiv
  rw [coll_cat3]
  by_cases h : k.val < 64
  · simp only [cat3, dif_pos h]
  · by_cases h' : k.val < 128
    · simp only [cat3, dif_neg h, dif_pos h']
    · simp only [cat3, dif_neg h, dif_neg h']

end

/-! ### A contraction over a joined axis splits -/

/-- A sum over `a + b` indices is the sum over the first `a` plus the sum over the last `b`. -/
theorem sum_fin_split {M : Type*} [AddCommMonoid M] (a b c : ℕ) (h : a + b = c) (f : Fin c → M) :
    ∑ k : Fin c, f k
      = ∑ i : Fin a, f ⟨i.val, by omega⟩ + ∑ i : Fin b, f ⟨a + i.val, by omega⟩ := by
  subst h
  rw [Fin.sum_univ_add]
  rfl

/-- Entries of the first part of two joined arrays. -/
theorem cat2_low {N : Nat} (A B : Fin N → Fin 64 → EReal) (n : Fin N) (i : Fin 64) (h : i.val < 128) :
    cat2 A B n ⟨i.val, h⟩ = A n i := by
  simp only [cat2, dif_pos i.isLt]

/-- Entries of the second part of two joined arrays. -/
theorem cat2_high {N : Nat} (A B : Fin N → Fin 64 → EReal) (n : Fin N) (i : Fin 64) (h : 64 + i.val < 128) :
    cat2 A B n ⟨64 + i.val, h⟩ = B n i := by
  have hn : ¬ (64 + i.val < 64) := by omega
  simp only [cat2, dif_neg hn]
  congr 1
  exact Fin.ext (by simp)

/-- A contraction over two joined parts is the sum of the two contractions, each against its rows. -/
theorem dense_cat2 {N C : Nat} (A B : Fin N → Fin 64 → EReal) (W : Fin 128 → Fin C → EReal)
    (n : Fin N) (j : Fin C) :
    dense (cat2 A B) W n j
      = dense A (rowsFrom 64 0 (by omega) W) n j + dense B (rowsFrom 64 64 (by omega) W) n j := by
  unfold dense
  rw [sum_fin_split 64 64 128 rfl]
  refine congrArg₂ (· + ·) (Finset.sum_congr rfl fun i _ => ?_) (Finset.sum_congr rfl fun i _ => ?_)
  · rw [cat2_low]
    simp only [rowsFrom, Nat.zero_add]
  · rw [cat2_high]
    simp only [rowsFrom]

/-- Entries of the first part of three joined arrays. -/
theorem cat3_low {N : Nat} (A B : Fin N → Fin 64 → EReal) (D : Fin N → Fin 128 → EReal) (n : Fin N)
    (i : Fin 64) (h : i.val < 256) : cat3 A B D n ⟨i.val, h⟩ = A n i := by
  simp only [cat3, dif_pos i.isLt]

/-- Entries of the second part of three joined arrays. -/
theorem cat3_mid {N : Nat} (A B : Fin N → Fin 64 → EReal) (D : Fin N → Fin 128 → EReal) (n : Fin N)
    (i : Fin 64) (h : 64 + i.val < 256) : cat3 A B D n ⟨64 + i.val, h⟩ = B n i := by
  have hn : ¬ (64 + i.val < 64) := by omega
  have hp : 64 + i.val < 128 := by omega
  simp only [cat3, dif_neg hn, dif_pos hp]
  congr 1
  exact Fin.ext (by simp)

/-- Entries of the third part of three joined arrays. -/
theorem cat3_high {N : Nat} (A B : Fin N → Fin 64 → EReal) (D : Fin N → Fin 128 → EReal) (n : Fin N)
    (i : Fin 128) (h : 128 + i.val < 256) : cat3 A B D n ⟨128 + i.val, h⟩ = D n i := by
  have hn : ¬ (128 + i.val < 64) := by omega
  have hn' : ¬ (128 + i.val < 128) := by omega
  simp only [cat3, dif_neg hn, dif_neg hn']
  congr 1
  exact Fin.ext (by simp)

/-- A contraction over three joined parts is the sum of the three contractions, each against its rows. -/
theorem dense_cat3 {N C : Nat} (A B : Fin N → Fin 64 → EReal) (D : Fin N → Fin 128 → EReal)
    (W : Fin 256 → Fin C → EReal) (n : Fin N) (j : Fin C) :
    dense (cat3 A B D) W n j
      = (dense A (rowsFrom 64 0 (by omega) W) n j + dense B (rowsFrom 64 64 (by omega) W) n j)
        + dense D (rowsFrom 128 128 (by omega) W) n j := by
  unfold dense
  rw [sum_fin_split 128 128 256 rfl, sum_fin_split 64 64 128 rfl]
  refine congrArg₂ (· + ·)
    (congrArg₂ (· + ·) (Finset.sum_congr rfl fun i _ => ?_) (Finset.sum_congr rfl fun i _ => ?_))
    (Finset.sum_congr rfl fun i _ => ?_)
  · rw [cat3_low]
    simp only [rowsFrom, Nat.zero_add]
  · rw [cat3_mid]
    simp only [rowsFrom]
  · rw [cat3_high]
    simp only [rowsFrom]

/-! ### The layers over parts kept apart -/

section
variable {N E : Nat} (hN : 0 < N) (dst src : Col E)

/-- A layer over two parts kept apart is the quotient-mean layer on the joined array. -/
theorem layerMul2_eq_layerDiv {C : Nat} (A B : Fin N → Fin 64 → EReal) (Wl : Fin 128 → Fin C → EReal)
    (bl : Fin C → EReal) (Wr : Fin 128 → Fin C → EReal) :
    layerMul2 hN dst src A B Wl bl Wr = layerDiv hN dst src (cat2 A B) Wl bl Wr := by
  funext n j
  unfold layerMul2 layerDiv
  rw [meanDiv_cat2, dense_cat2, dense_cat2, meanMul_eq_meanDiv, meanMul_eq_meanDiv]

/-- A layer over three parts kept apart is the quotient-mean layer on the joined array. -/
theorem layerMul3_eq_layerDiv {C : Nat} (A B : Fin N → Fin 64 → EReal) (D : Fin N → Fin 128 → EReal)
    (Wl : Fin 256 → Fin C → EReal) (bl : Fin C → EReal) (Wr : Fin 256 → Fin C → EReal) :
    layerMul3 hN dst src A B D Wl bl Wr = layerDiv hN dst src (cat3 A B D) Wl bl Wr := by
  funext n j
  unfold layerMul3 layerDiv
  rw [meanDiv_cat3, dense_cat3, dense_cat3, meanMul_eq_meanDiv, meanMul_eq_meanDiv, meanMul_eq_meanDiv]

/-! ### The three layers -/

/-- The two spellings of the three layers agree. -/
theorem netMul_eq_netDiv (x : Fin N → Fin 64 → EReal) (Wp : Fin 64 → Fin 64 → EReal) (bp : Fin 64 → EReal)
    (Wl1 : Fin 64 → Fin 64 → EReal) (bl1 : Fin 64 → EReal) (Wr1 : Fin 64 → Fin 64 → EReal)
    (Wl2 : Fin 128 → Fin 128 → EReal) (bl2 : Fin 128 → EReal) (Wr2 : Fin 128 → Fin 128 → EReal)
    (Wl3 : Fin 256 → Fin 128 → EReal) (bl3 : Fin 128 → EReal) (Wr3 : Fin 256 → Fin 128 → EReal) :
    netMul hN dst src x Wp bp Wl1 bl1 Wr1 Wl2 bl2 Wr2 Wl3 bl3 Wr3
      = netDiv hN dst src x Wp bp Wl1 bl1 Wr1 Wl2 bl2 Wr2 Wl3 bl3 Wr3 := by
  unfold netMul netDiv hid2 hid1
  rw [layerMul3_eq_layerDiv, layerMul2_eq_layerDiv, layerMul_eq_layerDiv]

end

end Cert.Sage

end
-- ==== Proof.KernelTerms.lean ====
/-
  The idealized program's intermediate arrays, as terms of its thirteen argument arrays.

  The host side makes, from the edge array, a source column and a destination column, the reciprocal of the larger
  of in-degree and one as a column, and — before each pipeline — the rows of the previous results collected along the
  edges; it also cuts the later layers' weight matrices into the row blocks that meet each part of the input, and
  recasts the bias vectors as one-row arrays. Each pipeline then computes, row by row, one layer
  `relu((mean · Wl + b) + X · Wr)` with the mean the collected rows times the reciprocal column, the contraction over the
  joined input written as one sum per part. The arrays are named here in program order; the last is the result.
-/
import proofs.«176597_j21869973471634_2_alg».proof.Proof.Gen.KernelIdeal
import Idealize.ShloMosaic.PureOps.Ideal
import Idealize.ShloMosaic.Lib.ValueIdx

noncomputable section

open scoped BigOperators

namespace Cert.KernelIdeal.Terms

open Cert.KernelIdeal Cert.KernelIdeal.Gen
open Idealize.ShloMosaic Idealize.ShloMosaic.ValueIdx

/-! ## The host side's terms -/

/-- The first row of the edge array as a vector: the edges' source entries. -/
def edgeRow0 (ei : IVec S2x800000 32) : IVec S800000 32 :=
  shapeCast S800000 (extractStridedSlice S1x800000 ![0, 0] ei slices_S2x800000_S1x800000_0_0) shapeCasts_S1x800000_S800000

/-- The second row of the edge array as a vector: the edges' destination entries. -/
def edgeRow1 (ei : IVec S2x800000 32) : IVec S800000 32 :=
  shapeCast S800000 (extractStridedSlice S1x800000 ![1, 0] ei slices_S2x800000_S1x800000_1_0) shapeCasts_S1x800000_S800000

/-- The destination column: one destination entry per row. -/
def dstCol (v3 : IVec S800000 32) : IVec S800000x1 32 := broadcastInDim S800000x1 ![0] bcast_S800000_S800000x1_0 v3

/-- The source column: the source entries, every negative one moved up by 50000, one per row. -/
def srcCol (v1 : IVec S800000 32) : IVec S800000x1 32 :=
  broadcastInDim S800000x1 ![0] bcast_S800000_S800000x1_0
    (select (cmpi CmpIPredicate.slt v1 (broadcastInDim S800000 ![] bcast_S_S800000 (constantI S_ 32 0#32)))
      (addi v1 (broadcastInDim S800000 ![] bcast_S_S800000 (constantI S_ 32 50000#32))) v1)

/-- The reciprocal of the larger of in-degree (counted in 32-bit integers) and one, as a column. -/
def invCol (v3 : IVec S800000 32) : FVec Ideal S50000x1 .f32 :=
  shapeCast S50000x1
    (Host.divf (broadcastInDim S50000 ![] bcast_S_S50000 (constant S_ FTy.f32 0x3F800000#32))
      (maximumf
        (sitofp FTy.f32
          (Host.scatter scatter_S50000_S800000x1_S800000_n_0_0_1 IntOp.addi
            (broadcastInDim S50000 ![] bcast_S_S50000 (constantI S_ 32 0#32)) (dstCol v3)
            (broadcastInDim S800000 ![] bcast_S_S800000 (constantI S_ 32 1#32))))
        (broadcastInDim S50000 ![] bcast_S_S50000 (constant S_ FTy.f32 0x3F800000#32))))
    shapeCasts_S50000_S50000x1

/-- Rows of a 64-column array collected along the edges: gathered by the source column, summed into zeros by the
    destination column. -/
def collect64 (v1 v3 : IVec S800000 32) (X : FVec Ideal S50000x64 .f32) : FVec Ideal S50000x64 .f32 :=
  Host.scatterAdd scatter_S50000x64_S800000x1_S800000x64_1_0_0_1
    (broadcastInDim S50000x64 ![] bcast_S_S50000x64 (constant S_ FTy.f32 0x00000000#32)) (dstCol v3)
    (Host.gather gather_S50000x64_S800000x1_S800000x64_1_0_n_n_0_1_164 X (srcCol v1))

/-- The same for a 128-column array. -/
def collect128 (v1 v3 : IVec S800000 32) (X : FVec Ideal S50000x128 .f32) : FVec Ideal S50000x128 .f32 :=
  Host.scatterAdd scatter_S50000x128_S800000x1_S800000x128_1_0_0_1
    (broadcastInDim S50000x128 ![] bcast_S_S50000x128 (constant S_ FTy.f32 0x00000000#32)) (dstCol v3)
    (Host.gather gather_S50000x128_S800000x1_S800000x128_1_0_n_n_0_1_1128 X (srcCol v1))

/-- A 64-entry bias vector as a one-row array. -/
def row64 (b : FVec Ideal S64 .f32) : FVec Ideal S1x64 .f32 := shapeCast S1x64 b shapeCasts_S64_S1x64
/-- A 128-entry bias vector as a one-row array. -/
def row128 (b : FVec Ideal S128 .f32) : FVec Ideal S1x128 .f32 := shapeCast S1x128 b shapeCasts_S128_S1x128

/-- Rows 0–63 of a 128-row weight matrix. -/
def top64 (W : FVec Ideal S128x128 .f32) : FVec Ideal S64x128 .f32 :=
  extractStridedSlice S64x128 ![0, 0] W slices_S128x128_S64x128_0_0
/-- Rows 64–127 of a 128-row weight matrix. -/
def bot64 (W : FVec Ideal S128x128 .f32) : FVec Ideal S64x128 .f32 :=
  extractStridedSlice S64x128 ![64, 0] W slices_S128x128_S64x128_64_0
/-- Rows 0–63 of a 256-row weight matrix. -/
def part0 (W : FVec Ideal S256x128 .f32) : FVec Ideal S64x128 .f32 :=
  extractStridedSlice S64x128 ![0, 0] W slices_S256x128_S64x128_0_0
/-- Rows 64–127 of a 256-row weight matrix. -/
def part1 (W : FVec Ideal S256x128 .f32) : FVec Ideal S64x128 .f32 :=
  extractStridedSlice S64x128 ![64, 0] W slices_S256x128_S64x128_64_0
/-- Rows 128–255 of a 256-row weight matrix. -/
def part2 (W : FVec Ideal S256x128 .f32) : FVec Ideal S128x128 .f32 :=
  extractStridedSlice S128x128 ![128, 0] W slices_S256x128_S128x128_128_0

/-! ## One row of each pipeline's result -/

/-- `relu(X · W + b)` at `(n, j)`, the bias a one-row array. -/
def projAt (X : S50000x64.Idx → EReal) (W : S64x64.Idx → EReal) (b : S1x64.Idx → EReal) (n : Fin 50000) (j : Fin 64) : EReal :=
  max ((∑ k : Fin 64, X (ix2 n k) * W (ix2 k j)) + b (ix2 0 j)) 0

/-- `relu(((A ∘ s) · Wl + b) + X · Wr)` at `(n, j)`: the collected rows `A` scaled row-wise by the column `s`. -/
def layer1At (X A : S50000x64.Idx → EReal) (s : S50000x1.Idx → EReal) (Wl : S64x64.Idx → EReal) (b : S1x64.Idx → EReal)
    (Wr : S64x64.Idx → EReal) (n : Fin 50000) (j : Fin 64) : EReal :=
  max (((∑ k : Fin 64, (A (ix2 n k) * s (ix2 n 0)) * Wl (ix2 k j)) + b (ix2 0 j)) + ∑ k : Fin 64, X (ix2 n k) * Wr (ix2 k j)) 0

/-- The second layer at `(n, j)`: two collected parts and two input parts, each against its block of the weights. -/
def layer2At (SA SB : S50000x64.Idx → EReal) (s : S50000x1.Idx → EReal) (A B : S50000x64.Idx → EReal)
    (Wla Wlb : S64x128.Idx → EReal) (b : S1x128.Idx → EReal) (Wra Wrb : S64x128.Idx → EReal) (n : Fin 50000) (j : Fin 128) : EReal :=
  max ((((∑ k : Fin 64, (SA (ix2 n k) * s (ix2 n 0)) * Wla (ix2 k j)) + ∑ k : Fin 64, (SB (ix2 n k) * s (ix2 n 0)) * Wlb (ix2 k j))
      + b (ix2 0 j))
    + ((∑ k : Fin 64, A (ix2 n k) * Wra (ix2 k j)) + ∑ k : Fin 64, B (ix2 n k) * Wrb (ix2 k j))) 0

/-- The third layer at `(n, j)`: three collected parts and three input parts. -/
def layer3At (SA SB : S50000x64.Idx → EReal) (SD : S50000x128.Idx → EReal) (s : S50000x1.Idx → EReal)
    (A B : S50000x64.Idx → EReal) (D : S50000x128.Idx → EReal) (Wla Wlb : S64x128.Idx → EReal) (Wlc : S128x128.Idx → EReal)
    (b : S1x128.Idx → EReal) (Wra Wrb : S64x128.Idx → EReal) (Wrc : S128x128.Idx → EReal) (n : Fin 50000) (j : Fin 128) : EReal :=
  max (((((∑ k : Fin 64, (SA (ix2 n k) * s (ix2 n 0)) * Wla (ix2 k j)) + ∑ k : Fin 64, (SB (ix2 n k) * s (ix2 n 0)) * Wlb (ix2 k j))
        + ∑ k : Fin 128, (SD (ix2 n k) * s (ix2 n 0)) * Wlc (ix2 k j)) + b (ix2 0 j))
    + (((∑ k : Fin 64, A (ix2 n k) * Wra (ix2 k j)) + ∑ k : Fin 64, B (ix2 n k) * Wrb (ix2 k j))
        + ∑ k : Fin 128, D (ix2 n k) * Wrc (ix2 k j))) 0

/-! ## The arrays, in program order -/

section
variable (x : FVec Ideal S50000x64 .f32) (ei : IVec S2x800000 32) (Wp : FVec Ideal S64x64 .f32) (bp : FVec Ideal S64 .f32)
  (Wl1 : FVec Ideal S64x64 .f32) (bl1 : FVec Ideal S64 .f32) (Wr1 : FVec Ideal S64x64 .f32)
  (Wl2 : FVec Ideal S128x128 .f32) (bl2 : FVec Ideal S128 .f32) (Wr2 : FVec Ideal S128x128 .f32)
  (Wl3 : FVec Ideal S256x128 .f32) (bl3 : FVec Ideal S128 .f32) (Wr3 : FVec Ideal S256x128 .f32)

/-- The projected input. -/
def XP : FVec Ideal S50000x64 .f32 := fun i => projAt x Wp (row64 bp) (i 0) (i 1)

/-- The first hidden array. -/
def H1 : FVec Ideal S50000x64 .f32 :=
  fun i => layer1At x (collect64 (edgeRow0 ei) (edgeRow1 ei) x) (invCol (edgeRow1 ei)) Wl1 (row64 bl1) Wr1 (i 0) (i 1)

/-- The projected input collected along the edges. -/
def SXP : FVec Ideal S50000x64 .f32 := collect64 (edgeRow0 ei) (edgeRow1 ei) (XP x Wp bp)

/-- The first hidden array collected along the edges. -/
def SH1 : FVec Ideal S50000x64 .f32 := collect64 (edgeRow0 ei) (edgeRow1 ei) (H1 x ei Wl1 bl1 Wr1)

/-- The second hidden array. -/
def H2 : FVec Ideal S50000x128 .f32 :=
  fun i => layer2At (SXP x ei Wp bp) (SH1 x ei Wl1 bl1 Wr1) (invCol (edgeRow1 ei)) (XP x Wp bp) (H1 x ei Wl1 bl1 Wr1)
    (top64 Wl2) (bot64 Wl2) (row128 bl2) (top64 Wr2) (bot64 Wr2) (i 0) (i 1)

/-- The second hidden array collected along the edges. -/
def SH2 : FVec Ideal S50000x128 .f32 := collect128 (edgeRow0 ei) (edgeRow1 ei) (H2 x ei Wp bp Wl1 bl1 Wr1 Wl2 bl2 Wr2)

/-- The result. -/
def H3 : FVec Ideal S50000x128 .f32 :=
  fun i => layer3At (SXP x ei Wp bp) (SH1 x ei Wl1 bl1 Wr1) (SH2 x ei Wp bp Wl1 bl1 Wr1 Wl2 bl2 Wr2) (invCol (edgeRow1 ei))
    (XP x Wp bp) (H1 x ei Wl1 bl1 Wr1) (H2 x ei Wp bp Wl1 bl1 Wr1 Wl2 bl2 Wr2)
    (part0 Wl3) (part1 Wl3) (part2 Wl3) (row128 bl3) (part0 Wr3) (part1 Wr3) (part2 Wr3) (i 0) (i 1)

end

end Cert.KernelIdeal.Terms

end
-- ==== Proof.Stage0.lean ====
/-
  The buffers at the first pipeline's entry, as terms of the launch memory.

  The host stretch before the first pipeline writes the edge rows, the reciprocal-degree column, the rows of `x`
  collected along the edges and the two bias rows; it writes none of the argument arrays. Each operation's result is
  first read as a term of the stretch's inputs, whatever the buffers hold at its start; then each buffer the first
  pipeline reads, and each one a later stretch reads again, is read at that boundary from the launch memory.
-/
import proofs.«176597_j21869973471634_2_alg».proof.Proof.Gen.KernelIdeal.Frame
import proofs.«176597_j21869973471634_2_alg».proof.Proof.KernelTerms
import Idealize.ShloMosaic.Lib.StableHlo.Run
import Idealize.ShloMosaic.PureOps.Ideal

set_option maxRecDepth 16384

noncomputable section

open scoped BigOperators

namespace Cert.KernelIdeal.Stages

open Cert.KernelIdeal Cert.KernelIdeal.Gen Cert.KernelIdeal.Terms
open Idealize.ShloMosaic Idealize.ShloMosaic.TcCoe Idealize.ShloMosaic.Tactic Idealize.SL.Sem Idealize.ShloMosaic.StableHlo

/-- A buffer no operation of a host stretch writes holds after the stretch what it held before. -/
macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

set_option maxHeartbeats 4000000 in
/-- The edges' source entries. -/
theorem ops0_v1 (U : Valuation τ sig (Elt Ideal)) {ei : _} (h0 : U (Proc.devRef .tc main_arg1) = ei) :
    StableHlo.after hostOps0 U (Proc.devRef .tc main_v1) = edgeRow0 ei := by
  subst h0
  after_results
  rfl
set_option maxHeartbeats 4000000 in
/-- The edges' destination entries. -/
theorem ops0_v3 (U : Valuation τ sig (Elt Ideal)) {ei : _} (h0 : U (Proc.devRef .tc main_arg1) = ei) :
    StableHlo.after hostOps0 U (Proc.devRef .tc main_v3) = edgeRow1 ei := by
  subst h0
  after_results
  rfl
set_option maxHeartbeats 4000000 in
/-- The reciprocal-degree column. -/
theorem ops0_v13 (U : Valuation τ sig (Elt Ideal)) {ei : _} (h0 : U (Proc.devRef .tc main_arg1) = ei) :
    StableHlo.after hostOps0 U (Proc.devRef .tc main_v13) = invCol (edgeRow1 ei) := by
  subst h0
  after_results
  rfl
set_option maxHeartbeats 4000000 in
/-- The rows of `x` collected along the edges. -/
theorem ops0_v23 (U : Valuation τ sig (Elt Ideal)) {ei x : _} (h0 : U (Proc.devRef .tc main_arg1) = ei) (h1 : U (Proc.devRef .tc main_arg0) = x) :
    StableHlo.after hostOps0 U (Proc.devRef .tc main_v23) = collect64 (edgeRow0 ei) (edgeRow1 ei) x := by
  subst h0 h1
  after_results
  rfl
set_option maxHeartbeats 4000000 in
/-- The projection's bias as a row. -/
theorem ops0_v24 (U : Valuation τ sig (Elt Ideal)) {b : _} (h0 : U (Proc.devRef .tc main_arg3) = b) :
    StableHlo.after hostOps0 U (Proc.devRef .tc main_v24) = row64 b := by
  subst h0
  after_results
  rfl
set_option maxHeartbeats 4000000 in
/-- The first layer's bias as a row. -/
theorem ops0_v25 (U : Valuation τ sig (Elt Ideal)) {b : _} (h0 : U (Proc.devRef .tc main_arg5) = b) :
    StableHlo.after hostOps0 U (Proc.devRef .tc main_v25) = row64 b := by
  subst h0
  after_results
  rfl
theorem ops0_arg0 (U : Valuation τ sig (Elt Ideal)) : StableHlo.after hostOps0 U (Proc.devRef .tc main_arg0) = U (Proc.devRef .tc main_arg0) := by
  not_written hostOps0
theorem ops0_arg2 (U : Valuation τ sig (Elt Ideal)) : StableHlo.after hostOps0 U (Proc.devRef .tc main_arg2) = U (Proc.devRef .tc main_arg2) := by
  not_written hostOps0
theorem ops0_arg4 (U : Valuation τ sig (Elt Ideal)) : StableHlo.after hostOps0 U (Proc.devRef .tc main_arg4) = U (Proc.devRef .tc main_arg4) := by
  not_written hostOps0
theorem ops0_arg6 (U : Valuation τ sig (Elt Ideal)) : StableHlo.after hostOps0 U (Proc.devRef .tc main_arg6) = U (Proc.devRef .tc main_arg6) := by
  not_written hostOps0
theorem ops0_arg7 (U : Valuation τ sig (Elt Ideal)) : StableHlo.after hostOps0 U (Proc.devRef .tc main_arg7) = U (Proc.devRef .tc main_arg7) := by
  not_written hostOps0
theorem ops0_arg8 (U : Valuation τ sig (Elt Ideal)) : StableHlo.after hostOps0 U (Proc.devRef .tc main_arg8) = U (Proc.devRef .tc main_arg8) := by
  not_written hostOps0
theorem ops0_arg9 (U : Valuation τ sig (Elt Ideal)) : StableHlo.after hostOps0 U (Proc.devRef .tc main_arg9) = U (Proc.devRef .tc main_arg9) := by
  not_written hostOps0
theorem ops0_arg10 (U : Valuation τ sig (Elt Ideal)) : StableHlo.after hostOps0 U (Proc.devRef .tc main_arg10) = U (Proc.devRef .tc main_arg10) := by
  not_written hostOps0
theorem ops0_arg11 (U : Valuation τ sig (Elt Ideal)) : StableHlo.after hostOps0 U (Proc.devRef .tc main_arg11) = U (Proc.devRef .tc main_arg11) := by
  not_written hostOps0
theorem ops0_arg12 (U : Valuation τ sig (Elt Ideal)) : StableHlo.after hostOps0 U (Proc.devRef .tc main_arg12) = U (Proc.devRef .tc main_arg12) := by
  not_written hostOps0

variable (m : (ℓ : Loc nD τ sig) → Buf (Elt Ideal) ℓ) (ρ : Dev nD → PrngReg)

/-! ## At the first pipeline's entry -/

theorem W1_v1 (c : Dev nD) : W1 m ρ c (Proc.devRef .tc main_v1) = (edgeRow0 (m ((c : Thread nD τ).loc main_arg1))) :=
  ops0_v1 (W0 m ρ c) (rfl : W0 m ρ c (Proc.devRef .tc main_arg1) = m ((c : Thread nD τ).loc main_arg1))
theorem W1_v3 (c : Dev nD) : W1 m ρ c (Proc.devRef .tc main_v3) = (edgeRow1 (m ((c : Thread nD τ).loc main_arg1))) :=
  ops0_v3 (W0 m ρ c) (rfl : W0 m ρ c (Proc.devRef .tc main_arg1) = m ((c : Thread nD τ).loc main_arg1))
theorem W1_v13 (c : Dev nD) : W1 m ρ c (Proc.devRef .tc main_v13) = (invCol (edgeRow1 (m ((c : Thread nD τ).loc main_arg1)))) :=
  ops0_v13 (W0 m ρ c) (rfl : W0 m ρ c (Proc.devRef .tc main_arg1) = m ((c : Thread nD τ).loc main_arg1))
theorem W1_v23 (c : Dev nD) : W1 m ρ c (Proc.devRef .tc main_v23) = collect64 (edgeRow0 (m ((c : Thread nD τ).loc main_arg1))) (edgeRow1 (m ((c : Thread nD τ).loc main_arg1))) (m ((c : Thread nD τ).loc main_arg0)) :=
  ops0_v23 (W0 m ρ c) (rfl : W0 m ρ c (Proc.devRef .tc main_arg1) = m ((c : Thread nD τ).loc main_arg1)) (rfl : W0 m ρ c (Proc.devRef .tc main_arg0) = m ((c : Thread nD τ).loc main_arg0))
theorem W1_v24 (c : Dev nD) : W1 m ρ c (Proc.devRef .tc main_v24) = row64 (m ((c : Thread nD τ).loc main_arg3)) :=
  ops0_v24 (W0 m ρ c) (rfl : W0 m ρ c (Proc.devRef .tc main_arg3) = m ((c : Thread nD τ).loc main_arg3))
theorem W1_v25 (c : Dev nD) : W1 m ρ c (Proc.devRef .tc main_v25) = row64 (m ((c : Thread nD τ).loc main_arg5)) :=
  ops0_v25 (W0 m ρ c) (rfl : W0 m ρ c (Proc.devRef .tc main_arg5) = m ((c : Thread nD τ).loc main_arg5))
theorem W1_arg0 (c : Dev nD) : W1 m ρ c (Proc.devRef .tc main_arg0) = (m ((c : Thread nD τ).loc main_arg0)) :=
  (ops0_arg0 (W0 m ρ c)).trans rfl
theorem W1_arg2 (c : Dev nD) : W1 m ρ c (Proc.devRef .tc main_arg2) = (m ((c : Thread nD τ).loc main_arg2)) :=
  (ops0_arg2 (W0 m ρ c)).trans rfl
theorem W1_arg4 (c : Dev nD) : W1 m ρ c (Proc.devRef .tc main_arg4) = (m ((c : Thread nD τ).loc main_arg4)) :=
  (ops0_arg4 (W0 m ρ c)).trans rfl
theorem W1_arg6 (c : Dev nD) : W1 m ρ c (Proc.devRef .tc main_arg6) = (m ((c : Thread nD τ).loc main_arg6)) :=
  (ops0_arg6 (W0 m ρ c)).trans rfl
theorem W1_arg7 (c : Dev nD) : W1 m ρ c (Proc.devRef .tc main_arg7) = (m ((c : Thread nD τ).loc main_arg7)) :=
  (ops0_arg7 (W0 m ρ c)).trans rfl
theorem W1_arg8 (c : Dev nD) : W1 m ρ c (Proc.devRef .tc main_arg8) = (m ((c : Thread nD τ).loc main_arg8)) :=
  (ops0_arg8 (W0 m ρ c)).trans rfl
theorem W1_arg9 (c : Dev nD) : W1 m ρ c (Proc.devRef .tc main_arg9) = (m ((c : Thread nD τ).loc main_arg9)) :=
  (ops0_arg9 (W0 m ρ c)).trans rfl
theorem W1_arg10 (c : Dev nD) : W1 m ρ c (Proc.devRef .tc main_arg10) = (m ((c : Thread nD τ).loc main_arg10)) :=
  (ops0_arg10 (W0 m ρ c)).trans rfl
theorem W1_arg11 (c : Dev nD) : W1 m ρ c (Proc.devRef .tc main_arg11) = (m ((c : Thread nD τ).loc main_arg11)) :=
  (ops0_arg11 (W0 m ρ c)).trans rfl
theorem W1_arg12 (c : Dev nD) : W1 m ρ c (Proc.devRef .tc main_arg12) = (m ((c : Thread nD τ).loc main_arg12)) :=
  (ops0_arg12 (W0 m ρ c)).trans rfl

end Cert.KernelIdeal.Stages

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.BodyValue.lean ====
/-
  THE THREE LAYER BODIES READ AT AN INDEX, at the exact instance (every float an extended real, every operation exact,
  a change of format the identity).

  Each body loads its whole buffers, forms matrix products accumulated into zeros, adds a bias row broadcast over the
  rows and clamps at zero. At `(p, j)` a product `[2000, K] × [K, C]` is the sum over `k < K` of `l (p, k) · r (k, j)`,
  a `[1, C]` row broadcast reads its entry of column `j`, and a `[2000, 1]` column broadcast reads its entry of row `p`.
  So the first layer leaves `max (∑ₖ x (p, k) · w (k, j) + b (0, j)) 0` and
  `max ((∑ₖ (a (p, k) · c (p, 0)) · wl (k, j) + b (0, j)) + ∑ₖ x (p, k) · wr (k, j)) 0`, and the second and third layers
  the same shape with the contraction split over two and three parts.
-/
import proofs.«176597_j21869973471634_2_alg».proof.Proof.Gen.KernelIdeal.Frame
import proofs.«176597_j21869973471634_2_alg».proof.Proof.LibMatOps
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Idealize.ShloMosaic Idealize.ShloMosaic.ValueIdx

/-! ## Small facts -/

/-- The zero offsets of a whole-buffer rectangle, as the constant function. -/
theorem hz : (![0, 0] : Fin 2 → Nat) = fun _ => 0 := funext fun a => by fin_cases a <;> rfl

/-- The word `0x00000000` read as a binary32 value is the extended real `0`. -/
theorem zero_word : (FloatOps.ofBits (F := Ideal) .f32 0x00000000#32) = (0 : EReal) := Ideal.ofBits_zero_f32

/-! ## The three matrix products accumulated into zeros, read at an index -/

/-- `[2000, 64] × [64, 64]` at `(p, j)`: the sum over `k < 64` of `l (p, k) · r (k, j)`. -/
theorem mm_64_64_apply {φ₁ φ₂ : FTy} (l : FVec Ideal S2000x64 φ₁) (r : FVec Ideal S64x64 φ₂) (p : Fin 2000) (j : Fin 64) :
    matmul (F := Ideal) dot_S2000x64_S64x64_S2000x64_1_0_0_1_n_n none l r (constant (F := Ideal) S2000x64 .f32 0x00000000#32) (ix2 p j)
      = ∑ k : Fin 64, l (ix2 p k) * r (ix2 k j) :=
  Cert.MatOps.matmul_plain_apply Facts₀.dot_S2000x64_S64x64_S2000x64_1_0_0_1_n_n_wf none l r p j

/-- `[2000, 64] × [64, 128]` at `(p, j)`: the sum over `k < 64` of `l (p, k) · r (k, j)`. -/
theorem mm_64_128_apply {φ₁ φ₂ : FTy} (l : FVec Ideal S2000x64 φ₁) (r : FVec Ideal S64x128 φ₂) (p : Fin 2000) (j : Fin 128) :
    matmul (F := Ideal) dot_S2000x64_S64x128_S2000x128_1_0_0_1_n_n none l r (constant (F := Ideal) S2000x128 .f32 0x00000000#32) (ix2 p j)
      = ∑ k : Fin 64, l (ix2 p k) * r (ix2 k j) :=
  Cert.MatOps.matmul_plain_apply Facts₀.dot_S2000x64_S64x128_S2000x128_1_0_0_1_n_n_wf none l r p j

/-- `[2000, 128] × [128, 128]` at `(p, j)`: the sum over `k < 128` of `l (p, k) · r (k, j)`. -/
theorem mm_128_128_apply {φ₁ φ₂ : FTy} (l : FVec Ideal S2000x128 φ₁) (r : FVec Ideal S128x128 φ₂) (p : Fin 2000) (j : Fin 128) :
    matmul (F := Ideal) dot_S2000x128_S128x128_S2000x128_1_0_0_1_n_n none l r (constant (F := Ideal) S2000x128 .f32 0x00000000#32) (ix2 p j)
      = ∑ k : Fin 128, l (ix2 p k) * r (ix2 k j) :=
  Cert.MatOps.matmul_plain_apply Facts₀.dot_S2000x128_S128x128_S2000x128_1_0_0_1_n_n_wf none l r p j

/-! ## First layer -/

/-- First layer, the self-only output's arithmetic at `(p, j)`: `max (∑ₖ a (p, k) · w (k, j) + b (0, j)) 0`. -/
theorem k0_pay2_apply (v0 : Vec Ideal S2000x64 .f32) (v2 : Vec Ideal S64x64 .f32) (v5 : Vec Ideal S1x64 .f32)
    (p : Fin 2000) (j : Fin 64) :
    Gen.k0_pay2 (F := Ideal) v0 v2 v5 (ix2 p j)
      = max ((∑ k : Fin 64, v0 (ix2 p k) * v2 (ix2 k j)) + v5 (ix2 0 j)) 0 := by
  unfold Gen.k0_pay2 Gen.k0_pay1
  simp only [maximumf_apply, addf_apply, mulf_apply, truncf_apply, broadcast_apply, shapeCast_self, broadcastTo_1b_ab_apply,
    Cert.MatOps.broadcastTo_a1_ab_apply, mm_64_64_apply, zero_word]

/-- First layer, the aggregated output's arithmetic at `(p, j)`: the neighbour sum scaled by its row's factor, times
    the left weights, plus the bias row, plus the node's own features times the right weights, clamped at `0`. -/
theorem k0_pay3_apply (v0 : Vec Ideal S2000x64 .f32) (v12 : Vec Ideal S2000x1 .f32) (v14 : Vec Ideal S2000x64 .f32)
    (v19 : Vec Ideal S64x64 .f32) (v21 : Vec Ideal S64x64 .f32) (v25 : Vec Ideal S1x64 .f32) (p : Fin 2000) (j : Fin 64) :
    Gen.k0_pay3 (F := Ideal) v0 v12 v14 v19 v21 v25 (ix2 p j)
      = max (((∑ k : Fin 64, (v14 (ix2 p k) * v12 (ix2 p 0)) * v19 (ix2 k j)) + v25 (ix2 0 j))
          + ∑ k : Fin 64, v0 (ix2 p k) * v21 (ix2 k j)) 0 := by
  unfold Gen.k0_pay3 Gen.k0_pay1
  simp only [maximumf_apply, addf_apply, mulf_apply, truncf_apply, broadcast_apply, shapeCast_self, broadcastTo_1b_ab_apply,
    Cert.MatOps.broadcastTo_a1_ab_apply, mm_64_64_apply, zero_word]

/-- What the first layer's body leaves in its first output buffer, at `(p, j)`. -/
theorem out0_8_apply (x0 : Vec Ideal S2000x64 .f32) (x1 : Vec Ideal S2000x64 .f32) (x2 : Vec Ideal S2000x1 .f32)
    (x3 : Vec Ideal S64x64 .f32) (x4 : Vec Ideal S1x64 .f32) (x5 : Vec Ideal S64x64 .f32) (x6 : Vec Ideal S1x64 .f32)
    (x7 : Vec Ideal S64x64 .f32) (p : Fin 2000) (j : Fin 64) :
    Gen.out0_8 (F := Ideal) x0 x1 x2 x3 x4 x5 x6 x7 (ix2 p j)
      = max ((∑ k : Fin 64, x0 (ix2 p k) * x3 (ix2 k j)) + x4 (ix2 0 j)) 0 := by
  unfold Gen.out0_8
  rw [View.canon_unit_zero hz]
  simp only [View.ld_unit_zero (S := S2000x64) hz, View.ld_unit_zero (S := S64x64) hz, View.ld_unit_zero (S := S1x64) hz]
  exact k0_pay2_apply x0 x3 x4 p j

/-- What the first layer's body leaves in its second output buffer, at `(p, j)`. -/
theorem out0_9_apply (x0 : Vec Ideal S2000x64 .f32) (x1 : Vec Ideal S2000x64 .f32) (x2 : Vec Ideal S2000x1 .f32)
    (x3 : Vec Ideal S64x64 .f32) (x4 : Vec Ideal S1x64 .f32) (x5 : Vec Ideal S64x64 .f32) (x6 : Vec Ideal S1x64 .f32)
    (x7 : Vec Ideal S64x64 .f32) (p : Fin 2000) (j : Fin 64) :
    Gen.out0_9 (F := Ideal) x0 x1 x2 x3 x4 x5 x6 x7 (ix2 p j)
      = max (((∑ k : Fin 64, (x1 (ix2 p k) * x2 (ix2 p 0)) * x5 (ix2 k j)) + x6 (ix2 0 j))
          + ∑ k : Fin 64, x0 (ix2 p k) * x7 (ix2 k j)) 0 := by
  unfold Gen.out0_9
  rw [View.canon_unit_zero hz]
  simp only [View.ld_unit_zero (S := S2000x64) hz, View.ld_unit_zero (S := S64x64) hz, View.ld_unit_zero (S := S1x64) hz,
    View.ld_unit_zero (S := S2000x1) hz]
  exact k0_pay3_apply x0 x2 x1 x5 x7 x6 p j

/-! ## Second layer -/

/-- Second layer, the left half at `(p, j)`: the two scaled neighbour-sum parts times their weight blocks. -/
theorem k1_pay2_apply (v0 : Vec Ideal S2000x1 .f32) (v2 : Vec Ideal S2000x64 .f32) (v7 : Vec Ideal S2000x64 .f32)
    (v18 : Vec Ideal S64x128 .f32) (v21 : Vec Ideal S64x128 .f32) (p : Fin 2000) (j : Fin 128) :
    Gen.k1_pay2 (F := Ideal) v0 v2 v7 v18 v21 (ix2 p j)
      = (∑ k : Fin 64, (v2 (ix2 p k) * v0 (ix2 p 0)) * v18 (ix2 k j))
          + ∑ k : Fin 64, (v7 (ix2 p k) * v0 (ix2 p 0)) * v21 (ix2 k j) := by
  unfold Gen.k1_pay2
  simp only [maximumf_apply, addf_apply, mulf_apply, truncf_apply, broadcast_apply, shapeCast_self, broadcastTo_1b_ab_apply,
    Cert.MatOps.broadcastTo_a1_ab_apply, mm_64_64_apply, mm_64_128_apply, mm_128_128_apply, zero_word]

/-- Second layer, the right half at `(p, j)`: the node's own two parts times their weight blocks. -/
theorem k1_pay3_apply (v12 : Vec Ideal S2000x64 .f32) (v15 : Vec Ideal S2000x64 .f32) (v24 : Vec Ideal S64x128 .f32)
    (v27 : Vec Ideal S64x128 .f32) (p : Fin 2000) (j : Fin 128) :
    Gen.k1_pay3 (F := Ideal) v12 v15 v24 v27 (ix2 p j)
      = (∑ k : Fin 64, v12 (ix2 p k) * v24 (ix2 k j)) + ∑ k : Fin 64, v15 (ix2 p k) * v27 (ix2 k j) := by
  unfold Gen.k1_pay3
  simp only [maximumf_apply, addf_apply, mulf_apply, truncf_apply, broadcast_apply, shapeCast_self, broadcastTo_1b_ab_apply,
    Cert.MatOps.broadcastTo_a1_ab_apply, mm_64_64_apply, mm_64_128_apply, mm_128_128_apply, zero_word]

/-- Second layer, the combination at `(p, j)`: left half plus the bias row plus right half, clamped at `0`. -/
theorem k1_pay1_apply (v32 : FVec Ideal S2000x128 .f32) (v35 : FVec Ideal S2000x128 .f32) (v36 : Vec Ideal S1x128 .f32)
    (p : Fin 2000) (j : Fin 128) :
    Gen.k1_pay1 (F := Ideal) v32 v35 v36 (ix2 p j) = max ((v32 (ix2 p j) + v36 (ix2 0 j)) + v35 (ix2 p j)) 0 := by
  unfold Gen.k1_pay1
  simp only [maximumf_apply, addf_apply, mulf_apply, truncf_apply, broadcast_apply, shapeCast_self, broadcastTo_1b_ab_apply,
    Cert.MatOps.broadcastTo_a1_ab_apply, mm_64_64_apply, mm_64_128_apply, mm_128_128_apply, zero_word]

/-- What the second layer's body leaves in its output buffer, at `(p, j)`. -/
theorem out1_10_apply (x0 : Vec Ideal S2000x64 .f32) (x1 : Vec Ideal S2000x64 .f32) (x2 : Vec Ideal S2000x1 .f32)
    (x3 : Vec Ideal S2000x64 .f32) (x4 : Vec Ideal S2000x64 .f32) (x5 : Vec Ideal S64x128 .f32) (x6 : Vec Ideal S64x128 .f32)
    (x7 : Vec Ideal S1x128 .f32) (x8 : Vec Ideal S64x128 .f32) (x9 : Vec Ideal S64x128 .f32) (p : Fin 2000) (j : Fin 128) :
    Gen.out1_10 (F := Ideal) x0 x1 x2 x3 x4 x5 x6 x7 x8 x9 (ix2 p j)
      = max ((((∑ k : Fin 64, (x0 (ix2 p k) * x2 (ix2 p 0)) * x5 (ix2 k j))
              + ∑ k : Fin 64, (x1 (ix2 p k) * x2 (ix2 p 0)) * x6 (ix2 k j)) + x7 (ix2 0 j))
          + ((∑ k : Fin 64, x3 (ix2 p k) * x8 (ix2 k j)) + ∑ k : Fin 64, x4 (ix2 p k) * x9 (ix2 k j))) 0 := by
  unfold Gen.out1_10
  rw [View.canon_unit_zero hz]
  simp only [View.ld_unit_zero (S := S2000x64) hz, View.ld_unit_zero (S := S64x128) hz, View.ld_unit_zero (S := S1x128) hz,
    View.ld_unit_zero (S := S2000x1) hz]
  rw [k1_pay1_apply, k1_pay2_apply, k1_pay3_apply]

/-! ## Third layer -/

/-- A neighbour-sum part of width 64 scaled by its row's factor, at `(p, k)`. -/
theorem k2_pay3_apply (v0 : Vec Ideal S2000x1 .f32) (v2 : Vec Ideal S2000x64 .f32) (p : Fin 2000) (k : Fin 64) :
    (Gen.k2_pay3 (F := Ideal) v0 v2 (ix2 p k) : EReal) = v2 (ix2 p k) * v0 (ix2 p 0) := by
  unfold Gen.k2_pay3 Gen.k2_pay2
  simp only [maximumf_apply, addf_apply, mulf_apply, truncf_apply, broadcast_apply, shapeCast_self, broadcastTo_1b_ab_apply,
    Cert.MatOps.broadcastTo_a1_ab_apply, mm_64_64_apply, mm_64_128_apply, mm_128_128_apply, zero_word]

/-- The second neighbour-sum part of width 64 scaled by its row's factor, at `(p, k)`. -/
theorem k2_pay4_apply (v0 : Vec Ideal S2000x1 .f32) (v7 : Vec Ideal S2000x64 .f32) (p : Fin 2000) (k : Fin 64) :
    (Gen.k2_pay4 (F := Ideal) v0 v7 (ix2 p k) : EReal) = v7 (ix2 p k) * v0 (ix2 p 0) := by
  unfold Gen.k2_pay4 Gen.k2_pay2
  simp only [maximumf_apply, addf_apply, mulf_apply, truncf_apply, broadcast_apply, shapeCast_self, broadcastTo_1b_ab_apply,
    Cert.MatOps.broadcastTo_a1_ab_apply, mm_64_64_apply, mm_64_128_apply, mm_128_128_apply, zero_word]

/-- The neighbour-sum part of width 128 scaled by its row's factor, at `(p, k)`. -/
theorem k2_pay5_apply (v0 : Vec Ideal S2000x1 .f32) (v12 : Vec Ideal S2000x128 .f32) (p : Fin 2000) (k : Fin 128) :
    (Gen.k2_pay5 (F := Ideal) v0 v12 (ix2 p k) : EReal) = v12 (ix2 p k) * v0 (ix2 p 0) := by
  unfold Gen.k2_pay5 Gen.k2_pay2
  simp only [maximumf_apply, addf_apply, mulf_apply, truncf_apply, broadcast_apply, shapeCast_self, broadcastTo_1b_ab_apply,
    Cert.MatOps.broadcastTo_a1_ab_apply, mm_64_64_apply, mm_64_128_apply, mm_128_128_apply, zero_word]

/-- A format change of a `[2000, 64]` part is the identity on extended reals. -/
theorem k2_pay6_apply (v : Vec Ideal S2000x64 .f32) (i : S2000x64.Idx) : (Gen.k2_pay6 (F := Ideal) v i : EReal) = v i := by
  unfold Gen.k2_pay6
  simp only [truncf_apply, shapeCast_self]

/-- A format change of a `[2000, 64]` part is the identity on extended reals. -/
theorem k2_pay7_apply (v : Vec Ideal S2000x64 .f32) (i : S2000x64.Idx) : (Gen.k2_pay7 (F := Ideal) v i : EReal) = v i := by
  unfold Gen.k2_pay7
  simp only [truncf_apply, shapeCast_self]

/-- A format change of a `[2000, 128]` part is the identity on extended reals. -/
theorem k2_pay8_apply (v : Vec Ideal S2000x128 .f32) (i : S2000x128.Idx) : (Gen.k2_pay8 (F := Ideal) v i : EReal) = v i := by
  unfold Gen.k2_pay8
  simp only [truncf_apply, shapeCast_self]

/-- A format change of a `[64, 128]` weight block is the identity on extended reals. -/
theorem k2_pay9_apply (v : Vec Ideal S64x128 .f32) (i : S64x128.Idx) : (Gen.k2_pay9 (F := Ideal) v i : EReal) = v i := by
  unfold Gen.k2_pay9
  simp only [truncf_apply, shapeCast_self]

/-- A format change of a `[64, 128]` weight block is the identity on extended reals. -/
theorem k2_pay10_apply (v : Vec Ideal S64x128 .f32) (i : S64x128.Idx) : (Gen.k2_pay10 (F := Ideal) v i : EReal) = v i := by
  unfold Gen.k2_pay10
  simp only [truncf_apply, shapeCast_self]

/-- A format change of a `[128, 128]` weight block is the identity on extended reals. -/
theorem k2_pay11_apply (v : Vec Ideal S128x128 .f32) (i : S128x128.Idx) : (Gen.k2_pay11 (F := Ideal) v i : EReal) = v i := by
  unfold Gen.k2_pay11
  simp only [truncf_apply, shapeCast_self]

/-- A reshape of a `[64, 128]` weight block to its own shape is the identity. -/
theorem k2_pay12_apply (v : Vec Ideal S64x128 .f32) (i : S64x128.Idx) : (Gen.k2_pay12 (F := Ideal) v i : EReal) = v i := by
  unfold Gen.k2_pay12
  simp only [shapeCast_self]

/-- Third layer, the combination at `(p, j)`: three left products, the bias row, three right products, clamped at `0`. -/
theorem k2_pay1_apply (v6 : FVec Ideal S2000x64 .bf16) (v11 : FVec Ideal S2000x64 .bf16) (v16 : FVec Ideal S2000x128 .bf16)
    (v19 : FVec Ideal S2000x64 .bf16) (v22 : FVec Ideal S2000x64 .bf16) (v25 : FVec Ideal S2000x128 .bf16)
    (v28 : FVec Ideal S64x128 .bf16) (v31 : FVec Ideal S64x128 .bf16) (v34 : FVec Ideal S128x128 .bf16)
    (v36 : FVec Ideal S64x128 .f32) (v38 : Vec Ideal S64x128 .f32) (v41 : Vec Ideal S128x128 .f32) (v54 : Vec Ideal S1x128 .f32)
    (p : Fin 2000) (j : Fin 128) :
    Gen.k2_pay1 (F := Ideal) v6 v11 v16 v19 v22 v25 v28 v31 v34 v36 v38 v41 v54 (ix2 p j)
      = max (((((∑ k : Fin 64, v6 (ix2 p k) * v28 (ix2 k j)) + ∑ k : Fin 64, v11 (ix2 p k) * v31 (ix2 k j))
                + ∑ k : Fin 128, v16 (ix2 p k) * v34 (ix2 k j)) + v54 (ix2 0 j))
          + (((∑ k : Fin 64, v19 (ix2 p k) * v36 (ix2 k j)) + ∑ k : Fin 64, v22 (ix2 p k) * v38 (ix2 k j))
                + ∑ k : Fin 128, v25 (ix2 p k) * v41 (ix2 k j))) 0 := by
  unfold Gen.k2_pay1
  simp only [maximumf_apply, addf_apply, mulf_apply, truncf_apply, broadcast_apply, shapeCast_self, broadcastTo_1b_ab_apply,
    Cert.MatOps.broadcastTo_a1_ab_apply, mm_64_64_apply, mm_64_128_apply, mm_128_128_apply, zero_word]

/-- What the third layer's body leaves in its output buffer, at `(p, j)`. -/
theorem out2_14_apply (x0 : Vec Ideal S2000x64 .f32) (x1 : Vec Ideal S2000x64 .f32) (x2 : Vec Ideal S2000x128 .f32)
    (x3 : Vec Ideal S2000x1 .f32) (x4 : Vec Ideal S2000x64 .f32) (x5 : Vec Ideal S2000x64 .f32) (x6 : Vec Ideal S2000x128 .f32)
    (x7 : Vec Ideal S64x128 .f32) (x8 : Vec Ideal S64x128 .f32) (x9 : Vec Ideal S128x128 .f32) (x10 : Vec Ideal S1x128 .f32)
    (x11 : Vec Ideal S64x128 .f32) (x12 : Vec Ideal S64x128 .f32) (x13 : Vec Ideal S128x128 .f32) (p : Fin 2000) (j : Fin 128) :
    Gen.out2_14 (F := Ideal) x0 x1 x2 x3 x4 x5 x6 x7 x8 x9 x10 x11 x12 x13 (ix2 p j)
      = max (((((∑ k : Fin 64, (x0 (ix2 p k) * x3 (ix2 p 0)) * x7 (ix2 k j))
                  + ∑ k : Fin 64, (x1 (ix2 p k) * x3 (ix2 p 0)) * x8 (ix2 k j))
                + ∑ k : Fin 128, (x2 (ix2 p k) * x3 (ix2 p 0)) * x9 (ix2 k j)) + x10 (ix2 0 j))
          + (((∑ k : Fin 64, x4 (ix2 p k) * x11 (ix2 k j)) + ∑ k : Fin 64, x5 (ix2 p k) * x12 (ix2 k j))
                + ∑ k : Fin 128, x6 (ix2 p k) * x13 (ix2 k j))) 0 := by
  unfold Gen.out2_14
  rw [View.canon_unit_zero hz]
  simp only [View.ld_unit_zero (S := S2000x64) hz, View.ld_unit_zero (S := S2000x128) hz, View.ld_unit_zero (S := S64x128) hz,
    View.ld_unit_zero (S := S128x128) hz, View.ld_unit_zero (S := S1x128) hz, View.ld_unit_zero (S := S2000x1) hz]
  rw [k2_pay1_apply]
  simp only [k2_pay3_apply, k2_pay4_apply, k2_pay5_apply, k2_pay6_apply, k2_pay7_apply, k2_pay8_apply, k2_pay9_apply,
    k2_pay10_apply, k2_pay11_apply, k2_pay12_apply]

end Cert.KernelIdeal.BodyValue
end
-- ==== Proof.Region0.lean ====
/-
  The first pipeline's output, as a whole-array function of the arrays it reads.

  The grid has 25 points; point `t` handles rows `2000·t … 2000·t + 1999` of every row-blocked array and sees the
  weight and bias arrays whole. What a point writes back is the body's result on its blocks, and the body's result at
  row `p` of a block depends only on row `p` of the row-blocked inputs: so block `t` of the output is block `t` of one
  function of the whole arrays, the blocks tile the output, and the output array ends at that function.
-/
import proofs.«176597_j21869973471634_2_alg».proof.Proof.Gen.KernelIdeal.Frame
import proofs.«176597_j21869973471634_2_alg».proof.Proof.BodyValue
import proofs.«176597_j21869973471634_2_alg».proof.Proof.KernelTerms
import Idealize.ShloMosaic.Lib.Pipeline.Value
import Idealize.ShloMosaic.Lib.ValueIdx
import Idealize.ShloMosaic.PureOps.Ideal

set_option maxRecDepth 16384

noncomputable section

open scoped BigOperators

namespace Cert.KernelIdeal.Regions

open Cert.KernelIdeal Cert.KernelIdeal.Gen Cert.KernelIdeal.Terms
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: every row-blocked window sits at block row `t`, block column 0; the weight
    and bias windows at block `(0, 0)`. -/
theorem idx0 : ∀ t : Fin cfg0.N,
    win0_8.index t (0 : Fin 2) = t.val
    ∧ win0_8.index t (1 : Fin 2) = 0
    ∧ win0_9.index t (0 : Fin 2) = t.val
    ∧ win0_9.index t (1 : Fin 2) = 0
    ∧ win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0 :=
  (by decide +kernel : ∀ t : Fin grid0.N, _)

/-- A point of the grid is one of 25. -/
theorem lt25_0 (t : Fin cfg0.N) : t.val < 25 := lt_of_lt_of_eq t.isLt N_0

/-- Row `p` of block `t` is row `2000·t + p` of the array. -/
def rowAt0 (t : Fin cfg0.N) (p : Fin 2000) : Fin 50000 := ⟨t.val * 2000 + p.val, by have := lt25_0 t; omega⟩

/-- Input window 0's block at point `t`, read at `(p, k)`, is its array at row `2000·t + p`. -/
theorem blk0_0 (c : Dev nD) (t : Fin cfg0.N) (p : Fin 2000) (k : Fin 64) :
    iblk0 V c 0 t (ix2 p k) = V c main_arg0 (ix2 (rowAt0 t p) k) := by
  obtain ⟨e8r, e8c, e9r, e9c, e0r, e0c, e1r, e1c, e2r, e2c, e3r, e3c, e4r, e4c, e5r, e5c, e6r, e6c, e7r, e7c⟩ := idx0 t
  show V c main_arg0 (((cfg0.win 0).blk t).view.emb (ix2 p k)) = _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 64 + 1 * k.val = k.val; omega

/-- Input window 1's block at point `t`, read at `(p, k)`, is its array at row `2000·t + p`. -/
theorem blk0_1 (c : Dev nD) (t : Fin cfg0.N) (p : Fin 2000) (k : Fin 64) :
    iblk0 V c 1 t (ix2 p k) = V c main_v23 (ix2 (rowAt0 t p) k) := by
  obtain ⟨e8r, e8c, e9r, e9c, e0r, e0c, e1r, e1c, e2r, e2c, e3r, e3c, e4r, e4c, e5r, e5c, e6r, e6c, e7r, e7c⟩ := idx0 t
  show V c main_v23 (((cfg0.win 1).blk t).view.emb (ix2 p k)) = _
  refine congrArg _ (funext fun a => Fin.ext ?_)
  match a with
  | ⟨0, _⟩ => show win0_1.index t (0 : Fin 2) * 2000 + 1 * p.val = t.val * 2000 + p.val; omega
  | ⟨1, _⟩ => show win0_1.index t (1 : Fin 2) * 64 + 1 * k.val = k.val; omega

/-- Input window 2's block at point `t`, read at `(p, k)`, is its array at row `2000·t + p`. -/
theorem blk0_2 (c : Dev nD) (t : Fin cfg0.N) (p : Fin 2000) (k : Fin 1) :
    iblk0 V c 2 t (ix2 p k) = V c main_v13 (ix2 (rowAt0 t p) k) := by
  obtain ⟨e8r, e8c, e9r, e9c, e0r, e0c, e1r, e1c, e2r, e2c, e3r, e3c, e4r, e4c, e5r, e5c, e6r, e6c, e7r, e7c⟩ := idx0 t
  show V c main_v13 (((cfg0.win 2).blk t).view.emb (ix2 p k)) = _
  refine congrArg _ (funext fun a => Fin.ext ?_)
  match a with
  | ⟨0, _⟩ => show win0_2.index t (0 : Fin 2) * 2000 + 1 * p.val = t.val * 2000 + p.val; omega
  | ⟨1, _⟩ => show win0_2.index t (1 : Fin 2) * 1 + 1 * k.val = k.val; omega

/-- Input window 3 is its whole array at every point. -/
theorem blk0_3 (c : Dev nD) (t : Fin cfg0.N) (k : Fin 64) (j : Fin 64) :
    iblk0 V c 3 t (ix2 k j) = V c main_arg2 (ix2 k j) := by
  obtain ⟨e8r, e8c, e9r, e9c, e0r, e0c, e1r, e1c, e2r, e2c, e3r, e3c, e4r, e4c, e5r, e5c, e6r, e6c, e7r, e7c⟩ := idx0 t
  show V c main_arg2 (((cfg0.win 3).blk t).view.emb (ix2 k j)) = _
  refine congrArg _ (funext fun a => Fin.ext ?_)
  match a with
  | ⟨0, _⟩ => show win0_3.index t (0 : Fin 2) * 64 + 1 * k.val = k.val; omega
  | ⟨1, _⟩ => show win0_3.index t (1 : Fin 2) * 64 + 1 * j.val = j.val; omega

/-- Input window 4 is its whole array at every point. -/
theorem blk0_4 (c : Dev nD) (t : Fin cfg0.N) (k : Fin 1) (j : Fin 64) :
    iblk0 V c 4 t (ix2 k j) = V c main_v24 (ix2 k j) := by
  obtain ⟨e8r, e8c, e9r, e9c, e0r, e0c, e1r, e1c, e2r, e2c, e3r, e3c, e4r, e4c, e5r, e5c, e6r, e6c, e7r, e7c⟩ := idx0 t
  show V c main_v24 (((cfg0.win 4).blk t).view.emb (ix2 k j)) = _
  refine congrArg _ (funext fun a => Fin.ext ?_)
  match a with
  | ⟨0, _⟩ => show win0_4.index t (0 : Fin 2) * 1 + 1 * k.val = k.val; omega
  | ⟨1, _⟩ => show win0_4.index t (1 : Fin 2) * 64 + 1 * j.val = j.val; omega

/-- Input window 5 is its whole array at every point. -/
theorem blk0_5 (c : Dev nD) (t : Fin cfg0.N) (k : Fin 64) (j : Fin 64) :
    iblk0 V c 5 t (ix2 k j) = V c main_arg4 (ix2 k j) := by
  obtain ⟨e8r, e8c, e9r, e9c, e0r, e0c, e1r, e1c, e2r, e2c, e3r, e3c, e4r, e4c, e5r, e5c, e6r, e6c, e7r, e7c⟩ := idx0 t
  show V c main_arg4 (((cfg0.win 5).blk t).view.emb (ix2 k j)) = _
  refine congrArg _ (funext fun a => Fin.ext ?_)
  match a with
  | ⟨0, _⟩ => show win0_5.index t (0 : Fin 2) * 64 + 1 * k.val = k.val; omega
  | ⟨1, _⟩ => show win0_5.index t (1 : Fin 2) * 64 + 1 * j.val = j.val; omega

/-- Input window 6 is its whole array at every point. -/
theorem blk0_6 (c : Dev nD) (t : Fin cfg0.N) (k : Fin 1) (j : Fin 64) :
    iblk0 V c 6 t (ix2 k j) = V c main_v25 (ix2 k j) := by
  obtain ⟨e8r, e8c, e9r, e9c, e0r, e0c, e1r, e1c, e2r, e2c, e3r, e3c, e4r, e4c, e5r, e5c, e6r, e6c, e7r, e7c⟩ := idx0 t
  show V c main_v25 (((cfg0.win 6).blk t).view.emb (ix2 k j)) = _
  refine congrArg _ (funext fun a => Fin.ext ?_)
  match a with
  | ⟨0, _⟩ => show win0_6.index t (0 : Fin 2) * 1 + 1 * k.val = k.val; omega
  | ⟨1, _⟩ => show win0_6.index t (1 : Fin 2) * 64 + 1 * j.val = j.val; omega

/-- Input window 7 is its whole array at every point. -/
theorem blk0_7 (c : Dev nD) (t : Fin cfg0.N) (k : Fin 64) (j : Fin 64) :
    iblk0 V c 7 t (ix2 k j) = V c main_arg6 (ix2 k j) := by
  obtain ⟨e8r, e8c, e9r, e9c, e0r, e0c, e1r, e1c, e2r, e2c, e3r, e3c, e4r, e4c, e5r, e5c, e6r, e6c, e7r, e7c⟩ := idx0 t
  show V c main_arg6 (((cfg0.win 7).blk t).view.emb (ix2 k j)) = _
  refine congrArg _ (funext fun a => Fin.ext ?_)
  match a with
  | ⟨0, _⟩ => show win0_7.index t (0 : Fin 2) * 64 + 1 * k.val = k.val; omega
  | ⟨1, _⟩ => show win0_7.index t (1 : Fin 2) * 64 + 1 * j.val = j.val; omega

/-- Output window 8's block at point `t` sits at rows `2000·t …` of its array. -/
theorem emb0_8 (t : Fin cfg0.N) (p : Fin 2000) (j : Fin 64) :
    ((cfg0.win 8).blk t).view.emb (ix2 p j) = ix2 (rowAt0 t p) j := by
  obtain ⟨e8r, e8c, e9r, e9c, e0r, e0c, e1r, e1c, e2r, e2c, e3r, e3c, e4r, e4c, e5r, e5c, e6r, e6c, e7r, e7c⟩ := idx0 t
  refine funext fun a => Fin.ext ?_
  match a with
  | ⟨0, _⟩ => show win0_8.index t (0 : Fin 2) * 2000 + 1 * p.val = t.val * 2000 + p.val; omega
  | ⟨1, _⟩ => show win0_8.index t (1 : Fin 2) * 64 + 1 * j.val = j.val; omega

/-- WHAT POINT `t` WRITES BACK to output window 8: block `t` of one function of the whole arrays. -/
theorem flushed0_8_eq (c : Dev nD) (t : Fin cfg0.N) :
    (dat0 V c).flushed 8 t = ((cfg0.win 8).blk t).view.read (Elt Ideal)
      (fun i => projAt (V c main_arg0) (V c main_arg2) (V c main_v24) (i 0) (i 1)) := by
  show (cfg0.win 8).cut (grid0.coords t) ((dat0 V c).after 8 t) = _
  rw [after0_8]
  funext y
  obtain ⟨p, j, rfl⟩ : ∃ (p : Fin 2000) (j : Fin 64), y = ix2 p j := ⟨y 0, y 1, eq_ix2 y⟩
  refine (BodyValue.out0_8_apply (iblk0 V c 0 t) (iblk0 V c 1 t) (iblk0 V c 2 t) (iblk0 V c 3 t) (iblk0 V c 4 t) (iblk0 V c 5 t) (iblk0 V c 6 t) (iblk0 V c 7 t) p j).trans ?_
  rw [View.read_apply, emb0_8]
  simp only [blk0_0 V c t, blk0_1 V c t, blk0_2 V c t, blk0_3 V c t, blk0_4 V c t, blk0_5 V c t, blk0_6 V c t, blk0_7 V c t]
  rfl

/-- An index of the array is in point `t`'s block iff each coordinate is in the block's range on its axis. -/
theorem mem_blk0_8 (t : Fin cfg0.N) (i : S50000x64.Idx) :
    i ∈ ((cfg0.win 8).blk t).view.set ↔ ∀ a : Fin 2, win0_8.index t a * S2000x64.size a ≤ (i a).val ∧ (i a).val < win0_8.index t a * S2000x64.size a + S2000x64.size a := by
  show i ∈ ((View.whole main_v26_0).slice (win0_8.rect t)).set ↔ _
  rw [View.set_slice_whole, Rect.mem_set_unit]
  exact Iff.rfl

/-- Every row of the array is in the block of the point `row / 2000`. -/
theorem cover0_8 (i : S50000x64.Idx) : ∃ t : Fin cfg0.N, (cfg0.win 8).flush t = true ∧ i ∈ ((cfg0.win 8).blk t).view.set := by
  have hi0 : (i 0).val < 50000 := (i 0).isLt
  have hi1 : (i 1).val < 64 := (i 1).isLt
  let t : Fin cfg0.N := ⟨(i 0).val / 2000, lt_of_lt_of_eq (by omega : (i 0).val / 2000 < 25) N_0.symm⟩
  obtain ⟨e8r, e8c, e9r, e9c, e0r, e0c, e1r, e1c, e2r, e2c, e3r, e3c, e4r, e4c, e5r, e5c, e6r, e6c, e7r, e7c⟩ := idx0 t
  refine ⟨t, flush0_8 t, ?_⟩
  rw [mem_blk0_8]
  have htv : t.val = (i 0).val / 2000 := rfl
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 64 ≤ (i 1).val ∧ (i 1).val < win0_8.index t (1 : Fin 2) * 64 + 64; omega

/-- THE ARRAY after the pipeline: that function of the arrays the pipeline found at entry. -/
theorem final0_8 (c : Dev nD) : (dat0 V c).arrAt 8 cfg0.N = fun i => projAt (V c main_arg0) (V c main_arg2) (V c main_v24) (i 0) (i 1) :=
  (dat0 V c).arrAt_eq_of_cover 8 _ (fun t _ => flushed0_8_eq V c t) (cover0_8)

/-- Output window 9's block at point `t` sits at rows `2000·t …` of its array. -/
theorem emb0_9 (t : Fin cfg0.N) (p : Fin 2000) (j : Fin 64) :
    ((cfg0.win 9).blk t).view.emb (ix2 p j) = ix2 (rowAt0 t p) j := by
  obtain ⟨e8r, e8c, e9r, e9c, e0r, e0c, e1r, e1c, e2r, e2c, e3r, e3c, e4r, e4c, e5r, e5c, e6r, e6c, e7r, e7c⟩ := idx0 t
  refine funext fun a => Fin.ext ?_
  match a with
  | ⟨0, _⟩ => show win0_9.index t (0 : Fin 2) * 2000 + 1 * p.val = t.val * 2000 + p.val; omega
  | ⟨1, _⟩ => show win0_9.index t (1 : Fin 2) * 64 + 1 * j.val = j.val; omega

/-- WHAT POINT `t` WRITES BACK to output window 9: block `t` of one function of the whole arrays. -/
theorem flushed0_9_eq (c : Dev nD) (t : Fin cfg0.N) :
    (dat0 V c).flushed 9 t = ((cfg0.win 9).blk t).view.read (Elt Ideal)
      (fun i => layer1At (V c main_arg0) (V c main_v23) (V c main_v13) (V c main_arg4) (V c main_v25) (V c main_arg6) (i 0) (i 1)) := by
  show (cfg0.win 9).cut (grid0.coords t) ((dat0 V c).after 9 t) = _
  rw [after0_9]
  funext y
  obtain ⟨p, j, rfl⟩ : ∃ (p : Fin 2000) (j : Fin 64), y = ix2 p j := ⟨y 0, y 1, eq_ix2 y⟩
  refine (BodyValue.out0_9_apply (iblk0 V c 0 t) (iblk0 V c 1 t) (iblk0 V c 2 t) (iblk0 V c 3 t) (iblk0 V c 4 t) (iblk0 V c 5 t) (iblk0 V c 6 t) (iblk0 V c 7 t) p j).trans ?_
  rw [View.read_apply, emb0_9]
  simp only [blk0_0 V c t, blk0_1 V c t, blk0_2 V c t, blk0_3 V c t, blk0_4 V c t, blk0_5 V c t, blk0_6 V c t, blk0_7 V c t]
  rfl

/-- An index of the array is in point `t`'s block iff each coordinate is in the block's range on its axis. -/
theorem mem_blk0_9 (t : Fin cfg0.N) (i : S50000x64.Idx) :
    i ∈ ((cfg0.win 9).blk t).view.set ↔ ∀ a : Fin 2, win0_9.index t a * S2000x64.size a ≤ (i a).val ∧ (i a).val < win0_9.index t a * S2000x64.size a + S2000x64.size a := by
  show i ∈ ((View.whole main_v26_1).slice (win0_9.rect t)).set ↔ _
  rw [View.set_slice_whole, Rect.mem_set_unit]
  exact Iff.rfl

/-- Every row of the array is in the block of the point `row / 2000`. -/
theorem cover0_9 (i : S50000x64.Idx) : ∃ t : Fin cfg0.N, (cfg0.win 9).flush t = true ∧ i ∈ ((cfg0.win 9).blk t).view.set := by
  have hi0 : (i 0).val < 50000 := (i 0).isLt
  have hi1 : (i 1).val < 64 := (i 1).isLt
  let t : Fin cfg0.N := ⟨(i 0).val / 2000, lt_of_lt_of_eq (by omega : (i 0).val / 2000 < 25) N_0.symm⟩
  obtain ⟨e8r, e8c, e9r, e9c, e0r, e0c, e1r, e1c, e2r, e2c, e3r, e3c, e4r, e4c, e5r, e5c, e6r, e6c, e7r, e7c⟩ := idx0 t
  refine ⟨t, flush0_9 t, ?_⟩
  rw [mem_blk0_9]
  have htv : t.val = (i 0).val / 2000 := rfl
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 64 ≤ (i 1).val ∧ (i 1).val < win0_9.index t (1 : Fin 2) * 64 + 64; omega

/-- THE ARRAY after the pipeline: that function of the arrays the pipeline found at entry. -/
theorem final0_9 (c : Dev nD) : (dat0 V c).arrAt 9 cfg0.N = fun i => layer1At (V c main_arg0) (V c main_v23) (V c main_v13) (V c main_arg4) (V c main_v25) (V c main_arg6) (i 0) (i 1) :=
  (dat0 V c).arrAt_eq_of_cover 9 _ (fun t _ => flushed0_9_eq V c t) (cover0_9)

/-- The same with the entry contents named: the form the boundaries are chained through. -/
theorem final0_8' (c : Dev nD) {a0 a1 a2 : _} (h0 : V c main_arg0 = a0) (h1 : V c main_arg2 = a1) (h2 : V c main_v24 = a2) :
    (dat0 V c).arrAt 8 cfg0.N = fun i => projAt a0 a1 a2 (i 0) (i 1) := by
  subst h0 h1 h2
  exact final0_8 V c

/-- The same with the entry contents named: the form the boundaries are chained through. -/
theorem final0_9' (c : Dev nD) {a0 a1 a2 a3 a4 a5 : _} (h0 : V c main_arg0 = a0) (h1 : V c main_v23 = a1) (h2 : V c main_v13 = a2) (h3 : V c main_arg4 = a3) (h4 : V c main_v25 = a4) (h5 : V c main_arg6 = a5) :
    (dat0 V c).arrAt 9 cfg0.N = fun i => layer1At a0 a1 a2 a3 a4 a5 (i 0) (i 1) := by
  subst h0 h1 h2 h3 h4 h5
  exact final0_9 V c

end Cert.KernelIdeal.Regions

end
-- ==== Proof.Stage1.lean ====
/-
  The buffers after the first pipeline and at the second pipeline's entry, as terms of the launch memory.

  The first pipeline leaves the projected input and the first hidden array in its two output arrays and everything
  else as it found it. The host stretch that follows collects both along the edges, cuts the second layer's weight
  matrices into their two row blocks and recasts its bias as a row.
-/
import proofs.«176597_j21869973471634_2_alg».proof.Proof.Stage0
import proofs.«176597_j21869973471634_2_alg».proof.Proof.Region0

set_option maxRecDepth 16384

noncomputable section

open scoped BigOperators

namespace Cert.KernelIdeal.Stages

open Cert.KernelIdeal Cert.KernelIdeal.Gen Cert.KernelIdeal.Terms Cert.KernelIdeal.Regions
open Idealize.ShloMosaic Idealize.ShloMosaic.TcCoe Idealize.ShloMosaic.Tactic Idealize.SL.Sem Idealize.ShloMosaic.StableHlo

set_option maxHeartbeats 4000000 in
/-- The first output collected along the edges. -/
theorem ops1_v36 (U : Valuation τ sig (Elt Ideal)) {v1 v3 X : _} (h0 : U (Proc.devRef .tc main_v1) = v1) (h1 : U (Proc.devRef .tc main_v3) = v3) (h2 : U (Proc.devRef .tc main_v26_0) = X) :
    StableHlo.after hostOps1 U (Proc.devRef .tc main_v36) = collect64 v1 v3 X := by
  subst h0 h1 h2
  after_results
  rfl
set_option maxHeartbeats 4000000 in
/-- The second output collected along the edges. -/
theorem ops1_v46 (U : Valuation τ sig (Elt Ideal)) {v1 v3 X : _} (h0 : U (Proc.devRef .tc main_v1) = v1) (h1 : U (Proc.devRef .tc main_v3) = v3) (h2 : U (Proc.devRef .tc main_v26_1) = X) :
    StableHlo.after hostOps1 U (Proc.devRef .tc main_v46) = collect64 v1 v3 X := by
  subst h0 h1 h2
  after_results
  rfl
set_option maxHeartbeats 4000000 in
/-- Rows 0–63 of the second layer's left weights. -/
theorem ops1_v47 (U : Valuation τ sig (Elt Ideal)) {W : _} (h0 : U (Proc.devRef .tc main_arg7) = W) :
    StableHlo.after hostOps1 U (Proc.devRef .tc main_v47) = top64 W := by
  subst h0
  after_results
  rfl
set_option maxHeartbeats 4000000 in
/-- Rows 64–127 of the second layer's left weights. -/
theorem ops1_v48 (U : Valuation τ sig (Elt Ideal)) {W : _} (h0 : U (Proc.devRef .tc main_arg7) = W) :
    StableHlo.after hostOps1 U (Proc.devRef .tc main_v48) = bot64 W := by
  subst h0
  after_results
  rfl
set_option maxHeartbeats 4000000 in
/-- Rows 0–63 of the second layer's right weights. -/
theorem ops1_v49 (U : Valuation τ sig (Elt Ideal)) {W : _} (h0 : U (Proc.devRef .tc main_arg9) = W) :
    StableHlo.after hostOps1 U (Proc.devRef .tc main_v49) = top64 W := by
  subst h0
  after_results
  rfl
set_option maxHeartbeats 4000000 in
/-- Rows 64–127 of the second layer's right weights. -/
theorem ops1_v50 (U : Valuation τ sig (Elt Ideal)) {W : _} (h0 : U (Proc.devRef .tc main_arg9) = W) :
    StableHlo.after hostOps1 U (Proc.devRef .tc main_v50) = bot64 W := by
  subst h0
  after_results
  rfl
set_option maxHeartbeats 4000000 in
/-- The second layer's bias as a row. -/
theorem ops1_v51 (U : Valuation τ sig (Elt Ideal)) {b : _} (h0 : U (Proc.devRef .tc main_arg8) = b) :
    StableHlo.after hostOps1 U (Proc.devRef .tc main_v51) = row128 b := by
  subst h0
  after_results
  rfl
theorem ops1_v13 (U : Valuation τ sig (Elt Ideal)) : StableHlo.after hostOps1 U (Proc.devRef .tc main_v13) = U (Proc.devRef .tc main_v13) := by
  not_written hostOps1
theorem ops1_v26_0 (U : Valuation τ sig (Elt Ideal)) : StableHlo.after hostOps1 U (Proc.devRef .tc main_v26_0) = U (Proc.devRef .tc main_v26_0) := by
  not_written hostOps1
theorem ops1_v26_1 (U : Valuation τ sig (Elt Ideal)) : StableHlo.after hostOps1 U (Proc.devRef .tc main_v26_1) = U (Proc.devRef .tc main_v26_1) := by
  not_written hostOps1
theorem ops1_v1 (U : Valuation τ sig (Elt Ideal)) : StableHlo.after hostOps1 U (Proc.devRef .tc main_v1) = U (Proc.devRef .tc main_v1) := by
  not_written hostOps1
theorem ops1_v3 (U : Valuation τ sig (Elt Ideal)) : StableHlo.after hostOps1 U (Proc.devRef .tc main_v3) = U (Proc.devRef .tc main_v3) := by
  not_written hostOps1
theorem ops1_arg10 (U : Valuation τ sig (Elt Ideal)) : StableHlo.after hostOps1 U (Proc.devRef .tc main_arg10) = U (Proc.devRef .tc main_arg10) := by
  not_written hostOps1
theorem ops1_arg11 (U : Valuation τ sig (Elt Ideal)) : StableHlo.after hostOps1 U (Proc.devRef .tc main_arg11) = U (Proc.devRef .tc main_arg11) := by
  not_written hostOps1
theorem ops1_arg12 (U : Valuation τ sig (Elt Ideal)) : StableHlo.after hostOps1 U (Proc.devRef .tc main_arg12) = U (Proc.devRef .tc main_arg12) := by
  not_written hostOps1

variable (m : (ℓ : Loc nD τ sig) → Buf (Elt Ideal) ℓ) (ρ : Dev nD → PrngReg)

/-! ## After the first pipeline -/

/-- The first output array: the projected input. -/
theorem W2_v26_0 (c : Dev nD) : W2 m ρ c (Proc.devRef .tc main_v26_0) = (XP (m ((c : Thread nD τ).loc main_arg0)) (m ((c : Thread nD τ).loc main_arg2)) (m ((c : Thread nD τ).loc main_arg3))) :=
  (W2_arr m ρ c 8).trans (final0_8' (V1 m ρ) c (W1_arg0 m ρ c) (W1_arg2 m ρ c) (W1_v24 m ρ c))
/-- The second output array: the first hidden array. -/
theorem W2_v26_1 (c : Dev nD) : W2 m ρ c (Proc.devRef .tc main_v26_1) = (H1 (m ((c : Thread nD τ).loc main_arg0)) (m ((c : Thread nD τ).loc main_arg1)) (m ((c : Thread nD τ).loc main_arg4)) (m ((c : Thread nD τ).loc main_arg5)) (m ((c : Thread nD τ).loc main_arg6))) :=
  (W2_arr m ρ c 9).trans (final0_9' (V1 m ρ) c (W1_arg0 m ρ c) (W1_v23 m ρ c) (W1_v13 m ρ c) (W1_arg4 m ρ c) (W1_v25 m ρ c) (W1_arg6 m ρ c))
/-- An array the pipeline only reads is unchanged: the reciprocal-degree column. -/
theorem W2_v13 (c : Dev nD) : W2 m ρ c (Proc.devRef .tc main_v13) = (invCol (edgeRow1 (m ((c : Thread nD τ).loc main_arg1)))) :=
  (W2_arr m ρ c 2).trans ((((dat0 (V1 m ρ) c).arrAt_in 2 rfl _).trans (A_eq0 (V1 m ρ) c 2)).trans (W1_v13 m ρ c))
theorem W2_v1 (c : Dev nD) : W2 m ρ c (Proc.devRef .tc main_v1) = (edgeRow0 (m ((c : Thread nD τ).loc main_arg1))) :=
  (W2_of_ne m ρ c main_v1 (by decide)).trans (W1_v1 m ρ c)
theorem W2_v3 (c : Dev nD) : W2 m ρ c (Proc.devRef .tc main_v3) = (edgeRow1 (m ((c : Thread nD τ).loc main_arg1))) :=
  (W2_of_ne m ρ c main_v3 (by decide)).trans (W1_v3 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)
theorem W2_arg12 (c : Dev nD) : W2 m ρ c (Proc.devRef .tc main_arg12) = (m ((c : Thread nD τ).loc main_arg12)) :=
  (W2_of_ne m ρ c main_arg12 (by decide)).trans (W1_arg12 m ρ c)

/-! ## At the second pipeline's entry -/

theorem W3_v36 (c : Dev nD) : W3 m ρ c (Proc.devRef .tc main_v36) = (SXP (m ((c : Thread nD τ).loc main_arg0)) (m ((c : Thread nD τ).loc main_arg1)) (m ((c : Thread nD τ).loc main_arg2)) (m ((c : Thread nD τ).loc main_arg3))) :=
  ops1_v36 (W2 m ρ c) (W2_v1 m ρ c) (W2_v3 m ρ c) (W2_v26_0 m ρ c)
theorem W3_v46 (c : Dev nD) : W3 m ρ c (Proc.devRef .tc main_v46) = (SH1 (m ((c : Thread nD τ).loc main_arg0)) (m ((c : Thread nD τ).loc main_arg1)) (m ((c : Thread nD τ).loc main_arg4)) (m ((c : Thread nD τ).loc main_arg5)) (m ((c : Thread nD τ).loc main_arg6))) :=
  ops1_v46 (W2 m ρ c) (W2_v1 m ρ c) (W2_v3 m ρ c) (W2_v26_1 m ρ c)
theorem W3_v47 (c : Dev nD) : W3 m ρ c (Proc.devRef .tc main_v47) = top64 (m ((c : Thread nD τ).loc main_arg7)) :=
  ops1_v47 (W2 m ρ c) (W2_arg7 m ρ c)
theorem W3_v48 (c : Dev nD) : W3 m ρ c (Proc.devRef .tc main_v48) = bot64 (m ((c : Thread nD τ).loc main_arg7)) :=
  ops1_v48 (W2 m ρ c) (W2_arg7 m ρ c)
theorem W3_v49 (c : Dev nD) : W3 m ρ c (Proc.devRef .tc main_v49) = top64 (m ((c : Thread nD τ).loc main_arg9)) :=
  ops1_v49 (W2 m ρ c) (W2_arg9 m ρ c)
theorem W3_v50 (c : Dev nD) : W3 m ρ c (Proc.devRef .tc main_v50) = bot64 (m ((c : Thread nD τ).loc main_arg9)) :=
  ops1_v50 (W2 m ρ c) (W2_arg9 m ρ c)
theorem W3_v51 (c : Dev nD) : W3 m ρ c (Proc.devRef .tc main_v51) = row128 (m ((c : Thread nD τ).loc main_arg8)) :=
  ops1_v51 (W2 m ρ c) (W2_arg8 m ρ c)
theorem W3_v13 (c : Dev nD) : W3 m ρ c (Proc.devRef .tc main_v13) = (invCol (edgeRow1 (m ((c : Thread nD τ).loc main_arg1)))) :=
  (ops1_v13 (W2 m ρ c)).trans (W2_v13 m ρ c)
theorem W3_v26_0 (c : Dev nD) : W3 m ρ c (Proc.devRef .tc main_v26_0) = (XP (m ((c : Thread nD τ).loc main_arg0)) (m ((c : Thread nD τ).loc main_arg2)) (m ((c : Thread nD τ).loc main_arg3))) :=
  (ops1_v26_0 (W2 m ρ c)).trans (W2_v26_0 m ρ c)
theorem W3_v26_1 (c : Dev nD) : W3 m ρ c (Proc.devRef .tc main_v26_1) = (H1 (m ((c : Thread nD τ).loc main_arg0)) (m ((c : Thread nD τ).loc main_arg1)) (m ((c : Thread nD τ).loc main_arg4)) (m ((c : Thread nD τ).loc main_arg5)) (m ((c : Thread nD τ).loc main_arg6))) :=
  (ops1_v26_1 (W2 m ρ c)).trans (W2_v26_1 m ρ c)
theorem W3_v1 (c : Dev nD) : W3 m ρ c (Proc.devRef .tc main_v1) = (edgeRow0 (m ((c : Thread nD τ).loc main_arg1))) :=
  (ops1_v1 (W2 m ρ c)).trans (W2_v1 m ρ c)
theorem W3_v3 (c : Dev nD) : W3 m ρ c (Proc.devRef .tc main_v3) = (edgeRow1 (m ((c : Thread nD τ).loc main_arg1))) :=
  (ops1_v3 (W2 m ρ c)).trans (W2_v3 m ρ c)
theorem W3_arg10 (c : Dev nD) : W3 m ρ c (Proc.devRef .tc main_arg10) = (m ((c : Thread nD τ).loc main_arg10)) :=
  (ops1_arg10 (W2 m ρ c)).trans (W2_arg10 m ρ c)
theorem W3_arg11 (c : Dev nD) : W3 m ρ c (Proc.devRef .tc main_arg11) = (m ((c : Thread nD τ).loc main_arg11)) :=
  (ops1_arg11 (W2 m ρ c)).trans (W2_arg11 m ρ c)
theorem W3_arg12 (c : Dev nD) : W3 m ρ c (Proc.devRef .tc main_arg12) = (m ((c : Thread nD τ).loc main_arg12)) :=
  (ops1_arg12 (W2 m ρ c)).trans (W2_arg12 m ρ c)

end Cert.KernelIdeal.Stages

end
-- ==== Proof.Region1.lean ====
/-
  The second pipeline's output, as a whole-array function of the arrays it reads.

  The grid has 25 points; point `t` handles rows `2000·t … 2000·t + 1999` of every row-blocked array and sees the
  weight and bias arrays whole. What a point writes back is the body's result on its blocks, and the body's result at
  row `p` of a block depends only on row `p` of the row-blocked inputs: so block `t` of the output is block `t` of one
  function of the whole arrays, the blocks tile the output, and the output array ends at that function.
-/
import proofs.«176597_j21869973471634_2_alg».proof.Proof.Gen.KernelIdeal.Frame
import proofs.«176597_j21869973471634_2_alg».proof.Proof.BodyValue
import proofs.«176597_j21869973471634_2_alg».proof.Proof.KernelTerms
import Idealize.ShloMosaic.Lib.Pipeline.Value
import Idealize.ShloMosaic.Lib.ValueIdx
import Idealize.ShloMosaic.PureOps.Ideal

set_option maxRecDepth 16384

noncomputable section

open scoped BigOperators

namespace Cert.KernelIdeal.Regions

open Cert.KernelIdeal Cert.KernelIdeal.Gen Cert.KernelIdeal.Terms
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: every row-blocked window sits at block row `t`, block column 0; the weight
    and bias windows at block `(0, 0)`. -/
theorem idx1 : ∀ t : Fin cfg1.N,
    win1_10.index t (0 : Fin 2) = t.val
    ∧ win1_10.index t (1 : Fin 2) = 0
    ∧ win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = t.val
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0 :=
  (by decide +kernel : ∀ t : Fin grid1.N, _)

/-- A point of the grid is one of 25. -/
theorem lt25_1 (t : Fin cfg1.N) : t.val < 25 := lt_of_lt_of_eq t.isLt N_1

/-- Row `p` of block `t` is row `2000·t + p` of the array. -/
def rowAt1 (t : Fin cfg1.N) (p : Fin 2000) : Fin 50000 := ⟨t.val * 2000 + p.val, by have := lt25_1 t; omega⟩

/-- Input window 0's block at point `t`, read at `(p, k)`, is its array at row `2000·t + p`. -/
theorem blk1_0 (c : Dev nD) (t : Fin cfg1.N) (p : Fin 2000) (k : Fin 64) :
    iblk1 V c 0 t (ix2 p k) = V c main_v36 (ix2 (rowAt1 t p) k) := by
  obtain ⟨e10r, e10c, e0r, e0c, e1r, e1c, e2r, e2c, e3r, e3c, e4r, e4c, e5r, e5c, e6r, e6c, e7r, e7c, e8r, e8c, e9r, e9c⟩ := idx1 t
  show V c main_v36 (((cfg1.win 0).blk t).view.emb (ix2 p k)) = _
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 64 + 1 * k.val = k.val; omega

/-- Input window 1's block at point `t`, read at `(p, k)`, is its array at row `2000·t + p`. -/
theorem blk1_1 (c : Dev nD) (t : Fin cfg1.N) (p : Fin 2000) (k : Fin 64) :
    iblk1 V c 1 t (ix2 p k) = V c main_v46 (ix2 (rowAt1 t p) k) := by
  obtain ⟨e10r, e10c, e0r, e0c, e1r, e1c, e2r, e2c, e3r, e3c, e4r, e4c, e5r, e5c, e6r, e6c, e7r, e7c, e8r, e8c, e9r, e9c⟩ := idx1 t
  show V c main_v46 (((cfg1.win 1).blk t).view.emb (ix2 p k)) = _
  refine congrArg _ (funext fun a => Fin.ext ?_)
  match a with
  | ⟨0, _⟩ => show win1_1.index t (0 : Fin 2) * 2000 + 1 * p.val = t.val * 2000 + p.val; omega
  | ⟨1, _⟩ => show win1_1.index t (1 : Fin 2) * 64 + 1 * k.val = k.val; omega

/-- Input window 2's block at point `t`, read at `(p, k)`, is its array at row `2000·t + p`. -/
theorem blk1_2 (c : Dev nD) (t : Fin cfg1.N) (p : Fin 2000) (k : Fin 1) :
    iblk1 V c 2 t (ix2 p k) = V c main_v13 (ix2 (rowAt1 t p) k) := by
  obtain ⟨e10r, e10c, e0r, e0c, e1r, e1c, e2r, e2c, e3r, e3c, e4r, e4c, e5r, e5c, e6r, e6c, e7r, e7c, e8r, e8c, e9r, e9c⟩ := idx1 t
  show V c main_v13 (((cfg1.win 2).blk t).view.emb (ix2 p k)) = _
  refine congrArg _ (funext fun a => Fin.ext ?_)
  match a with
  | ⟨0, _⟩ => show win1_2.index t (0 : Fin 2) * 2000 + 1 * p.val = t.val * 2000 + p.val; omega
  | ⟨1, _⟩ => show win1_2.index t (1 : Fin 2) * 1 + 1 * k.val = k.val; omega

/-- Input window 3's block at point `t`, read at `(p, k)`, is its array at row `2000·t + p`. -/
theorem blk1_3 (c : Dev nD) (t : Fin cfg1.N) (p : Fin 2000) (k : Fin 64) :
    iblk1 V c 3 t (ix2 p k) = V c main_v26_0 (ix2 (rowAt1 t p) k) := by
  obtain ⟨e10r, e10c, e0r, e0c, e1r, e1c, e2r, e2c, e3r, e3c, e4r, e4c, e5r, e5c, e6r, e6c, e7r, e7c, e8r, e8c, e9r, e9c⟩ := idx1 t
  show V c main_v26_0 (((cfg1.win 3).blk t).view.emb (ix2 p k)) = _
  refine congrArg _ (funext fun a => Fin.ext ?_)
  match a with
  | ⟨0, _⟩ => show win1_3.index t (0 : Fin 2) * 2000 + 1 * p.val = t.val * 2000 + p.val; omega
  | ⟨1, _⟩ => show win1_3.index t (1 : Fin 2) * 64 + 1 * k.val = k.val; omega

/-- Input window 4's block at point `t`, read at `(p, k)`, is its array at row `2000·t + p`. -/
theorem blk1_4 (c : Dev nD) (t : Fin cfg1.N) (p : Fin 2000) (k : Fin 64) :
    iblk1 V c 4 t (ix2 p k) = V c main_v26_1 (ix2 (rowAt1 t p) k) := by
  obtain ⟨e10r, e10c, e0r, e0c, e1r, e1c, e2r, e2c, e3r, e3c, e4r, e4c, e5r, e5c, e6r, e6c, e7r, e7c, e8r, e8c, e9r, e9c⟩ := idx1 t
  show V c main_v26_1 (((cfg1.win 4).blk t).view.emb (ix2 p k)) = _
  refine congrArg _ (funext fun a => Fin.ext ?_)
  match a with
  | ⟨0, _⟩ => show win1_4.index t (0 : Fin 2) * 2000 + 1 * p.val = t.val * 2000 + p.val; omega
  | ⟨1, _⟩ => show win1_4.index t (1 : Fin 2) * 64 + 1 * k.val = k.val; omega

/-- Input window 5 is its whole array at every point. -/
theorem blk1_5 (c : Dev nD) (t : Fin cfg1.N) (k : Fin 64) (j : Fin 128) :
    iblk1 V c 5 t (ix2 k j) = V c main_v47 (ix2 k j) := by
  obtain ⟨e10r, e10c, e0r, e0c, e1r, e1c, e2r, e2c, e3r, e3c, e4r, e4c, e5r, e5c, e6r, e6c, e7r, e7c, e8r, e8c, e9r, e9c⟩ := idx1 t
  show V c main_v47 (((cfg1.win 5).blk t).view.emb (ix2 k j)) = _
  refine congrArg _ (funext fun a => Fin.ext ?_)
  match a with
  | ⟨0, _⟩ => show win1_5.index t (0 : Fin 2) * 64 + 1 * k.val = k.val; omega
  | ⟨1, _⟩ => show win1_5.index t (1 : Fin 2) * 128 + 1 * j.val = j.val; omega

/-- Input window 6 is its whole array at every point. -/
theorem blk1_6 (c : Dev nD) (t : Fin cfg1.N) (k : Fin 64) (j : Fin 128) :
    iblk1 V c 6 t (ix2 k j) = V c main_v48 (ix2 k j) := by
  obtain ⟨e10r, e10c, e0r, e0c, e1r, e1c, e2r, e2c, e3r, e3c, e4r, e4c, e5r, e5c, e6r, e6c, e7r, e7c, e8r, e8c, e9r, e9c⟩ := idx1 t
  show V c main_v48 (((cfg1.win 6).blk t).view.emb (ix2 k j)) = _
  refine congrArg _ (funext fun a => Fin.ext ?_)
  match a with
  | ⟨0, _⟩ => show win1_6.index t (0 : Fin 2) * 64 + 1 * k.val = k.val; omega
  | ⟨1, _⟩ => show win1_6.index t (1 : Fin 2) * 128 + 1 * j.val = j.val; omega

/-- Input window 7 is its whole array at every point. -/
theorem blk1_7 (c : Dev nD) (t : Fin cfg1.N) (k : Fin 1) (j : Fin 128) :
    iblk1 V c 7 t (ix2 k j) = V c main_v51 (ix2 k j) := by
  obtain ⟨e10r, e10c, e0r, e0c, e1r, e1c, e2r, e2c, e3r, e3c, e4r, e4c, e5r, e5c, e6r, e6c, e7r, e7c, e8r, e8c, e9r, e9c⟩ := idx1 t
  show V c main_v51 (((cfg1.win 7).blk t).view.emb (ix2 k j)) = _
  refine congrArg _ (funext fun a => Fin.ext ?_)
  match a with
  | ⟨0, _⟩ => show win1_7.index t (0 : Fin 2) * 1 + 1 * k.val = k.val; omega
  | ⟨1, _⟩ => show win1_7.index t (1 : Fin 2) * 128 + 1 * j.val = j.val; omega

/-- Input window 8 is its whole array at every point. -/
theorem blk1_8 (c : Dev nD) (t : Fin cfg1.N) (k : Fin 64) (j : Fin 128) :
    iblk1 V c 8 t (ix2 k j) = V c main_v49 (ix2 k j) := by
  obtain ⟨e10r, e10c, e0r, e0c, e1r, e1c, e2r, e2c, e3r, e3c, e4r, e4c, e5r, e5c, e6r, e6c, e7r, e7c, e8r, e8c, e9r, e9c⟩ := idx1 t
  show V c main_v49 (((cfg1.win 8).blk t).view.emb (ix2 k j)) = _
  refine congrArg _ (funext fun a => Fin.ext ?_)
  match a with
  | ⟨0, _⟩ => show win1_8.index t (0 : Fin 2) * 64 + 1 * k.val = k.val; omega
  | ⟨1, _⟩ => show win1_8.index t (1 : Fin 2) * 128 + 1 * j.val = j.val; omega

/-- Input window 9 is its whole array at every point. -/
theorem blk1_9 (c : Dev nD) (t : Fin cfg1.N) (k : Fin 64) (j : Fin 128) :
    iblk1 V c 9 t (ix2 k j) = V c main_v50 (ix2 k j) := by
  obtain ⟨e10r, e10c, e0r, e0c, e1r, e1c, e2r, e2c, e3r, e3c, e4r, e4c, e5r, e5c, e6r, e6c, e7r, e7c, e8r, e8c, e9r, e9c⟩ := idx1 t
  show V c main_v50 (((cfg1.win 9).blk t).view.emb (ix2 k j)) = _
  refine congrArg _ (funext fun a => Fin.ext ?_)
  match a with
  | ⟨0, _⟩ => show win1_9.index t (0 : Fin 2) * 64 + 1 * k.val = k.val; omega
  | ⟨1, _⟩ => show win1_9.index t (1 : Fin 2) * 128 + 1 * j.val = j.val; omega

/-- Output window 10's block at point `t` sits at rows `2000·t …` of its array. -/
theorem emb1_10 (t : Fin cfg1.N) (p : Fin 2000) (j : Fin 128) :
    ((cfg1.win 10).blk t).view.emb (ix2 p j) = ix2 (rowAt1 t p) j := by
  obtain ⟨e10r, e10c, e0r, e0c, e1r, e1c, e2r, e2c, e3r, e3c, e4r, e4c, e5r, e5c, e6r, e6c, e7r, e7c, e8r, e8c, e9r, e9c⟩ := idx1 t
  refine funext fun a => Fin.ext ?_
  match a with
  | ⟨0, _⟩ => show win1_10.index t (0 : Fin 2) * 2000 + 1 * p.val = t.val * 2000 + p.val; omega
  | ⟨1, _⟩ => show win1_10.index t (1 : Fin 2) * 128 + 1 * j.val = j.val; omega

/-- WHAT POINT `t` WRITES BACK to output window 10: block `t` of one function of the whole arrays. -/
theorem flushed1_10_eq (c : Dev nD) (t : Fin cfg1.N) :
    (dat1 V c).flushed 10 t = ((cfg1.win 10).blk t).view.read (Elt Ideal)
      (fun i => layer2At (V c main_v36) (V c main_v46) (V c main_v13) (V c main_v26_0) (V c main_v26_1) (V c main_v47) (V c main_v48) (V c main_v51) (V c main_v49) (V c main_v50) (i 0) (i 1)) := by
  show (cfg1.win 10).cut (grid1.coords t) ((dat1 V c).after 10 t) = _
  rw [after1_10]
  funext y
  obtain ⟨p, j, rfl⟩ : ∃ (p : Fin 2000) (j : Fin 128), y = ix2 p j := ⟨y 0, y 1, eq_ix2 y⟩
  refine (BodyValue.out1_10_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p j).trans ?_
  rw [View.read_apply, emb1_10]
  simp only [blk1_0 V c t, blk1_1 V c t, blk1_2 V c t, blk1_3 V c t, blk1_4 V c t, blk1_5 V c t, blk1_6 V c t, blk1_7 V c t, blk1_8 V c t, blk1_9 V c t]
  rfl

/-- An index of the array is in point `t`'s block iff each coordinate is in the block's range on its axis. -/
theorem mem_blk1_10 (t : Fin cfg1.N) (i : S50000x128.Idx) :
    i ∈ ((cfg1.win 10).blk t).view.set ↔ ∀ a : Fin 2, win1_10.index t a * S2000x128.size a ≤ (i a).val ∧ (i a).val < win1_10.index t a * S2000x128.size a + S2000x128.size a := by
  show i ∈ ((View.whole main_v52).slice (win1_10.rect t)).set ↔ _
  rw [View.set_slice_whole, Rect.mem_set_unit]
  exact Iff.rfl

/-- Every row of the array is in the block of the point `row / 2000`. -/
theorem cover1_10 (i : S50000x128.Idx) : ∃ t : Fin cfg1.N, (cfg1.win 10).flush t = true ∧ i ∈ ((cfg1.win 10).blk t).view.set := by
  have hi0 : (i 0).val < 50000 := (i 0).isLt
  have hi1 : (i 1).val < 128 := (i 1).isLt
  let t : Fin cfg1.N := ⟨(i 0).val / 2000, lt_of_lt_of_eq (by omega : (i 0).val / 2000 < 25) N_1.symm⟩
  obtain ⟨e10r, e10c, e0r, e0c, e1r, e1c, e2r, e2c, e3r, e3c, e4r, e4c, e5r, e5c, e6r, e6c, e7r, e7c, e8r, e8c, e9r, e9c⟩ := idx1 t
  refine ⟨t, flush1_10 t, ?_⟩
  rw [mem_blk1_10]
  have htv : t.val = (i 0).val / 2000 := rfl
  intro a
  match a with
  | ⟨0, _⟩ => show win1_10.index t (0 : Fin 2) * 2000 ≤ (i 0).val ∧ (i 0).val < win1_10.index t (0 : Fin 2) * 2000 + 2000; omega
  | ⟨1, _⟩ => show win1_10.index t (1 : Fin 2) * 128 ≤ (i 1).val ∧ (i 1).val < win1_10.index t (1 : Fin 2) * 128 + 128; omega

/-- THE ARRAY after the pipeline: that function of the arrays the pipeline found at entry. -/
theorem final1_10 (c : Dev nD) : (dat1 V c).arrAt 10 cfg1.N = fun i => layer2At (V c main_v36) (V c main_v46) (V c main_v13) (V c main_v26_0) (V c main_v26_1) (V c main_v47) (V c main_v48) (V c main_v51) (V c main_v49) (V c main_v50) (i 0) (i 1) :=
  (dat1 V c).arrAt_eq_of_cover 10 _ (fun t _ => flushed1_10_eq V c t) (cover1_10)

/-- The same with the entry contents named: the form the boundaries are chained through. -/
theorem final1_10' (c : Dev nD) {a0 a1 a2 a3 a4 a5 a6 a7 a8 a9 : _} (h0 : V c main_v36 = a0) (h1 : V c main_v46 = a1) (h2 : V c main_v13 = a2) (h3 : V c main_v26_0 = a3) (h4 : V c main_v26_1 = a4) (h5 : V c main_v47 = a5) (h6 : V c main_v48 = a6) (h7 : V c main_v51 = a7) (h8 : V c main_v49 = a8) (h9 : V c main_v50 = a9) :
    (dat1 V c).arrAt 10 cfg1.N = fun i => layer2At a0 a1 a2 a3 a4 a5 a6 a7 a8 a9 (i 0) (i 1) := by
  subst h0 h1 h2 h3 h4 h5 h6 h7 h8 h9
  exact final1_10 V c

end Cert.KernelIdeal.Regions

end
-- ==== Proof.Stage2.lean ====
/-
  The buffers after the second pipeline and at the third pipeline's entry, as terms of the launch memory.

  The second pipeline leaves the second hidden array in its output array and everything else as it found it. The
  host stretch that follows collects it along the edges, cuts the third layer's weight matrices into their three row
  blocks and recasts its bias as a row.
-/
import proofs.«176597_j21869973471634_2_alg».proof.Proof.Stage1
import proofs.«176597_j21869973471634_2_alg».proof.Proof.Region1

set_option maxRecDepth 16384

noncomputable section

open scoped BigOperators

namespace Cert.KernelIdeal.Stages

open Cert.KernelIdeal Cert.KernelIdeal.Gen Cert.KernelIdeal.Terms Cert.KernelIdeal.Regions
open Idealize.ShloMosaic Idealize.ShloMosaic.TcCoe Idealize.ShloMosaic.Tactic Idealize.SL.Sem Idealize.ShloMosaic.StableHlo

set_option maxHeartbeats 4000000 in
/-- The second pipeline's output collected along the edges. -/
theorem ops2_v62 (U : Valuation τ sig (Elt Ideal)) {v1 v3 X : _} (h0 : U (Proc.devRef .tc main_v1) = v1) (h1 : U (Proc.devRef .tc main_v3) = v3) (h2 : U (Proc.devRef .tc main_v52) = X) :
    StableHlo.after hostOps2 U (Proc.devRef .tc main_v62) = collect128 v1 v3 X := by
  subst h0 h1 h2
  after_results
  rfl
set_option maxHeartbeats 4000000 in
/-- Rows 0–63 of the third layer's left weights. -/
theorem ops2_v63 (U : Valuation τ sig (Elt Ideal)) {W : _} (h0 : U (Proc.devRef .tc main_arg10) = W) :
    StableHlo.after hostOps2 U (Proc.devRef .tc main_v63) = part0 W := by
  subst h0
  after_results
  rfl
set_option maxHeartbeats 4000000 in
/-- Rows 64–127 of the third layer's left weights. -/
theorem ops2_v64 (U : Valuation τ sig (Elt Ideal)) {W : _} (h0 : U (Proc.devRef .tc main_arg10) = W) :
    StableHlo.after hostOps2 U (Proc.devRef .tc main_v64) = part1 W := by
  subst h0
  after_results
  rfl
set_option maxHeartbeats 4000000 in
/-- Rows 128–255 of the third layer's left weights. -/
theorem ops2_v65 (U : Valuation τ sig (Elt Ideal)) {W : _} (h0 : U (Proc.devRef .tc main_arg10) = W) :
    StableHlo.after hostOps2 U (Proc.devRef .tc main_v65) = part2 W := by
  subst h0
  after_results
  rfl
set_option maxHeartbeats 4000000 in
/-- Rows 0–63 of the third layer's right weights. -/
theorem ops2_v66 (U : Valuation τ sig (Elt Ideal)) {W : _} (h0 : U (Proc.devRef .tc main_arg12) = W) :
    StableHlo.after hostOps2 U (Proc.devRef .tc main_v66) = part0 W := by
  subst h0
  after_results
  rfl
set_option maxHeartbeats 4000000 in
/-- Rows 64–127 of the third layer's right weights. -/
theorem ops2_v67 (U : Valuation τ sig (Elt Ideal)) {W : _} (h0 : U (Proc.devRef .tc main_arg12) = W) :
    StableHlo.after hostOps2 U (Proc.devRef .tc main_v67) = part1 W := by
  subst h0
  after_results
  rfl
set_option maxHeartbeats 4000000 in
/-- Rows 128–255 of the third layer's right weights. -/
theorem ops2_v68 (U : Valuation τ sig (Elt Ideal)) {W : _} (h0 : U (Proc.devRef .tc main_arg12) = W) :
    StableHlo.after hostOps2 U (Proc.devRef .tc main_v68) = part2 W := by
  subst h0
  after_results
  rfl
set_option maxHeartbeats 4000000 in
/-- The third layer's bias as a row. -/
theorem ops2_v69 (U : Valuation τ sig (Elt Ideal)) {b : _} (h0 : U (Proc.devRef .tc main_arg11) = b) :
    StableHlo.after hostOps2 U (Proc.devRef .tc main_v69) = row128 b := by
  subst h0
  after_results
  rfl
theorem ops2_v36 (U : Valuation τ sig (Elt Ideal)) : StableHlo.after hostOps2 U (Proc.devRef .tc main_v36) = U (Proc.devRef .tc main_v36) := by
  not_written hostOps2
theorem ops2_v46 (U : Valuation τ sig (Elt Ideal)) : StableHlo.after hostOps2 U (Proc.devRef .tc main_v46) = U (Proc.devRef .tc main_v46) := by
  not_written hostOps2
theorem ops2_v13 (U : Valuation τ sig (Elt Ideal)) : StableHlo.after hostOps2 U (Proc.devRef .tc main_v13) = U (Proc.devRef .tc main_v13) := by
  not_written hostOps2
theorem ops2_v26_0 (U : Valuation τ sig (Elt Ideal)) : StableHlo.after hostOps2 U (Proc.devRef .tc main_v26_0) = U (Proc.devRef .tc main_v26_0) := by
  not_written hostOps2
theorem ops2_v26_1 (U : Valuation τ sig (Elt Ideal)) : StableHlo.after hostOps2 U (Proc.devRef .tc main_v26_1) = U (Proc.devRef .tc main_v26_1) := by
  not_written hostOps2
theorem ops2_v52 (U : Valuation τ sig (Elt Ideal)) : StableHlo.after hostOps2 U (Proc.devRef .tc main_v52) = U (Proc.devRef .tc main_v52) := by
  not_written hostOps2

variable (m : (ℓ : Loc nD τ sig) → Buf (Elt Ideal) ℓ) (ρ : Dev nD → PrngReg)

/-! ## After the second pipeline -/

/-- The output array: the second hidden array. -/
theorem W4_v52 (c : Dev nD) : W4 m ρ c (Proc.devRef .tc main_v52) = (H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (W4_arr m ρ c 10).trans (final1_10' (V3 m ρ) c (W3_v36 m ρ c) (W3_v46 m ρ c) (W3_v13 m ρ c) (W3_v26_0 m ρ c) (W3_v26_1 m ρ c) (W3_v47 m ρ c) (W3_v48 m ρ c) (W3_v51 m ρ c) (W3_v49 m ρ c) (W3_v50 m ρ c))
theorem W4_v36 (c : Dev nD) : W4 m ρ c (Proc.devRef .tc main_v36) = (SXP (m ((c : Thread nD τ).loc main_arg0)) (m ((c : Thread nD τ).loc main_arg1)) (m ((c : Thread nD τ).loc main_arg2)) (m ((c : Thread nD τ).loc main_arg3))) :=
  (W4_arr m ρ c 0).trans ((((dat1 (V3 m ρ) c).arrAt_in 0 rfl _).trans (A_eq1 (V3 m ρ) c 0)).trans (W3_v36 m ρ c))
theorem W4_v46 (c : Dev nD) : W4 m ρ c (Proc.devRef .tc main_v46) = (SH1 (m ((c : Thread nD τ).loc main_arg0)) (m ((c : Thread nD τ).loc main_arg1)) (m ((c : Thread nD τ).loc main_arg4)) (m ((c : Thread nD τ).loc main_arg5)) (m ((c : Thread nD τ).loc main_arg6))) :=
  (W4_arr m ρ c 1).trans ((((dat1 (V3 m ρ) c).arrAt_in 1 rfl _).trans (A_eq1 (V3 m ρ) c 1)).trans (W3_v46 m ρ c))
theorem W4_v13 (c : Dev nD) : W4 m ρ c (Proc.devRef .tc main_v13) = (invCol (edgeRow1 (m ((c : Thread nD τ).loc main_arg1)))) :=
  (W4_arr m ρ c 2).trans ((((dat1 (V3 m ρ) c).arrAt_in 2 rfl _).trans (A_eq1 (V3 m ρ) c 2)).trans (W3_v13 m ρ c))
theorem W4_v26_0 (c : Dev nD) : W4 m ρ c (Proc.devRef .tc main_v26_0) = (XP (m ((c : Thread nD τ).loc main_arg0)) (m ((c : Thread nD τ).loc main_arg2)) (m ((c : Thread nD τ).loc main_arg3))) :=
  (W4_arr m ρ c 3).trans ((((dat1 (V3 m ρ) c).arrAt_in 3 rfl _).trans (A_eq1 (V3 m ρ) c 3)).trans (W3_v26_0 m ρ c))
theorem W4_v26_1 (c : Dev nD) : W4 m ρ c (Proc.devRef .tc main_v26_1) = (H1 (m ((c : Thread nD τ).loc main_arg0)) (m ((c : Thread nD τ).loc main_arg1)) (m ((c : Thread nD τ).loc main_arg4)) (m ((c : Thread nD τ).loc main_arg5)) (m ((c : Thread nD τ).loc main_arg6))) :=
  (W4_arr m ρ c 4).trans ((((dat1 (V3 m ρ) c).arrAt_in 4 rfl _).trans (A_eq1 (V3 m ρ) c 4)).trans (W3_v26_1 m ρ c))
theorem W4_v1 (c : Dev nD) : W4 m ρ c (Proc.devRef .tc main_v1) = (edgeRow0 (m ((c : Thread nD τ).loc main_arg1))) :=
  (W4_of_ne m ρ c main_v1 (by decide)).trans (W3_v1 m ρ c)
theorem W4_v3 (c : Dev nD) : W4 m ρ c (Proc.devRef .tc main_v3) = (edgeRow1 (m ((c : Thread nD τ).loc main_arg1))) :=
  (W4_of_ne m ρ c main_v3 (by decide)).trans (W3_v3 m ρ c)
theorem W4_arg10 (c : Dev nD) : W4 m ρ c (Proc.devRef .tc main_arg10) = (m ((c : Thread nD τ).loc main_arg10)) :=
  (W4_of_ne m ρ c main_arg10 (by decide)).trans (W3_arg10 m ρ c)
theorem W4_arg11 (c : Dev nD) : W4 m ρ c (Proc.devRef .tc main_arg11) = (m ((c : Thread nD τ).loc main_arg11)) :=
  (W4_of_ne m ρ c main_arg11 (by decide)).trans (W3_arg11 m ρ c)
theorem W4_arg12 (c : Dev nD) : W4 m ρ c (Proc.devRef .tc main_arg12) = (m ((c : Thread nD τ).loc main_arg12)) :=
  (W4_of_ne m ρ c main_arg12 (by decide)).trans (W3_arg12 m ρ c)

/-! ## At the third pipeline's entry -/

theorem W5_v62 (c : Dev nD) : W5 m ρ c (Proc.devRef .tc main_v62) = (SH2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  ops2_v62 (W4 m ρ c) (W4_v1 m ρ c) (W4_v3 m ρ c) (W4_v52 m ρ c)
theorem W5_v63 (c : Dev nD) : W5 m ρ c (Proc.devRef .tc main_v63) = part0 (m ((c : Thread nD τ).loc main_arg10)) :=
  ops2_v63 (W4 m ρ c) (W4_arg10 m ρ c)
theorem W5_v64 (c : Dev nD) : W5 m ρ c (Proc.devRef .tc main_v64) = part1 (m ((c : Thread nD τ).loc main_arg10)) :=
  ops2_v64 (W4 m ρ c) (W4_arg10 m ρ c)
theorem W5_v65 (c : Dev nD) : W5 m ρ c (Proc.devRef .tc main_v65) = part2 (m ((c : Thread nD τ).loc main_arg10)) :=
  ops2_v65 (W4 m ρ c) (W4_arg10 m ρ c)
theorem W5_v66 (c : Dev nD) : W5 m ρ c (Proc.devRef .tc main_v66) = part0 (m ((c : Thread nD τ).loc main_arg12)) :=
  ops2_v66 (W4 m ρ c) (W4_arg12 m ρ c)
theorem W5_v67 (c : Dev nD) : W5 m ρ c (Proc.devRef .tc main_v67) = part1 (m ((c : Thread nD τ).loc main_arg12)) :=
  ops2_v67 (W4 m ρ c) (W4_arg12 m ρ c)
theorem W5_v68 (c : Dev nD) : W5 m ρ c (Proc.devRef .tc main_v68) = part2 (m ((c : Thread nD τ).loc main_arg12)) :=
  ops2_v68 (W4 m ρ c) (W4_arg12 m ρ c)
theorem W5_v69 (c : Dev nD) : W5 m ρ c (Proc.devRef .tc main_v69) = row128 (m ((c : Thread nD τ).loc main_arg11)) :=
  ops2_v69 (W4 m ρ c) (W4_arg11 m ρ c)
theorem W5_v36 (c : Dev nD) : W5 m ρ c (Proc.devRef .tc main_v36) = (SXP (m ((c : Thread nD τ).loc main_arg0)) (m ((c : Thread nD τ).loc main_arg1)) (m ((c : Thread nD τ).loc main_arg2)) (m ((c : Thread nD τ).loc main_arg3))) :=
  (ops2_v36 (W4 m ρ c)).trans (W4_v36 m ρ c)
theorem W5_v46 (c : Dev nD) : W5 m ρ c (Proc.devRef .tc main_v46) = (SH1 (m ((c : Thread nD τ).loc main_arg0)) (m ((c : Thread nD τ).loc main_arg1)) (m ((c : Thread nD τ).loc main_arg4)) (m ((c : Thread nD τ).loc main_arg5)) (m ((c : Thread nD τ).loc main_arg6))) :=
  (ops2_v46 (W4 m ρ c)).trans (W4_v46 m ρ c)
theorem W5_v13 (c : Dev nD) : W5 m ρ c (Proc.devRef .tc main_v13) = (invCol (edgeRow1 (m ((c : Thread nD τ).loc main_arg1)))) :=
  (ops2_v13 (W4 m ρ c)).trans (W4_v13 m ρ c)
theorem W5_v26_0 (c : Dev nD) : W5 m ρ c (Proc.devRef .tc main_v26_0) = (XP (m ((c : Thread nD τ).loc main_arg0)) (m ((c : Thread nD τ).loc main_arg2)) (m ((c : Thread nD τ).loc main_arg3))) :=
  (ops2_v26_0 (W4 m ρ c)).trans (W4_v26_0 m ρ c)
theorem W5_v26_1 (c : Dev nD) : W5 m ρ c (Proc.devRef .tc main_v26_1) = (H1 (m ((c : Thread nD τ).loc main_arg0)) (m ((c : Thread nD τ).loc main_arg1)) (m ((c : Thread nD τ).loc main_arg4)) (m ((c : Thread nD τ).loc main_arg5)) (m ((c : Thread nD τ).loc main_arg6))) :=
  (ops2_v26_1 (W4 m ρ c)).trans (W4_v26_1 m ρ c)
theorem W5_v52 (c : Dev nD) : W5 m ρ c (Proc.devRef .tc main_v52) = (H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (ops2_v52 (W4 m ρ c)).trans (W4_v52 m ρ c)

end Cert.KernelIdeal.Stages

end
-- ==== Proof.Region2.lean ====
/-
  The third pipeline's output, as a whole-array function of the arrays it reads.

  The grid has 25 points; point `t` handles rows `2000·t … 2000·t + 1999` of every row-blocked array and sees the
  weight and bias arrays whole. What a point writes back is the body's result on its blocks, and the body's result at
  row `p` of a block depends only on row `p` of the row-blocked inputs: so block `t` of the output is block `t` of one
  function of the whole arrays, the blocks tile the output, and the output array ends at that function.
-/
import proofs.«176597_j21869973471634_2_alg».proof.Proof.Gen.KernelIdeal.Frame
import proofs.«176597_j21869973471634_2_alg».proof.Proof.BodyValue
import proofs.«176597_j21869973471634_2_alg».proof.Proof.KernelTerms
import Idealize.ShloMosaic.Lib.Pipeline.Value
import Idealize.ShloMosaic.Lib.ValueIdx
import Idealize.ShloMosaic.PureOps.Ideal

set_option maxRecDepth 16384

noncomputable section

open scoped BigOperators

namespace Cert.KernelIdeal.Regions

open Cert.KernelIdeal Cert.KernelIdeal.Gen Cert.KernelIdeal.Terms
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: every row-blocked window sits at block row `t`, block column 0; the weight
    and bias windows at block `(0, 0)`. -/
theorem idx2 : ∀ t : Fin cfg2.N,
    win2_14.index t (0 : Fin 2) = t.val
    ∧ win2_14.index t (1 : Fin 2) = 0
    ∧ win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0
    ∧ win2_4.index t (0 : Fin 2) = t.val
    ∧ win2_4.index t (1 : Fin 2) = 0
    ∧ win2_5.index t (0 : Fin 2) = t.val
    ∧ win2_5.index t (1 : Fin 2) = 0
    ∧ win2_6.index t (0 : Fin 2) = t.val
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = 0
    ∧ win2_11.index t (1 : Fin 2) = 0
    ∧ win2_12.index t (0 : Fin 2) = 0
    ∧ win2_12.index t (1 : Fin 2) = 0
    ∧ win2_13.index t (0 : Fin 2) = 0
    ∧ win2_13.index t (1 : Fin 2) = 0 :=
  (by decide +kernel : ∀ t : Fin grid2.N, _)

/-- A point of the grid is one of 25. -/
theorem lt25_2 (t : Fin cfg2.N) : t.val < 25 := lt_of_lt_of_eq t.isLt N_2

/-- Row `p` of block `t` is row `2000·t + p` of the array. -/
def rowAt2 (t : Fin cfg2.N) (p : Fin 2000) : Fin 50000 := ⟨t.val * 2000 + p.val, by have := lt25_2 t; omega⟩

/-- Input window 0's block at point `t`, read at `(p, k)`, is its array at row `2000·t + p`. -/
theorem blk2_0 (c : Dev nD) (t : Fin cfg2.N) (p : Fin 2000) (k : Fin 64) :
    iblk2 V c 0 t (ix2 p k) = V c main_v36 (ix2 (rowAt2 t p) k) := by
  obtain ⟨e14r, e14c, e0r, e0c, e1r, e1c, e2r, e2c, e3r, e3c, e4r, e4c, e5r, e5c, e6r, e6c, e7r, e7c, e8r, e8c, e9r, e9c, e10r, e10c, e11r, e11c, e12r, e12c, e13r, e13c⟩ := idx2 t
  show V c main_v36 (((cfg2.win 0).blk t).view.emb (ix2 p k)) = _
  refine congrArg _ (funext fun a => Fin.ext ?_)
  match a with
  | ⟨0, _⟩ => show win2_0.index t (0 : Fin 2) * 2000 + 1 * p.val = t.val * 2000 + p.val; omega
  | ⟨1, _⟩ => show win2_0.index t (1 : Fin 2) * 64 + 1 * k.val = k.val; omega

/-- Input window 1's block at point `t`, read at `(p, k)`, is its array at row `2000·t + p`. -/
theorem blk2_1 (c : Dev nD) (t : Fin cfg2.N) (p : Fin 2000) (k : Fin 64) :
    iblk2 V c 1 t (ix2 p k) = V c main_v46 (ix2 (rowAt2 t p) k) := by
  obtain ⟨e14r, e14c, e0r, e0c, e1r, e1c, e2r, e2c, e3r, e3c, e4r, e4c, e5r, e5c, e6r, e6c, e7r, e7c, e8r, e8c, e9r, e9c, e10r, e10c, e11r, e11c, e12r, e12c, e13r, e13c⟩ := idx2 t
  show V c main_v46 (((cfg2.win 1).blk t).view.emb (ix2 p k)) = _
  refine congrArg _ (funext fun a => Fin.ext ?_)
  match a with
  | ⟨0, _⟩ => show win2_1.index t (0 : Fin 2) * 2000 + 1 * p.val = t.val * 2000 + p.val; omega
  | ⟨1, _⟩ => show win2_1.index t (1 : Fin 2) * 64 + 1 * k.val = k.val; omega

/-- Input window 2's block at point `t`, read at `(p, k)`, is its array at row `2000·t + p`. -/
theorem blk2_2 (c : Dev nD) (t : Fin cfg2.N) (p : Fin 2000) (k : Fin 128) :
    iblk2 V c 2 t (ix2 p k) = V c main_v62 (ix2 (rowAt2 t p) k) := by
  obtain ⟨e14r, e14c, e0r, e0c, e1r, e1c, e2r, e2c, e3r, e3c, e4r, e4c, e5r, e5c, e6r, e6c, e7r, e7c, e8r, e8c, e9r, e9c, e10r, e10c, e11r, e11c, e12r, e12c, e13r, e13c⟩ := idx2 t
  show V c main_v62 (((cfg2.win 2).blk t).view.emb (ix2 p k)) = _
  refine congrArg _ (funext fun a => Fin.ext ?_)
  match a with
  | ⟨0, _⟩ => show win2_2.index t (0 : Fin 2) * 2000 + 1 * p.val = t.val * 2000 + p.val; omega
  | ⟨1, _⟩ => show win2_2.index t (1 : Fin 2) * 128 + 1 * k.val = k.val; omega

/-- Input window 3's block at point `t`, read at `(p, k)`, is its array at row `2000·t + p`. -/
theorem blk2_3 (c : Dev nD) (t : Fin cfg2.N) (p : Fin 2000) (k : Fin 1) :
    iblk2 V c 3 t (ix2 p k) = V c main_v13 (ix2 (rowAt2 t p) k) := by
  obtain ⟨e14r, e14c, e0r, e0c, e1r, e1c, e2r, e2c, e3r, e3c, e4r, e4c, e5r, e5c, e6r, e6c, e7r, e7c, e8r, e8c, e9r, e9c, e10r, e10c, e11r, e11c, e12r, e12c, e13r, e13c⟩ := idx2 t
  show V c main_v13 (((cfg2.win 3).blk t).view.emb (ix2 p k)) = _
  refine congrArg _ (funext fun a => Fin.ext ?_)
  match a with
  | ⟨0, _⟩ => show win2_3.index t (0 : Fin 2) * 2000 + 1 * p.val = t.val * 2000 + p.val; omega
  | ⟨1, _⟩ => show win2_3.index t (1 : Fin 2) * 1 + 1 * k.val = k.val; omega

/-- Input window 4's block at point `t`, read at `(p, k)`, is its array at row `2000·t + p`. -/
theorem blk2_4 (c : Dev nD) (t : Fin cfg2.N) (p : Fin 2000) (k : Fin 64) :
    iblk2 V c 4 t (ix2 p k) = V c main_v26_0 (ix2 (rowAt2 t p) k) := by
  obtain ⟨e14r, e14c, e0r, e0c, e1r, e1c, e2r, e2c, e3r, e3c, e4r, e4c, e5r, e5c, e6r, e6c, e7r, e7c, e8r, e8c, e9r, e9c, e10r, e10c, e11r, e11c, e12r, e12c, e13r, e13c⟩ := idx2 t
  show V c main_v26_0 (((cfg2.win 4).blk t).view.emb (ix2 p k)) = _
  refine congrArg _ (funext fun a => Fin.ext ?_)
  match a with
  | ⟨0, _⟩ => show win2_4.index t (0 : Fin 2) * 2000 + 1 * p.val = t.val * 2000 + p.val; omega
  | ⟨1, _⟩ => show win2_4.index t (1 : Fin 2) * 64 + 1 * k.val = k.val; omega

/-- Input window 5's block at point `t`, read at `(p, k)`, is its array at row `2000·t + p`. -/
theorem blk2_5 (c : Dev nD) (t : Fin cfg2.N) (p : Fin 2000) (k : Fin 64) :
    iblk2 V c 5 t (ix2 p k) = V c main_v26_1 (ix2 (rowAt2 t p) k) := by
  obtain ⟨e14r, e14c, e0r, e0c, e1r, e1c, e2r, e2c, e3r, e3c, e4r, e4c, e5r, e5c, e6r, e6c, e7r, e7c, e8r, e8c, e9r, e9c, e10r, e10c, e11r, e11c, e12r, e12c, e13r, e13c⟩ := idx2 t
  show V c main_v26_1 (((cfg2.win 5).blk t).view.emb (ix2 p k)) = _
  refine congrArg _ (funext fun a => Fin.ext ?_)
  match a with
  | ⟨0, _⟩ => show win2_5.index t (0 : Fin 2) * 2000 + 1 * p.val = t.val * 2000 + p.val; omega
  | ⟨1, _⟩ => show win2_5.index t (1 : Fin 2) * 64 + 1 * k.val = k.val; omega

/-- Input window 6's block at point `t`, read at `(p, k)`, is its array at row `2000·t + p`. -/
theorem blk2_6 (c : Dev nD) (t : Fin cfg2.N) (p : Fin 2000) (k : Fin 128) :
    iblk2 V c 6 t (ix2 p k) = V c main_v52 (ix2 (rowAt2 t p) k) := by
  obtain ⟨e14r, e14c, e0r, e0c, e1r, e1c, e2r, e2c, e3r, e3c, e4r, e4c, e5r, e5c, e6r, e6c, e7r, e7c, e8r, e8c, e9r, e9c, e10r, e10c, e11r, e11c, e12r, e12c, e13r, e13c⟩ := idx2 t
  show V c main_v52 (((cfg2.win 6).blk t).view.emb (ix2 p k)) = _
  refine congrArg _ (funext fun a => Fin.ext ?_)
  match a with
  | ⟨0, _⟩ => show win2_6.index t (0 : Fin 2) * 2000 + 1 * p.val = t.val * 2000 + p.val; omega
  | ⟨1, _⟩ => show win2_6.index t (1 : Fin 2) * 128 + 1 * k.val = k.val; omega

/-- Input window 7 is its whole array at every point. -/
theorem blk2_7 (c : Dev nD) (t : Fin cfg2.N) (k : Fin 64) (j : Fin 128) :
    iblk2 V c 7 t (ix2 k j) = V c main_v63 (ix2 k j) := by
  obtain ⟨e14r, e14c, e0r, e0c, e1r, e1c, e2r, e2c, e3r, e3c, e4r, e4c, e5r, e5c, e6r, e6c, e7r, e7c, e8r, e8c, e9r, e9c, e10r, e10c, e11r, e11c, e12r, e12c, e13r, e13c⟩ := idx2 t
  show V c main_v63 (((cfg2.win 7).blk t).view.emb (ix2 k j)) = _
  refine congrArg _ (funext fun a => Fin.ext ?_)
  match a with
  | ⟨0, _⟩ => show win2_7.index t (0 : Fin 2) * 64 + 1 * k.val = k.val; omega
  | ⟨1, _⟩ => show win2_7.index t (1 : Fin 2) * 128 + 1 * j.val = j.val; omega

/-- Input window 8 is its whole array at every point. -/
theorem blk2_8 (c : Dev nD) (t : Fin cfg2.N) (k : Fin 64) (j : Fin 128) :
    iblk2 V c 8 t (ix2 k j) = V c main_v64 (ix2 k j) := by
  obtain ⟨e14r, e14c, e0r, e0c, e1r, e1c, e2r, e2c, e3r, e3c, e4r, e4c, e5r, e5c, e6r, e6c, e7r, e7c, e8r, e8c, e9r, e9c, e10r, e10c, e11r, e11c, e12r, e12c, e13r, e13c⟩ := idx2 t
  show V c main_v64 (((cfg2.win 8).blk t).view.emb (ix2 k j)) = _
  refine congrArg _ (funext fun a => Fin.ext ?_)
  match a with
  | ⟨0, _⟩ => show win2_8.index t (0 : Fin 2) * 64 + 1 * k.val = k.val; omega
  | ⟨1, _⟩ => show win2_8.index t (1 : Fin 2) * 128 + 1 * j.val = j.val; omega

/-- Input window 9 is its whole array at every point. -/
theorem blk2_9 (c : Dev nD) (t : Fin cfg2.N) (k : Fin 128) (j : Fin 128) :
    iblk2 V c 9 t (ix2 k j) = V c main_v65 (ix2 k j) := by
  obtain ⟨e14r, e14c, e0r, e0c, e1r, e1c, e2r, e2c, e3r, e3c, e4r, e4c, e5r, e5c, e6r, e6c, e7r, e7c, e8r, e8c, e9r, e9c, e10r, e10c, e11r, e11c, e12r, e12c, e13r, e13c⟩ := idx2 t
  show V c main_v65 (((cfg2.win 9).blk t).view.emb (ix2 k j)) = _
  refine congrArg _ (funext fun a => Fin.ext ?_)
  match a with
  | ⟨0, _⟩ => show win2_9.index t (0 : Fin 2) * 128 + 1 * k.val = k.val; omega
  | ⟨1, _⟩ => show win2_9.index t (1 : Fin 2) * 128 + 1 * j.val = j.val; omega

/-- Input window 10 is its whole array at every point. -/
theorem blk2_10 (c : Dev nD) (t : Fin cfg2.N) (k : Fin 1) (j : Fin 128) :
    iblk2 V c 10 t (ix2 k j) = V c main_v69 (ix2 k j) := by
  obtain ⟨e14r, e14c, e0r, e0c, e1r, e1c, e2r, e2c, e3r, e3c, e4r, e4c, e5r, e5c, e6r, e6c, e7r, e7c, e8r, e8c, e9r, e9c, e10r, e10c, e11r, e11c, e12r, e12c, e13r, e13c⟩ := idx2 t
  show V c main_v69 (((cfg2.win 10).blk t).view.emb (ix2 k j)) = _
  refine congrArg _ (funext fun a => Fin.ext ?_)
  match a with
  | ⟨0, _⟩ => show win2_10.index t (0 : Fin 2) * 1 + 1 * k.val = k.val; omega
  | ⟨1, _⟩ => show win2_10.index t (1 : Fin 2) * 128 + 1 * j.val = j.val; omega

/-- Input window 11 is its whole array at every point. -/
theorem blk2_11 (c : Dev nD) (t : Fin cfg2.N) (k : Fin 64) (j : Fin 128) :
    iblk2 V c 11 t (ix2 k j) = V c main_v66 (ix2 k j) := by
  obtain ⟨e14r, e14c, e0r, e0c, e1r, e1c, e2r, e2c, e3r, e3c, e4r, e4c, e5r, e5c, e6r, e6c, e7r, e7c, e8r, e8c, e9r, e9c, e10r, e10c, e11r, e11c, e12r, e12c, e13r, e13c⟩ := idx2 t
  show V c main_v66 (((cfg2.win 11).blk t).view.emb (ix2 k j)) = _
  refine congrArg _ (funext fun a => Fin.ext ?_)
  match a with
  | ⟨0, _⟩ => show win2_11.index t (0 : Fin 2) * 64 + 1 * k.val = k.val; omega
  | ⟨1, _⟩ => show win2_11.index t (1 : Fin 2) * 128 + 1 * j.val = j.val; omega

/-- Input window 12 is its whole array at every point. -/
theorem blk2_12 (c : Dev nD) (t : Fin cfg2.N) (k : Fin 64) (j : Fin 128) :
    iblk2 V c 12 t (ix2 k j) = V c main_v67 (ix2 k j) := by
  obtain ⟨e14r, e14c, e0r, e0c, e1r, e1c, e2r, e2c, e3r, e3c, e4r, e4c, e5r, e5c, e6r, e6c, e7r, e7c, e8r, e8c, e9r, e9c, e10r, e10c, e11r, e11c, e12r, e12c, e13r, e13c⟩ := idx2 t
  show V c main_v67 (((cfg2.win 12).blk t).view.emb (ix2 k j)) = _
  refine congrArg _ (funext fun a => Fin.ext ?_)
  match a with
  | ⟨0, _⟩ => show win2_12.index t (0 : Fin 2) * 64 + 1 * k.val = k.val; omega
  | ⟨1, _⟩ => show win2_12.index t (1 : Fin 2) * 128 + 1 * j.val = j.val; omega

/-- Input window 13 is its whole array at every point. -/
theorem blk2_13 (c : Dev nD) (t : Fin cfg2.N) (k : Fin 128) (j : Fin 128) :
    iblk2 V c 13 t (ix2 k j) = V c main_v68 (ix2 k j) := by
  obtain ⟨e14r, e14c, e0r, e0c, e1r, e1c, e2r, e2c, e3r, e3c, e4r, e4c, e5r, e5c, e6r, e6c, e7r, e7c, e8r, e8c, e9r, e9c, e10r, e10c, e11r, e11c, e12r, e12c, e13r, e13c⟩ := idx2 t
  show V c main_v68 (((cfg2.win 13).blk t).view.emb (ix2 k j)) = _
  refine congrArg _ (funext fun a => Fin.ext ?_)
  match a with
  | ⟨0, _⟩ => show win2_13.index t (0 : Fin 2) * 128 + 1 * k.val = k.val; omega
  | ⟨1, _⟩ => show win2_13.index t (1 : Fin 2) * 128 + 1 * j.val = j.val; omega

/-- Output window 14's block at point `t` sits at rows `2000·t …` of its array. -/
theorem emb2_14 (t : Fin cfg2.N) (p : Fin 2000) (j : Fin 128) :
    ((cfg2.win 14).blk t).view.emb (ix2 p j) = ix2 (rowAt2 t p) j := by
  obtain ⟨e14r, e14c, e0r, e0c, e1r, e1c, e2r, e2c, e3r, e3c, e4r, e4c, e5r, e5c, e6r, e6c, e7r, e7c, e8r, e8c, e9r, e9c, e10r, e10c, e11r, e11c, e12r, e12c, e13r, e13c⟩ := idx2 t
  refine funext fun a => Fin.ext ?_
  match a with
  | ⟨0, _⟩ => show win2_14.index t (0 : Fin 2) * 2000 + 1 * p.val = t.val * 2000 + p.val; omega
  | ⟨1, _⟩ => show win2_14.index t (1 : Fin 2) * 128 + 1 * j.val = j.val; omega

/-- WHAT POINT `t` WRITES BACK to output window 14: block `t` of one function of the whole arrays. -/
theorem flushed2_14_eq (c : Dev nD) (t : Fin cfg2.N) :
    (dat2 V c).flushed 14 t = ((cfg2.win 14).blk t).view.read (Elt Ideal)
      (fun i => layer3At (V c main_v36) (V c main_v46) (V c main_v62) (V c main_v13) (V c main_v26_0) (V c main_v26_1) (V c main_v52) (V c main_v63) (V c main_v64) (V c main_v65) (V c main_v69) (V c main_v66) (V c main_v67) (V c main_v68) (i 0) (i 1)) := by
  show (cfg2.win 14).cut (grid2.coords t) ((dat2 V c).after 14 t) = _
  rw [after2_14]
  funext y
  obtain ⟨p, j, rfl⟩ : ∃ (p : Fin 2000) (j : Fin 128), y = ix2 p j := ⟨y 0, y 1, eq_ix2 y⟩
  refine (BodyValue.out2_14_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) p j).trans ?_
  rw [View.read_apply, emb2_14]
  simp only [blk2_0 V c t, blk2_1 V c t, blk2_2 V c t, blk2_3 V c t, blk2_4 V c t, blk2_5 V c t, blk2_6 V c t, blk2_7 V c t, blk2_8 V c t, blk2_9 V c t, blk2_10 V c t, blk2_11 V c t, blk2_12 V c t, blk2_13 V c t]
  rfl

/-- An index of the array is in point `t`'s block iff each coordinate is in the block's range on its axis. -/
theorem mem_blk2_14 (t : Fin cfg2.N) (i : S50000x128.Idx) :
    i ∈ ((cfg2.win 14).blk t).view.set ↔ ∀ a : Fin 2, win2_14.index t a * S2000x128.size a ≤ (i a).val ∧ (i a).val < win2_14.index t a * S2000x128.size a + S2000x128.size a := by
  show i ∈ ((View.whole main_v70).slice (win2_14.rect t)).set ↔ _
  rw [View.set_slice_whole, Rect.mem_set_unit]
  exact Iff.rfl

/-- Every row of the array is in the block of the point `row / 2000`. -/
theorem cover2_14 (i : S50000x128.Idx) : ∃ t : Fin cfg2.N, (cfg2.win 14).flush t = true ∧ i ∈ ((cfg2.win 14).blk t).view.set := by
  have hi0 : (i 0).val < 50000 := (i 0).isLt
  have hi1 : (i 1).val < 128 := (i 1).isLt
  let t : Fin cfg2.N := ⟨(i 0).val / 2000, lt_of_lt_of_eq (by omega : (i 0).val / 2000 < 25) N_2.symm⟩
  obtain ⟨e14r, e14c, e0r, e0c, e1r, e1c, e2r, e2c, e3r, e3c, e4r, e4c, e5r, e5c, e6r, e6c, e7r, e7c, e8r, e8c, e9r, e9c, e10r, e10c, e11r, e11c, e12r, e12c, e13r, e13c⟩ := idx2 t
  refine ⟨t, flush2_14 t, ?_⟩
  rw [mem_blk2_14]
  have htv : t.val = (i 0).val / 2000 := rfl
  intro a
  match a with
  | ⟨0, _⟩ => show win2_14.index t (0 : Fin 2) * 2000 ≤ (i 0).val ∧ (i 0).val < win2_14.index t (0 : Fin 2) * 2000 + 2000; omega
  | ⟨1, _⟩ => show win2_14.index t (1 : Fin 2) * 128 ≤ (i 1).val ∧ (i 1).val < win2_14.index t (1 : Fin 2) * 128 + 128; omega

/-- THE ARRAY after the pipeline: that function of the arrays the pipeline found at entry. -/
theorem final2_14 (c : Dev nD) : (dat2 V c).arrAt 14 cfg2.N = fun i => layer3At (V c main_v36) (V c main_v46) (V c main_v62) (V c main_v13) (V c main_v26_0) (V c main_v26_1) (V c main_v52) (V c main_v63) (V c main_v64) (V c main_v65) (V c main_v69) (V c main_v66) (V c main_v67) (V c main_v68) (i 0) (i 1) :=
  (dat2 V c).arrAt_eq_of_cover 14 _ (fun t _ => flushed2_14_eq V c t) (cover2_14)

/-- The same with the entry contents named: the form the boundaries are chained through. -/
theorem final2_14' (c : Dev nD) {a0 a1 a2 a3 a4 a5 a6 a7 a8 a9 a10 a11 a12 a13 : _} (h0 : V c main_v36 = a0) (h1 : V c main_v46 = a1) (h2 : V c main_v62 = a2) (h3 : V c main_v13 = a3) (h4 : V c main_v26_0 = a4) (h5 : V c main_v26_1 = a5) (h6 : V c main_v52 = a6) (h7 : V c main_v63 = a7) (h8 : V c main_v64 = a8) (h9 : V c main_v65 = a9) (h10 : V c main_v69 = a10) (h11 : V c main_v66 = a11) (h12 : V c main_v67 = a12) (h13 : V c main_v68 = a13) :
    (dat2 V c).arrAt 14 cfg2.N = fun i => layer3At a0 a1 a2 a3 a4 a5 a6 a7 a8 a9 a10 a11 a12 a13 (i 0) (i 1) := by
  subst h0 h1 h2 h3 h4 h5 h6 h7 h8 h9 h10 h11 h12 h13
  exact final2_14 V c

end Cert.KernelIdeal.Regions

end
-- ==== Proof.KernelRun.lean ====
/-
  The idealized program's run with its result read: every weakly fair execution of the program ends, without a fault,
  with the argument arrays as launched and with the result array at the contents the last pipeline's write-backs leave
  — the final fold of buffer contents through the host stretches and the three pipelines, read at the result's buffer.
-/
import proofs.«176597_j21869973471634_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run with the result read: the arguments end as launched and the result's buffer holds what the
    fold of contents through the program gives it (the last pipeline's output array after all its write-backs). -/
theorem run_result : θ_run defs (onTc (τ := τ) (main (F := F))) ⟨m, fun _ => 0, ρ⟩ (fun r => ∀ c : Dev nD,
      r.2.mem ((c.tc : Thread nD τ).loc main_v70) = W6 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v70 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Gen

end
-- ==== Proof.KernelValue.lean ====
/-
  The idealized program's result as a term of its arguments.

  The third pipeline leaves the third layer in its output array, which is the program's result; read back through the
  boundaries it is the last of the arrays named in program order, a function of the thirteen argument arrays alone.
  With the run's own post this gives: every weakly fair execution ends with the result array at that function of the
  launch contents and the arguments unchanged.
-/
import proofs.«176597_j21869973471634_2_alg».proof.Proof.Stage2
import proofs.«176597_j21869973471634_2_alg».proof.Proof.Region2
import proofs.«176597_j21869973471634_2_alg».proof.Proof.KernelRun

set_option maxRecDepth 16384

noncomputable section

open scoped BigOperators

namespace Cert.KernelIdeal.Stages

open Cert.KernelIdeal Cert.KernelIdeal.Gen Cert.KernelIdeal.Terms Cert.KernelIdeal.Regions
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

/-- The result array: the third layer. -/
theorem W6_v70 (c : Dev nD) : W6 m ρ c (Proc.devRef .tc main_v70) = (H3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :=
  (W6_arr m ρ c 14).trans (final2_14' (V5 m ρ) c (W5_v36 m ρ c) (W5_v46 m ρ c) (W5_v62 m ρ c) (W5_v13 m ρ c) (W5_v26_0 m ρ c) (W5_v26_1 m ρ c) (W5_v52 m ρ c) (W5_v63 m ρ c) (W5_v64 m ρ c) (W5_v65 m ρ c) (W5_v69 m ρ c) (W5_v66 m ρ c) (W5_v67 m ρ c) (W5_v68 m ρ c))

/-- THE RUN, READ: the result array ends at the third layer of the launch contents, the arguments as launched. -/
theorem run_value : θ_run defs (onTc (τ := τ) (main (F := Ideal))) ⟨m, fun _ => 0, ρ⟩ (fun r => ∀ c : Dev nD,
      r.2.mem ((c.tc : Thread nD τ).loc main_v70) = (H3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (W6_v70 m ρ c), (h c).2⟩) (run_result m ρ)

end Cert.KernelIdeal.Stages

end
-- ==== Proof.LibRowScatter.lean ====
/-
  ROW GATHER AND ACCUMULATING ROW SCATTER, READ AT AN INDEX.

  Two StableHLO host operations on a matrix `[N, C]` whose rows are addressed by an integer column `[E, 1]`, with
  the "rows" dimension numbers that `h[src]` (take rows) and a segment sum over destination rows lower to:

  * the row gather (offset_dims `[1]`, collapsed_slice_dims `[0]`, start_index_map `[0]`, index_vector_dim 1,
    slice_sizes `[1, C]`): result element `(e, q)` is the operand at row `idx[e, 0]` — read as a signed integer and
    clamped into `[0, N − 1]` — and column `q` (`gather_rows_apply`);
  * the scatter with an `add` body at the ideal instance (update_window_dims `[1]`, inserted_window_dims `[0]`,
    scatter_dims_to_operand_dims `[0]`, index_vector_dim 1): result element `(n, q)` is the operand's plus the sum
    of `upd[e, q]` over the rows `e` of the updates whose index `idx[e, 0]`, read signed and NOT clamped, is `n`
    (`scatterAdd_rows_apply`); an update row whose index is outside `[0, N)` lands nowhere.

  Everything is stated for arbitrary extents `N`, `E`, `C` and index width `w`; the dimension numbers' side
  conditions are a hypothesis `wf`, decided on a program's literal shapes.
-/
import Idealize.ShloMosaic.PureOps.Ideal
import Idealize.ShloMosaic.Lib.ValueIdx

noncomputable section

open scoped BigOperators

namespace Cert.Lib.RowOps

open Idealize.ShloMosaic Idealize.ShloMosaic.ValueIdx

/-! ## The row gather: `result[e, q] = operand[clamp(idx[e, 0]), q]` -/

section Gather
variable {α : Type}

/-- The row gather's dimension numbers for an operand `[N, C]`, start indices `[E, 1]` and result `[E, C]`:
    axis 0 of the operand is collapsed and is the one the start index addresses, axis 1 is the offset axis and is
    taken whole (slice sizes `[1, C]`); the index vector lives on axis 1 of the start indices. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, q)`: the operand at the row `idx[e, 0]`, read as a signed integer and clamped into
    `[0, N − 1]`, and at the same column `q`. (On axis 0 the slice has size 1, so the start is clamped to `N − 1`
    and there is no offset; on axis 1 the start is 0 and the offset is the result's column.) -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q)
      = x (ix2 ⟨min (idx (ix2 e ⟨0, Nat.one_pos⟩)).toInt.toNat (N - 1), by omega⟩ q) := by
  unfold Host.gather
  congr 1
  funext a
  refine Fin.ext ?_
  match a with
  | ⟨0, _⟩ =>
    -- the row: clamped start, no batching coordinate, no offset (the axis is collapsed)
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    -- the column: start 0 (the start index does not address this axis), offset the result's column
    show (rowGatherDims N E C wf).start (ix2 e q) idx 1 + (rowGatherDims N E C wf).batchCoord (ix2 e q) 1
      + (rowGatherDims N E C wf).offCoord (ix2 e q) 1 = _
    rw [GatherDims.batchCoord_eq_zero _ _ _ List.not_mem_nil]
    unfold GatherDims.start
    rw [dif_neg (show (1 : Fin 2) ∉ (rowGatherDims N E C wf).startIndexMap from
      (show (1 : Fin 2) ∉ [(0 : Fin 2)] from by decide))]
    simp only [Nat.add_zero, Nat.zero_add]
    unfold GatherDims.offCoord
    rw [dif_pos (show (1 : Fin 2) ∈ (rowGatherDims N E C wf).sKept from
      (GatherDims.mem_sKept _ _).2 ⟨(show (1 : Fin 2) ∉ [(0 : Fin 2)] from by decide), List.not_mem_nil⟩)]
    rfl

end Gather

/-! ## The accumulating row scatter: `result[n, q] = operand[n, q] + ∑_{e : idx[e, 0] = n} upd[e, q]` -/

/-- The row scatter's dimension numbers for an operand `[N, C]`, scatter indices `[E, 1]` and updates `[E, C]`:
    axis 1 of the updates is the window axis and goes to the operand's axis 1; the operand's axis 0 is an inserted
    window axis and is the one the scatter index addresses; the index vector lives on axis 1 of the scatter indices. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)

/-- On the operand's row axis the window of update `(e, c)` starts at the scatter index `idx[e, 0]`, read as a
    signed integer (not clamped). -/
theorem rowScatter_start0 (idx : IVec ⟨2, ![E, 1]⟩ w) (e : Fin E) (c : Fin C) :
    (rowScatterDims N E C wf).start (ix2 e c) idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the operand's column axis, which the scatter index does not address, the window starts at 0. -/
theorem rowScatter_start1 (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from
    (show (1 : Fin 2) ∉ [(0 : Fin 2)] from by decide))]

/-- The row axis is an inserted window axis: the window coordinate of update `(e, c)` on it is 0. -/
theorem rowScatter_window0 (e : Fin E) (c : Fin C) :
    (rowScatterDims N E C wf).window (ix2 e c) 0 = 0 := by
  unfold ScatterDims.window
  rw [dif_neg]
  exact (show (0 : Fin 2) ∉ (List.finRange 2).filter (· ∉ [(0 : Fin 2)]) from by decide)

/-- The column axis receives the updates' window axis: the window coordinate of update `(e, c)` on it is `c`. -/
theorem rowScatter_window1 (e : Fin E) (c : Fin C) :
    (rowScatterDims N E C wf).window (ix2 e c) 1 = c.val := by
  unfold ScatterDims.window
  rw [dif_pos]
  · rfl
  · exact (show (1 : Fin 2) ∈ (List.finRange 2).filter (· ∉ [(0 : Fin 2)]) from by decide)

/-- WHERE AN UPDATE LANDS: update element `(e, c)` lands at operand element `(n, q)` exactly when its column is `q`
    and its scatter index `idx[e, 0]`, read signed, is `n`. (The landing index is `(idx[e, 0] + 0, 0 + c)`; the column
    `c < C` is always inside, the row is inside exactly when `0 ≤ idx[e, 0] < N`, and outside the update is dropped.) -/
theorem rowScatter_resultIdx?_eq_some_iff (idx : IVec ⟨2, ![E, 1]⟩ w) (e : Fin E) (c : Fin C) (n : Fin N) (q : Fin C) :
    (rowScatterDims N E C wf).resultIdx? (ix2 e c) idx = some (ix2 n q)
      ↔ c = q ∧ (idx (ix2 e ⟨0, Nat.one_pos⟩)).toInt = (n.val : Int) := by
  have hs0 := rowScatter_start0 wf idx e c
  have hs1 := rowScatter_start1 wf idx e c
  have hw0 := rowScatter_window0 wf e c
  have hw1 := rowScatter_window1 wf e c
  unfold ScatterDims.resultIdx?
  split
  · -- the landing index is inside the operand: compare it with `(n, q)` coordinate by coordinate
    rename_i h
    rw [Option.some.injEq]
    constructor
    · intro hf
      have h0 := congrArg Fin.val (congrFun hf 0)
      have h1 := congrArg Fin.val (congrFun hf 1)
      simp only [hs0, hs1, hw0, hw1] at h0 h1
      have hh := (h 0).1
      rw [hs0, hw0] at hh
      refine ⟨Fin.ext ?_, ?_⟩
      · have : ((ix2 n q : (⟨2, ![N, C]⟩ : Shape).Idx) 1).val = q.val := rfl
        omega
      · have : ((ix2 n q : (⟨2, ![N, C]⟩ : Shape).Idx) 0).val = n.val := rfl
        omega
    · rintro ⟨rfl, ht⟩
      funext a
      refine Fin.ext ?_
      match a with
      | ⟨0, _⟩ =>
        show ((rowScatterDims N E C wf).start (ix2 e c) idx 0
          + ((rowScatterDims N E C wf).window (ix2 e c) 0 : Int)).toNat = n.val
        rw [hs0, hw0, ht]; simp
      | ⟨1, _⟩ =>
        show ((rowScatterDims N E C wf).start (ix2 e c) idx 1
          + ((rowScatterDims N E C wf).window (ix2 e c) 1 : Int)).toNat = c.val
        rw [hs1, hw1]; simp
  · -- the landing index is outside: then the scatter index is not a row number, so the right side fails too
    rename_i h
    constructor
    · intro hf; exact absurd hf (by simp)
    · rintro ⟨rfl, ht⟩
      exfalso
      apply h
      intro a
      match a with
      | ⟨0, _⟩ =>
        show 0 ≤ (rowScatterDims N E C wf).start (ix2 e c) idx 0 + ((rowScatterDims N E C wf).window (ix2 e c) 0 : Int)
          ∧ (rowScatterDims N E C wf).start (ix2 e c) idx 0 + ((rowScatterDims N E C wf).window (ix2 e c) 0 : Int)
            < (N : Int)
        rw [hs0, hw0, ht]
        have := n.isLt
        omega
      | ⟨1, _⟩ =>
        show 0 ≤ (rowScatterDims N E C wf).start (ix2 e c) idx 1 + ((rowScatterDims N E C wf).window (ix2 e c) 1 : Int)
          ∧ (rowScatterDims N E C wf).start (ix2 e c) idx 1 + ((rowScatterDims N E C wf).window (ix2 e c) 1 : Int)
            < (C : Int)
        rw [hs1, hw1]
        have := c.isLt
        omega

/-- THE ACCUMULATING ROW SCATTER READ AT `(n, q)`, at the ideal instance: the operand's element plus the sum, over the
    update rows `e` whose scatter index `idx[e, 0]` (read signed, not clamped) is `n`, of `upd[e, q]`. (The sum over the
    update elements that land at `(n, q)` is split into rows and columns; in each row only column `q` can land there.) -/
theorem scatterAdd_rows_apply (x : (⟨2, ![N, C]⟩ : Shape).Idx → EReal) (idx : IVec ⟨2, ![E, 1]⟩ w)
    (upd : (⟨2, ![E, C]⟩ : Shape).Idx → EReal) (n : Fin N) (q : Fin C) :
    Ideal.hostScatterAdd (rowScatterDims N E C wf) x idx upd (ix2 n q)
      = x (ix2 n q) + ∑ e : Fin E,
          if (idx (ix2 e ⟨0, Nat.one_pos⟩)).toInt = (n.val : Int) then upd (ix2 e q) else 0 := by
  unfold Ideal.hostScatterAdd
  congr 1
  rw [Finset.sum_filter, sum_idx2]
  refine Finset.sum_congr rfl fun e _ => ?_
  simp only [rowScatter_resultIdx?_eq_some_iff]
  by_cases ht : (idx (ix2 e ⟨0, Nat.one_pos⟩)).toInt = (n.val : Int)
  · simp only [ht, and_true, if_true]
    exact Finset.sum_ite_eq' Finset.univ q (fun c => upd (ix2 e c)) |>.trans (by simp)
  · simp only [ht, and_false, if_false]
    exact Finset.sum_const_zero

end Scatter

end Cert.Lib.RowOps

end
-- ==== Proof.LibScatterGather.lean ====
import Idealize.ShloMosaic.PureOps.Ideal
import Idealize.ShloMosaic.PureOps.ShapeOps
import Idealize.ShloMosaic.Lib.ValueIdx

/-!
# Scatter and gather at an index

Three facts about `stablehlo.scatter` and `stablehlo.gather` read at one index.

* COUNT. An integer scatter-add of the constant `1` into zeros leaves, at each operand element, the
  number of update elements whose result index is that element (as a 32-bit word): the left fold
  adds `1` exactly once per update that lands there.
* ROW GATHER. A gather of whole rows of a two-dimensional table (collapsed row axis, one start
  index per result row) reads, at result element `(e, c)`, the table at row `clamp (idx e)` and
  column `c`.
* SCATTER LANDING. A scatter of whole rows (inserted row axis, one scatter index per update row)
  sends update element `(e, c)` to operand element `(n, c')` exactly when the signed index of row
  `e` is `n` and `c = c'`; so the sum over the updates landing at `(n, c)` is the sum over the
  update rows whose index is `n`, at column `c`.
-/

open scoped BigOperators

namespace Idealize.ShloMosaic.ScatterGather

open Idealize.ShloMosaic Idealize.ShloMosaic.ValueIdx

/-! ## Count -/

/-- A left fold whose step adds `1` at the element `g n` names (and does nothing when it names
    none), read at `i`: the start value plus the number of list entries naming `i`. -/
theorem foldl_addOne_apply {ι κ : Type} [DecidableEq ι] (g : κ → Option ι)
    (step : (ι → BitVec 32) → κ → ι → BitVec 32)
    (hsome : ∀ r n i0, g n = some i0 → ∀ i', step r n i' = if i' = i0 then r i0 + 1#32 else r i')
    (hnone : ∀ r n, g n = none → step r n = r)
    (L : List κ) (x : ι → BitVec 32) (i : ι) :
    (L.foldl step x) i = x i + BitVec.ofNat 32 (L.countP (fun n => g n = some i)) := by
  induction L generalizing x with
  | nil => simp
  | cons n L ih =>
    rw [List.foldl_cons, ih, List.countP_cons]
    cases hg : g n with
    | none => rw [hnone _ _ hg]; simp
    | some i0 =>
      rw [hsome _ _ _ hg]
      by_cases h : i = i0
      · subst h
        simp [BitVec.ofNat_add, BitVec.add_assoc, BitVec.add_comm]
      · have h' : ¬ i0 = i := fun e => h e.symm
        simp [h, h']

/-- Over the whole of `Fin N`, in order, counting the entries with a property is the cardinality of
    the set of elements with it. -/
theorem countP_finRange {N : Nat} (p : Fin N → Prop) [DecidablePred p] :
    (List.finRange N).countP (fun n => decide (p n)) = (Finset.univ.filter p).card := by
  rw [Finset.card_def, Finset.filter_val, Fin.univ_def, ← Multiset.countP_eq_card_filter]
  exact (Multiset.coe_countP _ _).symm

/-- COUNT. An integer scatter-add of the constant `1` into zeros, read at `i`: the number of update
    indices whose result index is `i`, as a 32-bit word. -/
theorem scatter_addi_one_apply {s si u : Shape} {w : Nat} (d : ScatterDims s si u) (idx : IVec si w)
    (i : s.Idx) :
    Host.scatter d IntOp.addi (fun _ => (0 : BitVec 32)) idx (fun _ => (1 : BitVec 32)) i
      = BitVec.ofNat 32 (Finset.univ.filter (fun j : u.Idx => d.resultIdx? j idx = some i)).card := by
  unfold Host.scatter
  refine (foldl_addOne_apply (fun n => d.resultIdx? (u.rowMajor.symm n) idx) _ ?_ ?_
    (List.finRange u.numel) (fun _ => (0 : BitVec 32)) i).trans ?_
  · intro r n i0 h i'
    simp only [h]
    rfl
  · intro r n h
    simp only [h]
  refine (BitVec.zero_add _).trans ?_
  rw [countP_finRange (fun n => d.resultIdx? (u.rowMajor.symm n) idx = some i)]
  congr 1
  exact Finset.card_equiv u.rowMajor.symm (by simp)

/-- COUNT, for any operand that is `0` everywhere and any updates that are `1` everywhere (however
    the two constants are spelled). -/
theorem scatter_addi_one_apply' {s si u : Shape} {w : Nat} (d : ScatterDims s si u) (idx : IVec si w)
    (x : s.Idx → BitVec 32) (upd : u.Idx → BitVec 32) (hx : ∀ i, x i = 0#32) (hu : ∀ j, upd j = 1#32)
    (i : s.Idx) :
    Host.scatter d IntOp.addi x idx upd i
      = BitVec.ofNat 32 (Finset.univ.filter (fun j : u.Idx => d.resultIdx? j idx = some i)).card := by
  obtain rfl : x = fun _ => (0 : BitVec 32) := funext hx
  obtain rfl : upd = fun _ => (1 : BitVec 32) := funext hu
  exact scatter_addi_one_apply d idx i

/-! ## Row gather

A gather of whole rows of a table `[N, C]` at start indices `[R, 1]` (offset axis `1`, collapsed
slice axis `0`, start index map `[0]`, index vector axis `1`, slice sizes `[1, C]`): result element
`(e, c)` is the table at row `idx[e, 0]`, read signed and clamped into `[0, N − 1]`, and column `c`. -/

section RowGather
variable {α : Type}

/-- Those dimension numbers for a table `[N, C]`, start indices `[R, 1]` and result `[R, C]`; their
    conditions `wf` are decided on literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the table at the row `idx[e, 0]` names, read signed and clamped
    into `[0, N − 1]`, and column `c`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  refine funext (Fin.forall_fin_two.2 ⟨Fin.ext ?_, Fin.ext ?_⟩)
  · show (rowGatherDims N R C wf).start (ix2 e c) idx 0 + (rowGatherDims N R C wf).batchCoord (ix2 e c) 0
      + (rowGatherDims N R C wf).offCoord (ix2 e c) 0 = _
    rw [GatherDims.batchCoord_eq_zero _ _ _ List.not_mem_nil, Nat.add_zero]
    rw [GatherDims.offCoord_eq_zero _ _ _
      (fun h => ((GatherDims.mem_sKept _ _).mp h).1 (List.mem_singleton.mpr rfl)), Nat.add_zero]
    unfold GatherDims.start
    rw [dif_pos (show (0 : Fin 2) ∈ (rowGatherDims N R C wf).startIndexMap from List.mem_singleton.mpr rfl)]
    have hsi : (rowGatherDims N R C wf).siIdx (ix2 e c)
        ⟨List.idxOf (0 : Fin 2) (rowGatherDims N R C wf).startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  · show (rowGatherDims N R C wf).start (ix2 e c) idx 1 + (rowGatherDims N R C wf).batchCoord (ix2 e c) 1
      + (rowGatherDims N R C wf).offCoord (ix2 e c) 1 = _
    rw [GatherDims.batchCoord_eq_zero _ _ _ List.not_mem_nil, Nat.add_zero]
    have hs : (rowGatherDims N R C wf).start (ix2 e c) idx 1 = 0 := by
      unfold GatherDims.start
      rw [dif_neg (show ¬ (1 : Fin 2) ∈ (rowGatherDims N R C wf).startIndexMap from
        fun h => absurd (congrArg Fin.val (List.mem_singleton.mp h)) Nat.one_ne_zero)]
    rw [hs, Nat.zero_add]
    rfl

end RowGather

/-! ### The two literal row gathers: tables `[100000, 64]` and `[100000, 128]`, `1200000` rows read -/

section RowGatherLiteral
variable {α : Type}

/-- The table row that start index `idx[e, 0]` names: read signed, clamped into `[0, 99999]`. The
    same function of the start indices at every table width. -/
def gatherRow {w : Nat} (idx : IVec ⟨2, ![1200000, 1]⟩ w) (e : Fin 1200000) : Fin 100000 :=
  ⟨min (idx (ix2 e 0)).toInt.toNat 99999, by omega⟩

/-- The row gather's dimension numbers at a table `[100000, 64]`. -/
def rowGather64 : GatherDims ⟨2, ![100000, 64]⟩ ⟨2, ![1200000, 1]⟩ ⟨2, ![1200000, 64]⟩ :=
  { offsetDims := [1], collapsedSliceDims := [0], operandBatchingDims := [], startIndicesBatchingDims := [],
    startIndexMap := [0], indexVectorDim := 1, sliceSizes := ![1, 64] }

/-- The row gather's dimension numbers at a table `[100000, 128]`. -/
def rowGather128 : GatherDims ⟨2, ![100000, 128]⟩ ⟨2, ![1200000, 1]⟩ ⟨2, ![1200000, 128]⟩ :=
  { offsetDims := [1], collapsedSliceDims := [0], operandBatchingDims := [], startIndicesBatchingDims := [],
    startIndexMap := [0], indexVectorDim := 1, sliceSizes := ![1, 128] }

/-- The 64-wide row gather at `(e, c)`: the table at row `gatherRow idx e`, column `c`. -/
theorem rowGather64_apply {w : Nat} (x : (⟨2, ![100000, 64]⟩ : Shape).Idx → α)
    (idx : IVec ⟨2, ![1200000, 1]⟩ w) (e : Fin 1200000) (c : Fin 64) :
    Host.gather rowGather64 x idx (ix2 e c) = x (ix2 (gatherRow idx e) c) :=
  rowGather_apply (N := 100000) (R := 1200000) (C := 64) (by omega) rowGather64.wf x idx e c

/-- The 128-wide row gather at `(e, c)`: the table at row `gatherRow idx e`, column `c`. -/
theorem rowGather128_apply {w : Nat} (x : (⟨2, ![100000, 128]⟩ : Shape).Idx → α)
    (idx : IVec ⟨2, ![1200000, 1]⟩ w) (e : Fin 1200000) (c : Fin 128) :
    Host.gather rowGather128 x idx (ix2 e c) = x (ix2 (gatherRow idx e) c) :=
  rowGather_apply (N := 100000) (R := 1200000) (C := 128) (by omega) rowGather128.wf x idx e c

end RowGatherLiteral

/-! ## Scatter landing

A scatter of whole rows `[R, C]` into a table `[N, C]` at scatter indices `[R, 1]` (update window
axis `1`, inserted window axis `0`, scatter-dims-to-operand-dims `[0]`, index vector axis `1`):
update element `(e, c)` lands at row `idx[e, 0]`, read signed and NOT clamped, column `c`, and is
dropped when that row is outside `[0, N)`. -/

section RowScatter

/-- Those dimension numbers for a table `[N, C]`, scatter indices `[R, 1]` and updates `[R, C]`;
    their conditions `wf` are decided on literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the row axis the window starts at the signed scatter index of the update's row … -/
theorem rowScatter_start0 (idx : IVec ⟨2, ![R, 1]⟩ w) (e : Fin R) (c : Fin C) :
    (rowScatterDims N R C wf).start (ix2 e c) idx 0 = (idx (ix2 e 0)).toInt := by
  unfold ScatterDims.start
  rw [dif_pos (show (0 : Fin 2) ∈ (rowScatterDims N R C wf).scatterDimsToOperandDims from
    List.mem_singleton.mpr rfl)]
  have hsi : (rowScatterDims N R C wf).siIdx (ix2 e c)
      ⟨List.idxOf (0 : Fin 2) (rowScatterDims N R C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and has no window coordinate (the row axis is inserted). -/
theorem rowScatter_window0 (e : Fin R) (c : Fin C) :
    (rowScatterDims N R C wf).window (ix2 e c) 0 = 0 := by
  unfold ScatterDims.window
  rw [dif_neg (show ¬ (0 : Fin 2) ∈ (rowScatterDims N R C wf).sKept from by
    simp [ScatterDims.sKept, Shape.kept, List.mem_filter, List.mem_finRange])]

/-- On the column axis the window starts at `0` … -/
theorem rowScatter_start1 (idx : IVec ⟨2, ![R, 1]⟩ w) (e : Fin R) (c : Fin C) :
    (rowScatterDims N R C wf).start (ix2 e c) idx 1 = 0 := by
  unfold ScatterDims.start
  rw [dif_neg (show ¬ (1 : Fin 2) ∈ (rowScatterDims N R C wf).scatterDimsToOperandDims from
    fun h => absurd (congrArg Fin.val (List.mem_singleton.mp h)) Nat.one_ne_zero)]

/-- … and the window coordinate is the update's column. -/
theorem rowScatter_window1 (e : Fin R) (c : Fin C) :
    (rowScatterDims N R C wf).window (ix2 e c) 1 = c.val := by
  unfold ScatterDims.window
  rw [dif_pos (show (1 : Fin 2) ∈ (rowScatterDims N R C wf).sKept from by
    simp [ScatterDims.sKept, Shape.kept, List.mem_filter, List.mem_finRange])]
  rfl

/-- WHERE AN UPDATE LANDS: update element `(e, c)` lands at row `idx[e, 0]` (signed) and column `c`
    when that row is inside `[0, N)`, and is dropped when it is not. -/
theorem rowScatter_resultIdx_eq (idx : IVec ⟨2, ![R, 1]⟩ w) (e : Fin R) (c : Fin C) :
    (rowScatterDims N R C wf).resultIdx? (ix2 e c) idx
      = if h : 0 ≤ (idx (ix2 e 0)).toInt ∧ (idx (ix2 e 0)).toInt < (N : Int) then
          some (ix2 ⟨(idx (ix2 e 0)).toInt.toNat, by omega⟩ c)
        else none := by
  have h0 : (rowScatterDims N R C wf).start (ix2 e c) idx 0 + (rowScatterDims N R C wf).window (ix2 e c) 0
      = (idx (ix2 e 0)).toInt := by
    rw [rowScatter_start0, rowScatter_window0]; simp
  have h1 : (rowScatterDims N R C wf).start (ix2 e c) idx 1 + (rowScatterDims N R C wf).window (ix2 e c) 1
      = (c.val : Int) := by
    rw [rowScatter_start1, rowScatter_window1]; simp
  unfold ScatterDims.resultIdx?
  by_cases h : 0 ≤ (idx (ix2 e 0)).toInt ∧ (idx (ix2 e 0)).toInt < (N : Int)
  · have hall : ∀ a, 0 ≤ (rowScatterDims N R C wf).start (ix2 e c) idx a + (rowScatterDims N R C wf).window (ix2 e c) a
        ∧ (rowScatterDims N R C wf).start (ix2 e c) idx a + (rowScatterDims N R C wf).window (ix2 e c) a
          < ((⟨2, ![N, C]⟩ : Shape).size a : Int) := by
      refine Fin.forall_fin_two.2 ⟨?_, ?_⟩
      · rw [h0]; exact h
      · rw [h1]; exact ⟨Int.natCast_nonneg _, Int.ofNat_lt.2 c.isLt⟩
    rw [dif_pos hall, dif_pos h]
    congr 1
    refine funext (Fin.forall_fin_two.2 ⟨Fin.ext ?_, Fin.ext ?_⟩)
    · show ((rowScatterDims N R C wf).start (ix2 e c) idx 0 + (rowScatterDims N R C wf).window (ix2 e c) 0).toNat = _
      rw [h0]
    · show ((rowScatterDims N R C wf).start (ix2 e c) idx 1 + (rowScatterDims N R C wf).window (ix2 e c) 1).toNat = _
      rw [h1]; exact Int.toNat_natCast _
  · rw [dif_neg h, dif_neg]
    intro hall
    have := hall 0
    rw [h0] at this
    exact h this

/-- SCATTER LANDING: update element `(e, c)` lands on table element `(n, c')` exactly when the signed
    scatter index of row `e` is `n` and the columns agree. -/
theorem rowScatter_resultIdx_iff (idx : IVec ⟨2, ![R, 1]⟩ w) (e : Fin R) (c : Fin C) (n : Fin N) (c' : Fin C) :
    (rowScatterDims N R C wf).resultIdx? (ix2 e c) idx = some (ix2 n c')
      ↔ ((idx (ix2 e 0)).toInt = (n.val : Int) ∧ c = c') := by
  rw [rowScatter_resultIdx_eq]
  by_cases h : 0 ≤ (idx (ix2 e 0)).toInt ∧ (idx (ix2 e 0)).toInt < (N : Int)
  · rw [dif_pos h]
    constructor
    · intro heq
      have heq' := Option.some.inj heq
      have h0 : (⟨(idx (ix2 e 0)).toInt.toNat, by omega⟩ : Fin N) = n := congrFun heq' 0
      have h1 : c = c' := congrFun heq' 1
      have h0' : (idx (ix2 e 0)).toInt.toNat = n.val := congrArg Fin.val h0
      exact ⟨by omega, h1⟩
    · rintro ⟨ht, rfl⟩
      have h0 : (⟨(idx (ix2 e 0)).toInt.toNat, by omega⟩ : Fin N) = n := Fin.ext (by simp [ht])
      rw [h0]
  · rw [dif_neg h]
    constructor
    · intro h'; cases h'
    · rintro ⟨ht, _⟩
      exact absurd ⟨by omega, by have := n.isLt; omega⟩ h

/-- THE SUM OVER WHAT LANDS AT `(n, c)`: over the update rows whose signed scatter index is `n`, at
    column `c`. -/
theorem rowScatter_sum {M : Type} [AddCommMonoid M] (idx : IVec ⟨2, ![R, 1]⟩ w) (n : Fin N) (c : Fin C)
    (f : (⟨2, ![R, C]⟩ : Shape).Idx → M)
    [hd : DecidablePred (fun j => (rowScatterDims N R C wf).resultIdx? j idx = some (ix2 n c))] :
    ∑ j ∈ Finset.univ.filter (fun j => (rowScatterDims N R C wf).resultIdx? j idx = some (ix2 n c)), f j
      = ∑ e ∈ Finset.univ.filter (fun e : Fin R => (idx (ix2 e 0)).toInt = (n.val : Int)), f (ix2 e c) := by
  symm
  refine Finset.sum_bij (fun e _ => ix2 e c) ?_ ?_ ?_ ?_
  · intro e he
    rw [Finset.mem_filter] at he ⊢
    exact ⟨Finset.mem_univ _, (rowScatter_resultIdx_iff wf idx e c n c).2 ⟨he.2, rfl⟩⟩
  · intro e _ e' _ heq
    exact congrFun heq 0
  · intro j hj
    rw [Finset.mem_filter] at hj
    have hj' : j = ix2 (n0 := R) (n1 := C) (j 0) (j 1) := eq_ix2 j
    have hj2 : (rowScatterDims N R C wf).resultIdx? (ix2 (n0 := R) (n1 := C) (j 0) (j 1)) idx
        = some (ix2 n c) := by rw [← hj']; exact hj.2
    have hj3 := (rowScatter_resultIdx_iff wf idx (j 0) (j 1) n c).1 hj2
    refine ⟨j 0, Finset.mem_filter.2 ⟨Finset.mem_univ _, hj3.1⟩, ?_⟩
    show ix2 (n0 := R) (n1 := C) (j 0) c = j
    rw [← hj3.2]
    exact hj'.symm
  · intro e _
    rfl

end RowScatter

/-! ### The two literal row scatters: tables `[100000, 64]` and `[100000, 128]`, `1200000` update rows -/

section RowScatterLiteral

/-- The update rows whose signed scatter index is `n`: the rows that land on table row `n`. The same
    set at every table width. -/
def landsAt {w : Nat} (idx : IVec ⟨2, ![1200000, 1]⟩ w) (n : Fin 100000) : Finset (Fin 1200000) :=
  Finset.univ.filter (fun e => (idx (ix2 e 0)).toInt = (n.val : Int))

/-- Membership in `landsAt`, unfolded. -/
theorem mem_landsAt {w : Nat} (idx : IVec ⟨2, ![1200000, 1]⟩ w) (n : Fin 100000) (e : Fin 1200000) :
    e ∈ landsAt idx n ↔ (idx (ix2 e 0)).toInt = (n.val : Int) := by
  unfold landsAt; rw [Finset.mem_filter]; exact ⟨fun h => h.2, fun h => ⟨Finset.mem_univ _, h⟩⟩

/-- The row scatter's dimension numbers at a table `[100000, 64]`. -/
def rowScatter64 : ScatterDims ⟨2, ![100000, 64]⟩ ⟨2, ![1200000, 1]⟩ ⟨2, ![1200000, 64]⟩ :=
  { updateWindowDims := [1], insertedWindowDims := [0], scatterDimsToOperandDims := [0], indexVectorDim := 1 }

/-- The row scatter's dimension numbers at a table `[100000, 128]`. -/
def rowScatter128 : ScatterDims ⟨2, ![100000, 128]⟩ ⟨2, ![1200000, 1]⟩ ⟨2, ![1200000, 128]⟩ :=
  { updateWindowDims := [1], insertedWindowDims := [0], scatterDimsToOperandDims := [0], indexVectorDim := 1 }

/-- The 64-wide row scatter: update `(e, c)` lands on `(n, c')` exactly when row `e`'s signed index is
    `n` and `c = c'`. -/
theorem rowScatter64_resultIdx {w : Nat} (idx : IVec ⟨2, ![1200000, 1]⟩ w) (e : Fin 1200000) (c : Fin 64)
    (n : Fin 100000) (c' : Fin 64) :
    rowScatter64.resultIdx? (ix2 e c) idx = some (ix2 n c')
      ↔ ((idx (ix2 e 0)).toInt = (n.val : Int) ∧ c = c') :=
  rowScatter_resultIdx_iff (N := 100000) (R := 1200000) (C := 64) rowScatter64.wf idx e c n c'

/-- The 128-wide row scatter: update `(e, c)` lands on `(n, c')` exactly when row `e`'s signed index
    is `n` and `c = c'`. -/
theorem rowScatter128_resultIdx {w : Nat} (idx : IVec ⟨2, ![1200000, 1]⟩ w) (e : Fin 1200000) (c : Fin 128)
    (n : Fin 100000) (c' : Fin 128) :
    rowScatter128.resultIdx? (ix2 e c) idx = some (ix2 n c')
      ↔ ((idx (ix2 e 0)).toInt = (n.val : Int) ∧ c = c') :=
  rowScatter_resultIdx_iff (N := 100000) (R := 1200000) (C := 128) rowScatter128.wf idx e c n c'

/-- The 64-wide row scatter's sum over what lands at `(n, c)`: over `landsAt idx n`, at column `c`. -/
theorem rowScatter64_sum {M : Type} [AddCommMonoid M] {w : Nat} (idx : IVec ⟨2, ![1200000, 1]⟩ w)
    (n : Fin 100000) (c : Fin 64) (f : (⟨2, ![1200000, 64]⟩ : Shape).Idx → M)
    [hd : DecidablePred (fun j => rowScatter64.resultIdx? j idx = some (ix2 n c))] :
    ∑ j ∈ Finset.univ.filter (fun j => rowScatter64.resultIdx? j idx = some (ix2 n c)), f j
      = ∑ e ∈ landsAt idx n, f (ix2 e c) :=
  rowScatter_sum (N := 100000) (R := 1200000) (C := 64) rowScatter64.wf idx n c f (hd := hd)

/-- The 128-wide row scatter's sum over what lands at `(n, c)`: over `landsAt idx n`, at column `c`. -/
theorem rowScatter128_sum {M : Type} [AddCommMonoid M] {w : Nat} (idx : IVec ⟨2, ![1200000, 1]⟩ w)
    (n : Fin 100000) (c : Fin 128) (f : (⟨2, ![1200000, 128]⟩ : Shape).Idx → M)
    [hd : DecidablePred (fun j => rowScatter128.resultIdx? j idx = some (ix2 n c))] :
    ∑ j ∈ Finset.univ.filter (fun j => rowScatter128.resultIdx? j idx = some (ix2 n c)), f j
      = ∑ e ∈ landsAt idx n, f (ix2 e c) :=
  rowScatter_sum (N := 100000) (R := 1200000) (C := 128) rowScatter128.wf idx n c f (hd := hd)

end RowScatterLiteral

/-! ## Scalar scatter landing

A scatter of scalars `[R]` into a vector `[N]` at scatter indices `[R, 1]` (no update window axis,
inserted window axis `0`, scatter-dims-to-operand-dims `[0]`, index vector axis `1`): update element
`e` lands at position `idx[e, 0]`, read signed and NOT clamped, and is dropped outside `[0, N)`. -/

section VecScatter

/-- Those dimension numbers for a vector `[N]`, scatter indices `[R, 1]` and updates `[R]`; their
    conditions `wf` are decided on literal shapes. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

/-- The window starts at the signed scatter index of the update … -/
theorem vecScatter_start0 (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from
    List.mem_singleton.mpr rfl)]
  have hsi : (vecScatterDims N R wf).siIdx (ix1 e)
      ⟨List.idxOf (0 : Fin 1) (vecScatterDims N R wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and has no window coordinate (the one axis is inserted). -/
theorem vecScatter_window0 (e : Fin R) :
    (vecScatterDims N R wf).window (ix1 e) 0 = 0 := by
  unfold ScatterDims.window
  rw [dif_neg (show ¬ (0 : Fin 1) ∈ (vecScatterDims N R wf).sKept from by
    simp [ScatterDims.sKept, Shape.kept, List.mem_filter, List.mem_finRange])]

/-- WHERE AN UPDATE LANDS: update element `e` lands at position `idx[e, 0]` (signed) when that is
    inside `[0, N)`, and is dropped when it is not. -/
theorem vecScatter_resultIdx_eq (idx : IVec ⟨2, ![R, 1]⟩ w) (e : Fin R) :
    (vecScatterDims N R wf).resultIdx? (ix1 e) idx
      = if h : 0 ≤ (idx (ix2 e 0)).toInt ∧ (idx (ix2 e 0)).toInt < (N : Int) then
          some (ix1 ⟨(idx (ix2 e 0)).toInt.toNat, by omega⟩)
        else none := by
  have h0 : (vecScatterDims N R wf).start (ix1 e) idx 0 + (vecScatterDims N R wf).window (ix1 e) 0
      = (idx (ix2 e 0)).toInt := by
    rw [vecScatter_start0, vecScatter_window0]; simp
  unfold ScatterDims.resultIdx?
  by_cases h : 0 ≤ (idx (ix2 e 0)).toInt ∧ (idx (ix2 e 0)).toInt < (N : Int)
  · have hall : ∀ a, 0 ≤ (vecScatterDims N R wf).start (ix1 e) idx a + (vecScatterDims N R wf).window (ix1 e) a
        ∧ (vecScatterDims N R wf).start (ix1 e) idx a + (vecScatterDims N R wf).window (ix1 e) a
          < ((⟨1, ![N]⟩ : Shape).size a : Int) := by
      intro a
      obtain rfl : a = 0 := Subsingleton.elim _ _
      rw [h0]; exact h
    rw [dif_pos hall, dif_pos h]
    congr 1
    funext a
    obtain rfl : a = 0 := Subsingleton.elim _ _
    refine Fin.ext ?_
    show ((vecScatterDims N R wf).start (ix1 e) idx 0 + (vecScatterDims N R wf).window (ix1 e) 0).toNat = _
    rw [h0]
    rfl
  · rw [dif_neg h, dif_neg]
    intro hall
    have := hall 0
    rw [h0] at this
    exact h this

/-- SCALAR SCATTER LANDING: update element `e` lands on position `n` exactly when its signed scatter
    index is `n`. -/
theorem vecScatter_resultIdx_iff (idx : IVec ⟨2, ![R, 1]⟩ w) (e : Fin R) (n : Fin N) :
    (vecScatterDims N R wf).resultIdx? (ix1 e) idx = some (ix1 n)
      ↔ (idx (ix2 e 0)).toInt = (n.val : Int) := by
  rw [vecScatter_resultIdx_eq]
  by_cases h : 0 ≤ (idx (ix2 e 0)).toInt ∧ (idx (ix2 e 0)).toInt < (N : Int)
  · rw [dif_pos h]
    constructor
    · intro heq
      have h0 : (⟨(idx (ix2 e 0)).toInt.toNat, by omega⟩ : Fin N) = n := congrFun (Option.some.inj heq) 0
      have h0' : (idx (ix2 e 0)).toInt.toNat = n.val := congrArg Fin.val h0
      omega
    · intro ht
      have h0 : (⟨(idx (ix2 e 0)).toInt.toNat, by omega⟩ : Fin N) = n := Fin.ext (by simp [ht])
      rw [h0]
  · rw [dif_neg h]
    constructor
    · intro h'; cases h'
    · intro ht
      exact absurd ⟨by omega, by have := n.isLt; omega⟩ h

/-- THE SUM OVER WHAT LANDS AT `n`: over the update elements whose signed scatter index is `n`. -/
theorem vecScatter_sum {M : Type} [AddCommMonoid M] (idx : IVec ⟨2, ![R, 1]⟩ w) (n : Fin N)
    (f : (⟨1, ![R]⟩ : Shape).Idx → M)
    [hd : DecidablePred (fun j => (vecScatterDims N R wf).resultIdx? j idx = some (ix1 n))] :
    ∑ j ∈ Finset.univ.filter (fun j => (vecScatterDims N R wf).resultIdx? j idx = some (ix1 n)), f j
      = ∑ e ∈ Finset.univ.filter (fun e : Fin R => (idx (ix2 e 0)).toInt = (n.val : Int)), f (ix1 e) := by
  symm
  refine Finset.sum_bij (fun e _ => ix1 e) ?_ ?_ ?_ ?_
  · intro e he
    rw [Finset.mem_filter] at he ⊢
    exact ⟨Finset.mem_univ _, (vecScatter_resultIdx_iff wf idx e n).2 he.2⟩
  · intro e _ e' _ heq
    exact congrFun heq 0
  · intro j hj
    rw [Finset.mem_filter] at hj
    have hj' : j = ix1 (n := R) (j 0) := eq_ix1 j
    have hj2 : (vecScatterDims N R wf).resultIdx? (ix1 (n := R) (j 0)) idx = some (ix1 n) := by
      rw [← hj']; exact hj.2
    have hj3 := (vecScatter_resultIdx_iff wf idx (j 0) n).1 hj2
    exact ⟨j 0, Finset.mem_filter.2 ⟨Finset.mem_univ _, hj3⟩, hj'.symm⟩
  · intro e _
    rfl

/-- HOW MANY LAND AT `n`: as many as there are update elements whose signed scatter index is `n`. -/
theorem vecScatter_card (idx : IVec ⟨2, ![R, 1]⟩ w) (n : Fin N)
    [hd : DecidablePred (fun j => (vecScatterDims N R wf).resultIdx? j idx = some (ix1 n))] :
    (Finset.univ.filter (fun j => (vecScatterDims N R wf).resultIdx? j idx = some (ix1 n))).card
      = (Finset.univ.filter (fun e : Fin R => (idx (ix2 e 0)).toInt = (n.val : Int))).card := by
  rw [Finset.card_eq_sum_ones, Finset.card_eq_sum_ones]
  exact vecScatter_sum wf idx n (fun _ => 1)

end VecScatter

end Idealize.ShloMosaic.ScatterGather
-- ==== Proof.LibColumnCast.lean ====
/-
  A vector recast as a one-column matrix, read at an index. A row sum kept as a column (a sum over the last axis with
  the axis kept) is stored by recasting the vector of `a` sums to shape `a × 1`; row-major order puts entry `p` of the
  vector at `(p, 0)`.
-/
import Idealize.ShloMosaic.Lib.ValueIdx
import Idealize.ShloMosaic.Lib.Pipeline.Value

namespace Cert.LibColumnCast

open Idealize.ShloMosaic Idealize.ShloMosaic.ValueIdx

/-- A vector of `a` entries recast as an `a × 1` column reads, at `(p, z)`, the vector's entry `p`, whatever the
    unit coordinate `z`: both sit at position `p` in row-major order. Generic in the extent and the element type. -/
theorem column_cast {a : ℕ} {α : Type} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Cert.LibColumnCast
-- ==== Proof.LibSageForms.lean ====
/-
  The stages of a mean-aggregating graph layer, each read at one entry, on the extended reals.

  Rows taken along the edges and summed onto the destination nodes are the collected rows. Ones summed onto the
  destination nodes count the edges landing there, whether the ones are numbers or 32-bit integers converted
  afterwards; that count, at least one, is the mean's divisor. A plain product is the entry-wise sum, and arrays
  joined along the columns are read piece by piece. Everything is stated for arbitrary extents, over the general
  row and vector dimension numbers of the modules beside this one.
-/
import proofs.«176597_j21869973471634_2_alg».proof.Proof.LibSageSpec
import proofs.«176597_j21869973471634_2_alg».proof.Proof.LibRowScatter
import proofs.«176597_j21869973471634_2_alg».proof.Proof.LibScatterGather
import proofs.«176597_j21869973471634_2_alg».proof.Proof.LibMatOps
import proofs.«176597_j21869973471634_2_alg».proof.Proof.LibColumnCast
import Idealize.ShloMosaic.Lib.Pipeline.Value
import Idealize.ShloMosaic.PureOps.Ideal.Laws

noncomputable section

open scoped BigOperators

namespace Cert.Sage.Forms

open Idealize.ShloMosaic Idealize.ShloMosaic.ValueIdx Cert.Sage

/-- The 32-bit word 0x3F800000 is the number one. -/
theorem one_f32 : Ideal.ofBits .f32 0x3F800000#32 = 1 := by
  simp [Ideal.ofBits, Ideal.ieee, -EReal.coe_mul]; norm_num

/-- The edges whose destination entry, read signed, is n are the edges landing on n: their number is the
    in-degree. -/
theorem card_lands {N E : Nat} (dst : Col E) (n : Fin N) :
    (Finset.univ.filter (fun e : Fin E => (dst (ix2 e 0)).toInt = (n.val : Int))).card = deg dst n := by
  unfold deg lands
  rfl

/-- COLLECTING: the source rows taken along the edges, summed onto the destination nodes starting from zeros, are
    at (n, q) the sum over the edges landing on n of entry q of the edge's source row. -/
theorem collect_apply {N E C : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (z : (⟨2, ![N, C]⟩ : Shape).Idx → EReal) (hz : ∀ i, z i = 0) (dst src : Col E)
    (X : (⟨2, ![N, C]⟩ : Shape).Idx → EReal) (n : Fin N) (q : Fin C) :
    Ideal.hostScatterAdd (Cert.Lib.RowOps.rowScatterDims N E C wfs) z dst
        (Host.gather (Cert.Lib.RowOps.rowGatherDims N E C wfg) X src) (ix2 n q)
      = coll hN dst src (fun n k => X (ix2 n k)) n q := by
  rw [Cert.Lib.RowOps.scatterAdd_rows_apply, hz, zero_add]
  unfold coll
  refine Finset.sum_congr rfl fun e _ => ?_
  rw [Cert.Lib.RowOps.gather_rows_apply hN]
  rfl

/-- COUNTING IN NUMBERS: ones summed onto the destination nodes starting from zeros are, at n, the in-degree. -/
theorem count_apply {N E : Nat} (wf : ScatterDims.WF ⟨1, ![N]⟩ ⟨2, ![E, 1]⟩ ⟨1, ![E]⟩ [] [0] [0] 1)
    (z : (⟨1, ![N]⟩ : Shape).Idx → EReal) (hz : ∀ i, z i = 0) (dst : Col E)
    (ones : (⟨1, ![E]⟩ : Shape).Idx → EReal) (ho : ∀ j, ones j = 1) (n : Fin N) :
    Ideal.hostScatterAdd (ScatterGather.vecScatterDims N E wf) z dst ones (ix1 n)
      = ((deg dst n : ℝ) : EReal) := by
  unfold Ideal.hostScatterAdd
  rw [hz, zero_add, ScatterGather.vecScatter_sum wf dst n ones]
  simp only [ho]
  rw [Finset.sum_const, EReal.nsmul_eq_mul, mul_one, card_lands]
  rfl

/-- THE DIVISOR: that count, at least one. -/
theorem den_apply {N E : Nat} (wf : ScatterDims.WF ⟨1, ![N]⟩ ⟨2, ![E, 1]⟩ ⟨1, ![E]⟩ [] [0] [0] 1)
    (z : (⟨1, ![N]⟩ : Shape).Idx → EReal) (hz : ∀ i, z i = 0) (dst : Col E)
    (ones : (⟨1, ![E]⟩ : Shape).Idx → EReal) (ho : ∀ j, ones j = 1) (n : Fin N) :
    max (Ideal.hostScatterAdd (ScatterGather.vecScatterDims N E wf) z dst ones (ix1 n)) 1 = den dst n := by
  rw [count_apply wf z hz dst ones ho n]
  rfl

/-- COUNTING IN INTEGERS: 32-bit ones added onto the destination nodes starting from zeros, then converted to a
    number, are the in-degree too, as long as the edges are fewer than 2^31 (the count then fits a signed word). -/
theorem count_int_apply {N E : Nat} (hE : E < 2 ^ 31)
    (wf : ScatterDims.WF ⟨1, ![N]⟩ ⟨2, ![E, 1]⟩ ⟨1, ![E]⟩ [] [0] [0] 1)
    (z : (⟨1, ![N]⟩ : Shape).Idx → BitVec 32) (hz : ∀ i, z i = 0#32) (dst : Col E)
    (ones : (⟨1, ![E]⟩ : Shape).Idx → BitVec 32) (ho : ∀ j, ones j = 1#32) (n : Fin N) :
    FloatOps.sitofp (F := Ideal) .f32
        (Host.scatter (ScatterGather.vecScatterDims N E wf) IntOp.addi z dst ones (ix1 n))
      = ((deg dst n : ℝ) : EReal) := by
  rw [ScatterGather.scatter_addi_one_apply' (ScatterGather.vecScatterDims N E wf) dst z ones hz ho (ix1 n),
    ScatterGather.vecScatter_card wf dst n, card_lands]
  have hle : deg dst n ≤ E := by
    unfold deg
    exact (Finset.card_le_univ _).trans_eq (Fintype.card_fin E)
  show (((BitVec.ofNat 32 (deg dst n)).toInt : ℝ) : EReal) = _
  have ht : (BitVec.ofNat 32 (deg dst n)).toInt = (deg dst n : Int) := by
    rw [BitVec.toInt_eq_toNat_cond, BitVec.toNat_ofNat, Nat.mod_eq_of_lt (by omega), if_pos (by omega)]
  rw [ht]
  rfl

/-- A PLAIN PRODUCT on the host, read at an entry, is the entry-wise sum. -/
theorem dense_apply {M K C : Nat} (wf : DotDims.WF ⟨2, ![M, K]⟩ ⟨2, ![K, C]⟩ ⟨2, ![M, C]⟩ [1] [0] [0] [1] [] [])
    (l : FVec Ideal ⟨2, ![M, K]⟩ .f32) (r : FVec Ideal ⟨2, ![K, C]⟩ .f32) (p : Fin M) (q : Fin C) :
    FloatOps.dotGeneral (Cert.MatOps.plainDot M K C wf) none .single l r (ix2 p q)
      = dense (fun n k => l (ix2 n k)) (fun k j => r (ix2 k j)) p q :=
  Cert.MatOps.dotGeneral_plain_apply wf none .single l r p q

/-- TWO 64-column arrays joined along the columns, read at an entry. -/
theorem cat2_apply {N : Nat} (h : Shape.Concatenates [⟨2, ![N, 64]⟩, ⟨2, ![N, 64]⟩] ⟨2, ![N, 128]⟩ 1)
    (A B : (⟨2, ![N, 64]⟩ : Shape).Idx → EReal) (n : Fin N) (k : Fin 128) :
    concatenate ⟨2, ![N, 128]⟩ 1 [⟨⟨2, ![N, 64]⟩, A⟩, ⟨⟨2, ![N, 64]⟩, B⟩] h (ix2 n k)
      = cat2 (fun n k => A (ix2 n k)) (fun n k => B (ix2 n k)) n k := by
  unfold cat2
  by_cases hk : k.val < 64
  · rw [dif_pos hk]
    exact concatenate_pair_apply_left 1 A B h (ix2 n k) rfl (ix2 n ⟨k.val, hk⟩) (fun b => by
      match b with
      | ⟨0, _⟩ => rfl
      | ⟨1, _⟩ => rfl)
  · rw [dif_neg hk]
    exact concatenate_pair_apply_right 1 A B h (ix2 n k) rfl rfl (ix2 n ⟨k.val - 64, by omega⟩)
      (fun b hb => by
        match b with
        | ⟨0, _⟩ => rfl
        | ⟨1, _⟩ => exact absurd rfl hb)
      (by show (k.val - 64) + 64 = k.val; omega)

/-- THREE arrays of 64, 64 and 128 columns joined along the columns, read at an entry. -/
theorem cat3_apply {N : Nat}
    (h : Shape.Concatenates [⟨2, ![N, 64]⟩, ⟨2, ![N, 64]⟩, ⟨2, ![N, 128]⟩] ⟨2, ![N, 256]⟩ 1)
    (A B : (⟨2, ![N, 64]⟩ : Shape).Idx → EReal) (D : (⟨2, ![N, 128]⟩ : Shape).Idx → EReal)
    (n : Fin N) (k : Fin 256) :
    concatenate ⟨2, ![N, 256]⟩ 1 [⟨⟨2, ![N, 64]⟩, A⟩, ⟨⟨2, ![N, 64]⟩, B⟩, ⟨⟨2, ![N, 128]⟩, D⟩] h (ix2 n k)
      = cat3 (fun n k => A (ix2 n k)) (fun n k => B (ix2 n k)) (fun n k => D (ix2 n k)) n k := by
  unfold cat3
  by_cases hk : k.val < 64
  · rw [dif_pos hk]
    exact concatenate_apply_piece 1 ([⟨⟨2, ![N, 64]⟩, A⟩, ⟨⟨2, ![N, 64]⟩, B⟩, ⟨⟨2, ![N, 128]⟩, D⟩] : List ((s : Shape) × (s.Idx → EReal)))
        h (ix2 n k) 0 (by simp) ⟨2, ![N, 64]⟩ A rfl rfl 0 rfl
      (ix2 n ⟨k.val, hk⟩)
      (fun b hb => by
        match b with
        | ⟨0, _⟩ => rfl
        | ⟨1, _⟩ => exact absurd rfl hb)
      (by show 0 + k.val = k.val; omega)
  · rw [dif_neg hk]
    by_cases hk' : k.val < 128
    · rw [dif_pos hk']
      exact concatenate_apply_piece 1 ([⟨⟨2, ![N, 64]⟩, A⟩, ⟨⟨2, ![N, 64]⟩, B⟩, ⟨⟨2, ![N, 128]⟩, D⟩] : List ((s : Shape) × (s.Idx → EReal)))
        h (ix2 n k) 1 (by simp) ⟨2, ![N, 64]⟩ B rfl rfl 64 rfl
        (ix2 n ⟨k.val - 64, by omega⟩)
        (fun b hb => by
          match b with
          | ⟨0, _⟩ => rfl
          | ⟨1, _⟩ => exact absurd rfl hb)
        (by show 64 + (k.val - 64) = k.val; omega)
    · rw [dif_neg hk']
      exact concatenate_apply_piece 1 ([⟨⟨2, ![N, 64]⟩, A⟩, ⟨⟨2, ![N, 64]⟩, B⟩, ⟨⟨2, ![N, 128]⟩, D⟩] : List ((s : Shape) × (s.Idx → EReal)))
        h (ix2 n k) 2 (by simp) ⟨2, ![N, 128]⟩ D rfl rfl 128 rfl
        (ix2 n ⟨k.val - 128, by have := k.isLt; omega⟩)
        (fun b hb => by
          match b with
          | ⟨0, _⟩ => rfl
          | ⟨1, _⟩ => exact absurd rfl hb)
        (by show 128 + (k.val - 128) = k.val; omega)

end Cert.Sage.Forms

end
-- ==== Proof.KernelForms.lean ====
/-
  The idealized program's arrays, read at an index, are the three mean-aggregating graph layers of the second
  spelling: parts kept apart, means by the reciprocal degree.

  The host side's collecting (rows gathered by the source column and summed onto the destination nodes from zeros)
  is the collected rows; its reciprocal column is one divided by the larger of the in-degree and one; a bias vector
  recast as a one-row array reads the vector; a block of rows cut from a weight matrix reads the matrix at the
  shifted row. With these each pipeline's per-row formula is, term by term, the matching layer.
-/
import proofs.«176597_j21869973471634_2_alg».proof.Proof.KernelTerms
import proofs.«176597_j21869973471634_2_alg».proof.Proof.LibSageForms
import proofs.«176597_j21869973471634_2_alg».proof.Proof.LibSageSpec
import Idealize.ShloMosaic.Lib.IdealHost

noncomputable section

open scoped BigOperators

namespace Cert.KernelIdeal.Forms

open Cert.KernelIdeal Cert.KernelIdeal.Gen
open Idealize.ShloMosaic Idealize.ShloMosaic.ValueIdx

/-- A two-axis array as a function of its row and its column. -/
abbrev cur {a b : Nat} (A : (⟨2, ![a, b]⟩ : Shape).Idx → EReal) : Fin a → Fin b → EReal := fun n k => A (ix2 n k)

/-- A one-axis array as a function of its entry. -/
abbrev vec {a : Nat} (b : (⟨1, ![a]⟩ : Shape).Idx → EReal) : Fin a → EReal := fun j => b (ix1 j)

/-- There is at least one node. -/
theorem hN : 0 < 50000 := by norm_num

/-! ## The host side's terms, read at an index -/

/-- A scalar zero broadcast to any shape is zero everywhere. -/
theorem zeros_apply {T : Shape} (h : (⟨0, ![]⟩ : Shape).BroadcastsInDim T ![]) (i : T.Idx) :
    broadcastInDim T ![] h (constant (F := Ideal) S_ FTy.f32 0x00000000#32) i = 0 := by
  rw [broadcastInDim_scalar_apply, constant_apply, Ideal.ofBits_zero_f32]

/-- A scalar one broadcast to any shape is one everywhere. -/
theorem ones_apply {T : Shape} (h : (⟨0, ![]⟩ : Shape).BroadcastsInDim T ![]) (i : T.Idx) :
    broadcastInDim T ![] h (constant (F := Ideal) S_ FTy.f32 0x3F800000#32) i = 1 := by
  rw [broadcastInDim_scalar_apply, constant_apply, Cert.Sage.Forms.one_f32]

/-- On the extended reals the host's accumulating scatter is the exact sum of the updates landing at each element. -/
theorem scatterAdd_ideal {s si u : Shape} {w : Nat} {φ : FTy} (d : ScatterDims s si u) (x : FVec Ideal s φ)
    (idx : IVec si w) (upd : FVec Ideal u φ) : Host.scatterAdd d x idx upd = Ideal.hostScatterAdd d x idx upd := rfl

/-- Collecting a 64-column array: at (n, q), the sum over the edges landing on n of entry q of the edge's source
    row. -/
theorem collect64_apply (v1 v3 : IVec S800000 32) (X : FVec Ideal S50000x64 .f32) (n : Fin 50000) (q : Fin 64) :
    Terms.collect64 v1 v3 X (ix2 n q)
      = Cert.Sage.coll hN (Terms.dstCol v3) (Terms.srcCol v1) (cur X) n q := by
  have hs : (scatter_S50000x64_S800000x1_S800000x64_1_0_0_1 : ScatterDims S50000x64 S800000x1 S800000x64)
      = Cert.Lib.RowOps.rowScatterDims 50000 800000 64 Facts₀.scatter_S50000x64_S800000x1_S800000x64_1_0_0_1_wf := rfl
  have hg : (gather_S50000x64_S800000x1_S800000x64_1_0_n_n_0_1_164 : GatherDims S50000x64 S800000x1 S800000x64)
      = Cert.Lib.RowOps.rowGatherDims 50000 800000 64 Facts₀.gather_S50000x64_S800000x1_S800000x64_1_0_n_n_0_1_164_wf := rfl
  rw [Terms.collect64, scatterAdd_ideal, hs, hg]
  exact Cert.Sage.Forms.collect_apply hN _ _ _ (zeros_apply _) (Terms.dstCol v3) (Terms.srcCol v1) X n q

/-- Collecting a 128-column array. -/
theorem collect128_apply (v1 v3 : IVec S800000 32) (X : FVec Ideal S50000x128 .f32) (n : Fin 50000) (q : Fin 128) :
    Terms.collect128 v1 v3 X (ix2 n q)
      = Cert.Sage.coll hN (Terms.dstCol v3) (Terms.srcCol v1) (cur X) n q := by
  have hs : (scatter_S50000x128_S800000x1_S800000x128_1_0_0_1 : ScatterDims S50000x128 S800000x1 S800000x128)
      = Cert.Lib.RowOps.rowScatterDims 50000 800000 128 Facts₀.scatter_S50000x128_S800000x1_S800000x128_1_0_0_1_wf := rfl
  have hg : (gather_S50000x128_S800000x1_S800000x128_1_0_n_n_0_1_1128 : GatherDims S50000x128 S800000x1 S800000x128)
      = Cert.Lib.RowOps.rowGatherDims 50000 800000 128 Facts₀.gather_S50000x128_S800000x1_S800000x128_1_0_n_n_0_1_1128_wf := rfl
  rw [Terms.collect128, scatterAdd_ideal, hs, hg]
  exact Cert.Sage.Forms.collect_apply hN _ _ _ (zeros_apply _) (Terms.dstCol v3) (Terms.srcCol v1) X n q

/-- The reciprocal column at row n is one divided by the larger of the in-degree of n and one: the 32-bit count
    of fewer than 2^31 edges is the in-degree. -/
theorem invCol_apply (v3 : IVec S800000 32) (n : Fin 50000) :
    Terms.invCol v3 (ix2 n 0) = Cert.Sage.inv (Terms.dstCol v3) n := by
  have hs : (scatter_S50000_S800000x1_S800000_n_0_0_1 : ScatterDims S50000 S800000x1 S800000)
      = ScatterGather.vecScatterDims 50000 800000 Facts₀.scatter_S50000_S800000x1_S800000_n_0_0_1_wf := rfl
  have hz : ∀ i, broadcastInDim S50000 ![] bcast_S_S50000 (constantI S_ 32 0#32) i = 0#32 := fun i => by
    rw [broadcastInDim_scalar_apply]
    rfl
  have ho : ∀ j, broadcastInDim S800000 ![] bcast_S_S800000 (constantI S_ 32 1#32) j = 1#32 := fun j => by
    rw [broadcastInDim_scalar_apply]
    rfl
  rw [Terms.invCol, Cert.LibColumnCast.column_cast, hostDivf_apply, ones_apply, maximumf_apply, ones_apply,
    sitofp_apply, hs,
    Cert.Sage.Forms.count_int_apply (by norm_num) Facts₀.scatter_S50000_S800000x1_S800000_n_0_0_1_wf
      (broadcastInDim S50000 ![] bcast_S_S50000 (constantI S_ 32 0#32)) hz (Terms.dstCol v3)
      (broadcastInDim S800000 ![] bcast_S_S800000 (constantI S_ 32 1#32)) ho n]
  rfl

/-- A 64-entry vector recast as a one-row array reads the vector. -/
theorem row64_apply (b : FVec Ideal S64 .f32) (j : Fin 64) : Terms.row64 b (ix2 0 j) = b (ix1 j) := by
  unfold Terms.row64
  refine shapeCast_apply b _ _ _ ?_
  rw [Shape.rowMajor_val_two, Shape.rowMajor_val_one]
  show j.val = 0 * 64 + j.val
  omega

/-- A 128-entry vector recast as a one-row array reads the vector. -/
theorem row128_apply (b : FVec Ideal S128 .f32) (j : Fin 128) : Terms.row128 b (ix2 0 j) = b (ix1 j) := by
  unfold Terms.row128
  refine shapeCast_apply b _ _ _ ?_
  rw [Shape.rowMajor_val_two, Shape.rowMajor_val_one]
  show j.val = 0 * 128 + j.val
  omega

/-- Rows 0–63 of a 128-row matrix, read at (k, j). -/
theorem top64_apply (W : FVec Ideal S128x128 .f32) (k : Fin 64) (j : Fin 128) :
    Terms.top64 W (ix2 k j) = Cert.Sage.rowsFrom 64 0 (by omega) (cur W) k j := by
  unfold Terms.top64 Cert.Sage.rowsFrom
  refine extractStridedSlice_apply _ W _ (ix2 k j) (ix2 ⟨0 + k.val, by omega⟩ j) fun a => ?_
  match a with
  | ⟨0, _⟩ => rfl
  | ⟨1, _⟩ => exact (Nat.zero_add _).symm

/-- Rows 64–127 of a 128-row matrix, read at (k, j). -/
theorem bot64_apply (W : FVec Ideal S128x128 .f32) (k : Fin 64) (j : Fin 128) :
    Terms.bot64 W (ix2 k j) = Cert.Sage.rowsFrom 64 64 (by omega) (cur W) k j := by
  unfold Terms.bot64 Cert.Sage.rowsFrom
  refine extractStridedSlice_apply _ W _ (ix2 k j) (ix2 ⟨64 + k.val, by omega⟩ j) fun a => ?_
  match a with
  | ⟨0, _⟩ => rfl
  | ⟨1, _⟩ => exact (Nat.zero_add _).symm

/-- Rows 0–63 of a 256-row matrix, read at (k, j). -/
theorem part0_apply (W : FVec Ideal S256x128 .f32) (k : Fin 64) (j : Fin 128) :
    Terms.part0 W (ix2 k j) = Cert.Sage.rowsFrom 64 0 (by omega) (cur W) k j := by
  unfold Terms.part0 Cert.Sage.rowsFrom
  refine extractStridedSlice_apply _ W _ (ix2 k j) (ix2 ⟨0 + k.val, by omega⟩ j) fun a => ?_
  match a with
  | ⟨0, _⟩ => rfl
  | ⟨1, _⟩ => exact (Nat.zero_add _).symm

/-- Rows 64–127 of a 256-row matrix, read at (k, j). -/
theorem part1_apply (W : FVec Ideal S256x128 .f32) (k : Fin 64) (j : Fin 128) :
    Terms.part1 W (ix2 k j) = Cert.Sage.rowsFrom 64 64 (by omega) (cur W) k j := by
  unfold Terms.part1 Cert.Sage.rowsFrom
  refine extractStridedSlice_apply _ W _ (ix2 k j) (ix2 ⟨64 + k.val, by omega⟩ j) fun a => ?_
  match a with
  | ⟨0, _⟩ => rfl
  | ⟨1, _⟩ => exact (Nat.zero_add _).symm

/-- Rows 128–255 of a 256-row matrix, read at (k, j). -/
theorem part2_apply (W : FVec Ideal S256x128 .f32) (k : Fin 128) (j : Fin 128) :
    Terms.part2 W (ix2 k j) = Cert.Sage.rowsFrom 128 128 (by omega) (cur W) k j := by
  unfold Terms.part2 Cert.Sage.rowsFrom
  refine extractStridedSlice_apply _ W _ (ix2 k j) (ix2 ⟨128 + k.val, by omega⟩ j) fun a => ?_
  match a with
  | ⟨0, _⟩ => rfl
  | ⟨1, _⟩ => exact (Nat.zero_add _).symm

/-! ## The arrays, in program order -/

section
variable (x : FVec Ideal S50000x64 .f32) (ei : IVec S2x800000 32) (Wp : FVec Ideal S64x64 .f32) (bp : FVec Ideal S64 .f32)
  (Wl1 : FVec Ideal S64x64 .f32) (bl1 : FVec Ideal S64 .f32) (Wr1 : FVec Ideal S64x64 .f32)
  (Wl2 : FVec Ideal S128x128 .f32) (bl2 : FVec Ideal S128 .f32) (Wr2 : FVec Ideal S128x128 .f32)
  (Wl3 : FVec Ideal S256x128 .f32) (bl3 : FVec Ideal S128 .f32) (Wr3 : FVec Ideal S256x128 .f32)

/-- The destination column of the program's edge array. -/
abbrev dst : Cert.Sage.Col 800000 := Terms.dstCol (Terms.edgeRow1 ei)

/-- The source column of the program's edge array. -/
abbrev src : Cert.Sage.Col 800000 := Terms.srcCol (Terms.edgeRow0 ei)

/-- The projected input is the input projection. -/
theorem XP_apply (n : Fin 50000) (j : Fin 64) :
    Terms.XP x Wp bp (ix2 n j) = Cert.Sage.proj (cur x) (cur Wp) (vec bp) n j := by
  show Terms.projAt x Wp (Terms.row64 bp) n j = _
  unfold Terms.projAt
  rw [row64_apply]
  rfl

/-- The same, as arrays. -/
theorem XP_cur : cur (Terms.XP x Wp bp) = Cert.Sage.proj (cur x) (cur Wp) (vec bp) := by
  funext n j
  exact XP_apply x Wp bp n j

/-- The first hidden array is the first layer of the second spelling. -/
theorem H1_apply (n : Fin 50000) (j : Fin 64) :
    Terms.H1 x ei Wl1 bl1 Wr1 (ix2 n j)
      = Cert.Sage.hid1 hN (dst ei) (src ei) (cur x) (cur Wl1) (vec bl1) (cur Wr1) n j := by
  show Terms.layer1At x _ _ Wl1 (Terms.row64 bl1) Wr1 n j = _
  unfold Terms.layer1At
  simp only [collect64_apply, invCol_apply, row64_apply]
  rfl

/-- The same, as arrays. -/
theorem H1_cur : cur (Terms.H1 x ei Wl1 bl1 Wr1)
    = Cert.Sage.hid1 hN (dst ei) (src ei) (cur x) (cur Wl1) (vec bl1) (cur Wr1) := by
  funext n j
  exact H1_apply x ei Wl1 bl1 Wr1 n j

/-- The projected input collected along the edges. -/
theorem SXP_apply (n : Fin 50000) (q : Fin 64) :
    Terms.SXP x ei Wp bp (ix2 n q)
      = Cert.Sage.coll hN (dst ei) (src ei) (Cert.Sage.proj (cur x) (cur Wp) (vec bp)) n q := by
  unfold Terms.SXP
  rw [collect64_apply, XP_cur]

/-- The first hidden array collected along the edges. -/
theorem SH1_apply (n : Fin 50000) (q : Fin 64) :
    Terms.SH1 x ei Wl1 bl1 Wr1 (ix2 n q)
      = Cert.Sage.coll hN (dst ei) (src ei)
          (Cert.Sage.hid1 hN (dst ei) (src ei) (cur x) (cur Wl1) (vec bl1) (cur Wr1)) n q := by
  unfold Terms.SH1
  rw [collect64_apply, H1_cur]

/-- The second hidden array is the second layer of the second spelling. -/
theorem H2_apply (n : Fin 50000) (j : Fin 128) :
    Terms.H2 x ei Wp bp Wl1 bl1 Wr1 Wl2 bl2 Wr2 (ix2 n j)
      = Cert.Sage.hid2 hN (dst ei) (src ei) (cur x) (cur Wp) (vec bp) (cur Wl1) (vec bl1) (cur Wr1)
          (cur Wl2) (vec bl2) (cur Wr2) n j := by
  show Terms.layer2At _ _ _ _ _ _ _ (Terms.row128 bl2) _ _ n j = _
  unfold Terms.layer2At
  simp only [SXP_apply, SH1_apply, invCol_apply, row128_apply, top64_apply, bot64_apply, XP_apply, H1_apply]
  rfl

/-- The same, as arrays. -/
theorem H2_cur : cur (Terms.H2 x ei Wp bp Wl1 bl1 Wr1 Wl2 bl2 Wr2)
    = Cert.Sage.hid2 hN (dst ei) (src ei) (cur x) (cur Wp) (vec bp) (cur Wl1) (vec bl1) (cur Wr1)
        (cur Wl2) (vec bl2) (cur Wr2) := by
  funext n j
  exact H2_apply x ei Wp bp Wl1 bl1 Wr1 Wl2 bl2 Wr2 n j

/-- The second hidden array collected along the edges. -/
theorem SH2_apply (n : Fin 50000) (q : Fin 128) :
    Terms.SH2 x ei Wp bp Wl1 bl1 Wr1 Wl2 bl2 Wr2 (ix2 n q)
      = Cert.Sage.coll hN (dst ei) (src ei)
          (Cert.Sage.hid2 hN (dst ei) (src ei) (cur x) (cur Wp) (vec bp) (cur Wl1) (vec bl1) (cur Wr1)
            (cur Wl2) (vec bl2) (cur Wr2)) n q := by
  unfold Terms.SH2
  rw [collect128_apply, H2_cur]

/-- The result is the third layer of the second spelling. -/
theorem H3_apply (n : Fin 50000) (j : Fin 128) :
    Terms.H3 x ei Wp bp Wl1 bl1 Wr1 Wl2 bl2 Wr2 Wl3 bl3 Wr3 (ix2 n j)
      = Cert.Sage.netMul hN (dst ei) (src ei) (cur x) (cur Wp) (vec bp) (cur Wl1) (vec bl1) (cur Wr1)
          (cur Wl2) (vec bl2) (cur Wr2) (cur Wl3) (vec bl3) (cur Wr3) n j := by
  show Terms.layer3At _ _ _ _ _ _ _ _ _ _ (Terms.row128 bl3) _ _ _ n j = _
  unfold Terms.layer3At
  simp only [SXP_apply, SH1_apply, SH2_apply, invCol_apply, row128_apply, part0_apply, part1_apply, part2_apply,
    XP_apply, H1_apply, H2_apply]
  rfl

/-- The program's result array is the three layers of the second spelling, entry by entry. -/
theorem H3_eq_netMul :
    Terms.H3 x ei Wp bp Wl1 bl1 Wr1 Wl2 bl2 Wr2 Wl3 bl3 Wr3
      = fun i => Cert.Sage.netMul (N := 50000) (E := 800000) (by norm_num)
          (Terms.dstCol (Terms.edgeRow1 ei)) (Terms.srcCol (Terms.edgeRow0 ei))
          (fun n k => x (ix2 n k)) (fun k j => Wp (ix2 k j)) (fun j => bp (ix1 j))
          (fun k j => Wl1 (ix2 k j)) (fun j => bl1 (ix1 j)) (fun k j => Wr1 (ix2 k j))
          (fun k j => Wl2 (ix2 k j)) (fun j => bl2 (ix1 j)) (fun k j => Wr2 (ix2 k j))
          (fun k j => Wl3 (ix2 k j)) (fun j => bl3 (ix1 j)) (fun k j => Wr3 (ix2 k j)) (i 0) (i 1) := by
  funext i
  obtain ⟨n, j, rfl⟩ : ∃ n j, i = ix2 n j := ⟨i 0, i 1, eq_ix2 i⟩
  exact H3_apply x ei Wp bp Wl1 bl1 Wr1 Wl2 bl2 Wr2 Wl3 bl3 Wr3 n j

end

end Cert.KernelIdeal.Forms

end
-- ==== Proof.RefValue.lean ====
/-
  The reference program computes three mean-aggregating graph layers over joined inputs, entry by entry.

  Each layer takes the source rows of its input along the edges, sums them onto the destination nodes, divides by the
  in-degree (at least one), multiplies by a weight matrix, adds a bias and the input times a second weight matrix,
  and clamps at zero. The first layer reads the node features; the second reads the clamped input projection joined
  with the first layer's result; the third reads those two joined with the second layer's result. The edge columns
  are recomputed for every layer and are the same columns each time.
-/
import proofs.«176597_j21869973471634_2_alg».proof.Proof.Gen.ReferenceIdeal.Read
import proofs.«176597_j21869973471634_2_alg».proof.Proof.LibSageSpec
import proofs.«176597_j21869973471634_2_alg».proof.Proof.LibSageForms

noncomputable section

open scoped BigOperators

namespace Cert.ReferenceIdeal.RefValue

open Cert.ReferenceIdeal Cert.ReferenceIdeal.Gen Cert.ReferenceIdeal.Read Idealize.ShloMosaic
  Idealize.ShloMosaic.ValueIdx
open Cert.Sage (Col coll den meanDiv dense proj cat2 cat3 layerDiv netDiv)

/-- A float array of the reference, on the extended reals. -/
abbrev Arr (S : Shape) : Type := (⟨S, .f32⟩ : BufTy).Contents (Elt Ideal)
/-- The two rows of edge ends. -/
abbrev Edges : Type := (⟨S2x800000, .i32⟩ : BufTy).Contents (Elt Ideal)

/-- There is at least one node. -/
theorem hN : 0 < 50000 := by norm_num

/-- The destination column: the second row of the edge ends. -/
abbrev dstCol (x1 : Edges) : Col 800000 := val_main_v17 (F := Ideal) x1
/-- The source column: the first row of the edge ends, a negative entry wrapped once. -/
abbrev srcCol (x1 : Edges) : Col 800000 := val_main_v14 (F := Ideal) x1

/-! ## The constant arrays -/

/-- The projection is clamped against zeros. -/
theorem relu0_zero (i : S50000x64.Idx) : val_main_call0_v0 (F := Ideal) i = 0 := by
  rw [val_main_call0_v0_apply, val_main_call0_cst_apply]; exact Ideal.ofBits_zero_f32
/-- The first layer is clamped against zeros. -/
theorem relu1_zero (i : S50000x64.Idx) : val_main_call1_v0 (F := Ideal) i = 0 := by
  rw [val_main_call1_v0_apply, val_main_call1_cst_apply]; exact Ideal.ofBits_zero_f32
/-- The second layer is clamped against zeros. -/
theorem relu2_zero (i : S50000x128.Idx) : val_main_call2_v0 (F := Ideal) i = 0 := by
  rw [val_main_call2_v0_apply, val_main_call2_cst_apply]; exact Ideal.ofBits_zero_f32
/-- The third layer is clamped against zeros. -/
theorem relu3_zero (i : S50000x128.Idx) : val_main_call3_v0 (F := Ideal) i = 0 := by
  rw [val_main_call3_v0_apply, val_main_call3_cst_apply]; exact Ideal.ofBits_zero_f32

/-- The first layer's rows are collected onto zeros. -/
theorem v16_zero (i : S50000x64.Idx) : val_main_v16 (F := Ideal) i = 0 := by
  rw [val_main_v16_apply, val_main_cst_apply]; exact Ideal.ofBits_zero_f32
/-- The second layer's rows are collected onto zeros. -/
theorem v43_zero (i : S50000x128.Idx) : val_main_v43 (F := Ideal) i = 0 := by
  rw [val_main_v43_apply, val_main_cst_6_apply]; exact Ideal.ofBits_zero_f32
/-- The third layer's rows are collected onto zeros. -/
theorem v70_zero (i : S50000x256.Idx) : val_main_v70 (F := Ideal) i = 0 := by
  rw [val_main_v70_apply, val_main_cst_12_apply]; exact Ideal.ofBits_zero_f32

/-- The first layer's edges are counted onto zeros. -/
theorem v20_zero (i : S50000.Idx) : val_main_v20 (F := Ideal) i = 0 := by
  rw [val_main_v20_apply, val_main_cst_2_apply]; exact Ideal.ofBits_zero_f32
/-- The second layer's edges are counted onto zeros. -/
theorem v47_zero (i : S50000.Idx) : val_main_v47 (F := Ideal) i = 0 := by
  rw [val_main_v47_apply, val_main_cst_8_apply]; exact Ideal.ofBits_zero_f32
/-- The third layer's edges are counted onto zeros. -/
theorem v74_zero (i : S50000.Idx) : val_main_v74 (F := Ideal) i = 0 := by
  rw [val_main_v74_apply, val_main_cst_14_apply]; exact Ideal.ofBits_zero_f32

/-- The first layer counts one per edge. -/
theorem v19_one (i : S800000.Idx) : val_main_v19 (F := Ideal) i = 1 := by
  rw [val_main_v19_apply, val_main_cst_1_apply]; exact Cert.Sage.Forms.one_f32
/-- The second layer counts one per edge. -/
theorem v46_one (i : S800000.Idx) : val_main_v46 (F := Ideal) i = 1 := by
  rw [val_main_v46_apply, val_main_cst_7_apply]; exact Cert.Sage.Forms.one_f32
/-- The third layer counts one per edge. -/
theorem v73_one (i : S800000.Idx) : val_main_v73 (F := Ideal) i = 1 := by
  rw [val_main_v73_apply, val_main_cst_13_apply]; exact Cert.Sage.Forms.one_f32

/-- The first layer's count is kept at least one. -/
theorem v23_one (i : S50000.Idx) : val_main_v23 (F := Ideal) i = 1 := by
  rw [val_main_v23_apply, val_main_cst_3_apply]; exact Cert.Sage.Forms.one_f32
/-- The second layer's count is kept at least one. -/
theorem v50_one (i : S50000.Idx) : val_main_v50 (F := Ideal) i = 1 := by
  rw [val_main_v50_apply, val_main_cst_9_apply]; exact Cert.Sage.Forms.one_f32
/-- The third layer's count is kept at least one. -/
theorem v77_one (i : S50000.Idx) : val_main_v77 (F := Ideal) i = 1 := by
  rw [val_main_v77_apply, val_main_cst_15_apply]; exact Cert.Sage.Forms.one_f32

/-! ## The edge columns, recomputed for every layer, are the same columns -/

/-- The first layer's count lands on the destination column. -/
theorem v21_eq (x1 : Edges) : val_main_v21 (F := Ideal) x1 = dstCol x1 := rfl
/-- The second layer's rows land on the destination column. -/
theorem v44_eq (x1 : Edges) : val_main_v44 (F := Ideal) x1 = dstCol x1 := rfl
/-- The second layer's count lands on the destination column. -/
theorem v48_eq (x1 : Edges) : val_main_v48 (F := Ideal) x1 = dstCol x1 := rfl
/-- The third layer's rows land on the destination column. -/
theorem v71_eq (x1 : Edges) : val_main_v71 (F := Ideal) x1 = dstCol x1 := rfl
/-- The third layer's count lands on the destination column. -/
theorem v75_eq (x1 : Edges) : val_main_v75 (F := Ideal) x1 = dstCol x1 := rfl
/-- The second layer reads rows by the source column. -/
theorem v41_eq (x1 : Edges) : val_main_v41 (F := Ideal) x1 = srcCol x1 := rfl
/-- The third layer reads rows by the source column. -/
theorem v68_eq (x1 : Edges) : val_main_v68 (F := Ideal) x1 = srcCol x1 := rfl

/-! ## The input projection -/

section Proj
variable (x0 : Arr S50000x64) (x2 : Arr S64x64) (x3 : Arr S64)

/-- The projection's bias, laid along every row. -/
theorem bias0 (n : Fin 50000) (j : Fin 64) : val_main_v6 (F := Ideal) x3 (ix2 n j) = x3 (ix1 j) := by
  rw [val_main_v6_apply, val_main_v5_apply]
  exact congrArg x3 (funext fun a => by match a with | ⟨0, _⟩ => rfl)

/-- The clamped input projection. -/
theorem xp_apply (n : Fin 50000) (j : Fin 64) :
    val_main_v8 (F := Ideal) x0 x2 x3 (ix2 n j)
      = proj (fun n k => x0 (ix2 n k)) (fun k j => x2 (ix2 k j)) (fun j => x3 (ix1 j)) n j := by
  rw [val_main_v8_apply, val_main_v7_apply, bias0, relu0_zero, Ideal.maximumf_def, Ideal.addf_def]
  unfold val_main_v4
  rw [show dot_S50000x64_S64x64_S50000x64_1_0_0_1_n_n = Cert.MatOps.plainDot 50000 64 64 _ from rfl]
  simp only [Host.dotGeneral]
  rw [Cert.Sage.Forms.dense_apply]
  rfl

end Proj

/-! ## The first layer -/

section Layer1
variable (x0 : Arr S50000x64) (x1 : Edges) (x4 : Arr S64x64) (x5 : Arr S64) (x6 : Arr S64x64)

/-- The first layer's collected rows. -/
theorem coll1 (n : Fin 50000) (q : Fin 64) :
    val_main_v18 (F := Ideal) x0 x1 (ix2 n q)
      = coll hN (dstCol x1) (srcCol x1) (fun n k => x0 (ix2 n k)) n q := by
  unfold val_main_v18 val_main_v15
  rw [show scatter_S50000x64_S800000x1_S800000x64_1_0_0_1
      = Cert.Lib.RowOps.rowScatterDims 50000 800000 64 _ from rfl,
    show gather_S50000x64_S800000x1_S800000x64_1_0_n_n_0_1_164
      = Cert.Lib.RowOps.rowGatherDims 50000 800000 64 _ from rfl]
  rw [Host.scatterAdd, Ideal.hostScatterAdd_def]
  exact Cert.Sage.Forms.collect_apply hN _ _ _ v16_zero (dstCol x1) (srcCol x1) x0 n q

/-- The first layer's divisor, laid along every row. -/
theorem den1 (n : Fin 50000) (q : Fin 64) : val_main_v26 (F := Ideal) x1 (ix2 n q) = den (dstCol x1) n := by
  rw [val_main_v26_apply, val_main_v25_apply, val_main_v24_apply]
  have e : idx_main_v25 (idx_main_v26 (ix2 n q)) = ix1 n := funext fun a => by match a with | ⟨0, _⟩ => rfl
  rw [e, v23_one]
  unfold val_main_v22
  rw [show scatter_S50000_S800000x1_S800000_n_0_0_1
      = ScatterGather.vecScatterDims 50000 800000 _ from rfl, v21_eq]
  rw [Ideal.maximumf_def, Host.scatterAdd, Ideal.hostScatterAdd_def]
  exact Cert.Sage.Forms.den_apply _ _ v20_zero (dstCol x1) _ v19_one n

/-- The first layer's mean. -/
theorem mean1 (n : Fin 50000) (q : Fin 64) :
    val_main_v27 (F := Ideal) x0 x1 (ix2 n q)
      = meanDiv hN (dstCol x1) (srcCol x1) (fun n k => x0 (ix2 n k)) n q := by
  rw [val_main_v27_apply, coll1, den1, Ideal.hostDivf_def]
  rfl

/-- The first layer's bias, laid along every row. -/
theorem bias1 (n : Fin 50000) (j : Fin 64) : val_main_v30 (F := Ideal) x5 (ix2 n j) = x5 (ix1 j) := by
  rw [val_main_v30_apply, val_main_v29_apply]
  exact congrArg x5 (funext fun a => by match a with | ⟨0, _⟩ => rfl)

/-- The first layer. -/
theorem h1_apply (n : Fin 50000) (j : Fin 64) :
    val_main_v34 (F := Ideal) x0 x1 x4 x5 x6 (ix2 n j)
      = layerDiv hN (dstCol x1) (srcCol x1) (fun n k => x0 (ix2 n k)) (fun k j => x4 (ix2 k j))
          (fun j => x5 (ix1 j)) (fun k j => x6 (ix2 k j)) n j := by
  rw [val_main_v34_apply, val_main_v33_apply, val_main_v31_apply, bias1, relu1_zero, Ideal.maximumf_def, Ideal.addf_def,
    Ideal.addf_def]
  unfold val_main_v28 val_main_v32
  rw [show dot_S50000x64_S64x64_S50000x64_1_0_0_1_n_n = Cert.MatOps.plainDot 50000 64 64 _ from rfl]
  simp only [Host.dotGeneral]
  rw [Cert.Sage.Forms.dense_apply, Cert.Sage.Forms.dense_apply,
    show (fun n k => val_main_v27 (F := Ideal) x0 x1 (ix2 n k))
      = meanDiv hN (dstCol x1) (srcCol x1) (fun n k => x0 (ix2 n k)) from
        funext fun n => funext fun k => mean1 x0 x1 n k]
  rfl

end Layer1

/-! ## The second layer -/

section Layer2
variable (x0 : Arr S50000x64) (x1 : Edges) (x2 : Arr S64x64) (x3 : Arr S64) (x4 : Arr S64x64) (x5 : Arr S64)
  (x6 : Arr S64x64) (x7 : Arr S128x128) (x8 : Arr S128) (x9 : Arr S128x128)

/-- The second layer's input, as a function of node and column. -/
abbrev in2 : Fin 50000 → Fin 128 → EReal := fun n k => val_main_v35 (F := Ideal) x0 x1 x2 x3 x4 x5 x6 (ix2 n k)

/-- The second layer's input is the projection joined with the first layer. -/
theorem in2_eq :
    in2 x0 x1 x2 x3 x4 x5 x6
      = cat2 (proj (fun n k => x0 (ix2 n k)) (fun k j => x2 (ix2 k j)) (fun j => x3 (ix1 j)))
          (layerDiv hN (dstCol x1) (srcCol x1) (fun n k => x0 (ix2 n k)) (fun k j => x4 (ix2 k j))
            (fun j => x5 (ix1 j)) (fun k j => x6 (ix2 k j))) := by
  funext n k
  show val_main_v35 (F := Ideal) x0 x1 x2 x3 x4 x5 x6 (ix2 n k) = _
  unfold val_main_v35
  rw [Cert.Sage.Forms.cat2_apply,
    show (fun n k => val_main_v8 (F := Ideal) x0 x2 x3 (ix2 n k)) = _ from
      funext fun n => funext fun k => xp_apply x0 x2 x3 n k,
    show (fun n k => val_main_v34 (F := Ideal) x0 x1 x4 x5 x6 (ix2 n k)) = _ from
      funext fun n => funext fun k => h1_apply x0 x1 x4 x5 x6 n k]

/-- The second layer's collected rows. -/
theorem coll2 (n : Fin 50000) (q : Fin 128) :
    val_main_v45 (F := Ideal) x0 x1 x2 x3 x4 x5 x6 (ix2 n q)
      = coll hN (dstCol x1) (srcCol x1) (in2 x0 x1 x2 x3 x4 x5 x6) n q := by
  unfold val_main_v45 val_main_v42
  rw [show scatter_S50000x128_S800000x1_S800000x128_1_0_0_1
      = Cert.Lib.RowOps.rowScatterDims 50000 800000 128 _ from rfl,
    show gather_S50000x128_S800000x1_S800000x128_1_0_n_n_0_1_1128
      = Cert.Lib.RowOps.rowGatherDims 50000 800000 128 _ from rfl, v44_eq, v41_eq]
  rw [Host.scatterAdd, Ideal.hostScatterAdd_def]
  exact Cert.Sage.Forms.collect_apply hN _ _ _ v43_zero (dstCol x1) (srcCol x1)
    (val_main_v35 (F := Ideal) x0 x1 x2 x3 x4 x5 x6) n q

/-- The second layer's divisor, laid along every row. -/
theorem den2 (n : Fin 50000) (q : Fin 128) : val_main_v53 (F := Ideal) x1 (ix2 n q) = den (dstCol x1) n := by
  rw [val_main_v53_apply, val_main_v52_apply, val_main_v51_apply]
  have e : idx_main_v52 (idx_main_v53 (ix2 n q)) = ix1 n := funext fun a => by match a with | ⟨0, _⟩ => rfl
  rw [e, v50_one]
  unfold val_main_v49
  rw [show scatter_S50000_S800000x1_S800000_n_0_0_1
      = ScatterGather.vecScatterDims 50000 800000 _ from rfl, v48_eq]
  rw [Ideal.maximumf_def, Host.scatterAdd, Ideal.hostScatterAdd_def]
  exact Cert.Sage.Forms.den_apply _ _ v47_zero (dstCol x1) _ v46_one n

/-- The second layer's mean. -/
theorem mean2 (n : Fin 50000) (q : Fin 128) :
    val_main_v54 (F := Ideal) x0 x1 x2 x3 x4 x5 x6 (ix2 n q)
      = meanDiv hN (dstCol x1) (srcCol x1) (in2 x0 x1 x2 x3 x4 x5 x6) n q := by
  rw [val_main_v54_apply, coll2, den2, Ideal.hostDivf_def]
  rfl

/-- The second layer's bias, laid along every row. -/
theorem bias2 (n : Fin 50000) (j : Fin 128) : val_main_v57 (F := Ideal) x8 (ix2 n j) = x8 (ix1 j) := by
  rw [val_main_v57_apply, val_main_v56_apply]
  exact congrArg x8 (funext fun a => by match a with | ⟨0, _⟩ => rfl)

/-- The second layer. -/
theorem h2_apply (n : Fin 50000) (j : Fin 128) :
    val_main_v61 (F := Ideal) x0 x1 x2 x3 x4 x5 x6 x7 x8 x9 (ix2 n j)
      = layerDiv hN (dstCol x1) (srcCol x1) (in2 x0 x1 x2 x3 x4 x5 x6) (fun k j => x7 (ix2 k j))
          (fun j => x8 (ix1 j)) (fun k j => x9 (ix2 k j)) n j := by
  rw [val_main_v61_apply, val_main_v60_apply, val_main_v58_apply, bias2, relu2_zero, Ideal.maximumf_def, Ideal.addf_def,
    Ideal.addf_def]
  unfold val_main_v55 val_main_v59
  rw [show dot_S50000x128_S128x128_S50000x128_1_0_0_1_n_n = Cert.MatOps.plainDot 50000 128 128 _ from rfl]
  simp only [Host.dotGeneral]
  rw [Cert.Sage.Forms.dense_apply, Cert.Sage.Forms.dense_apply,
    show (fun n k => val_main_v54 (F := Ideal) x0 x1 x2 x3 x4 x5 x6 (ix2 n k))
      = meanDiv hN (dstCol x1) (srcCol x1) (in2 x0 x1 x2 x3 x4 x5 x6) from
        funext fun n => funext fun k => mean2 x0 x1 x2 x3 x4 x5 x6 n k]
  rfl

end Layer2

/-! ## The third layer -/

section Layer3
variable (x0 : Arr S50000x64) (x1 : Edges) (x2 : Arr S64x64) (x3 : Arr S64) (x4 : Arr S64x64) (x5 : Arr S64)
  (x6 : Arr S64x64) (x7 : Arr S128x128) (x8 : Arr S128) (x9 : Arr S128x128) (x10 : Arr S256x128) (x11 : Arr S128)
  (x12 : Arr S256x128)

/-- The third layer's input, as a function of node and column. -/
abbrev in3 : Fin 50000 → Fin 256 → EReal :=
  fun n k => val_main_v62 (F := Ideal) x0 x1 x2 x3 x4 x5 x6 x7 x8 x9 (ix2 n k)

/-- The third layer's input is the projection joined with the first and the second layer. -/
theorem in3_eq :
    in3 x0 x1 x2 x3 x4 x5 x6 x7 x8 x9
      = cat3 (proj (fun n k => x0 (ix2 n k)) (fun k j => x2 (ix2 k j)) (fun j => x3 (ix1 j)))
          (layerDiv hN (dstCol x1) (srcCol x1) (fun n k => x0 (ix2 n k)) (fun k j => x4 (ix2 k j))
            (fun j => x5 (ix1 j)) (fun k j => x6 (ix2 k j)))
          (layerDiv hN (dstCol x1) (srcCol x1) (in2 x0 x1 x2 x3 x4 x5 x6) (fun k j => x7 (ix2 k j))
            (fun j => x8 (ix1 j)) (fun k j => x9 (ix2 k j))) := by
  funext n k
  show val_main_v62 (F := Ideal) x0 x1 x2 x3 x4 x5 x6 x7 x8 x9 (ix2 n k) = _
  unfold val_main_v62
  rw [Cert.Sage.Forms.cat3_apply,
    show (fun n k => val_main_v8 (F := Ideal) x0 x2 x3 (ix2 n k)) = _ from
      funext fun n => funext fun k => xp_apply x0 x2 x3 n k,
    show (fun n k => val_main_v34 (F := Ideal) x0 x1 x4 x5 x6 (ix2 n k)) = _ from
      funext fun n => funext fun k => h1_apply x0 x1 x4 x5 x6 n k,
    show (fun n k => val_main_v61 (F := Ideal) x0 x1 x2 x3 x4 x5 x6 x7 x8 x9 (ix2 n k)) = _ from
      funext fun n => funext fun k => h2_apply x0 x1 x2 x3 x4 x5 x6 x7 x8 x9 n k]

/-- The third layer's collected rows. -/
theorem coll3 (n : Fin 50000) (q : Fin 256) :
    val_main_v72 (F := Ideal) x0 x1 x2 x3 x4 x5 x6 x7 x8 x9 (ix2 n q)
      = coll hN (dstCol x1) (srcCol x1) (in3 x0 x1 x2 x3 x4 x5 x6 x7 x8 x9) n q := by
  unfold val_main_v72 val_main_v69
  rw [show scatter_S50000x256_S800000x1_S800000x256_1_0_0_1
      = Cert.Lib.RowOps.rowScatterDims 50000 800000 256 _ from rfl,
    show gather_S50000x256_S800000x1_S800000x256_1_0_n_n_0_1_1256
      = Cert.Lib.RowOps.rowGatherDims 50000 800000 256 _ from rfl, v71_eq, v68_eq]
  rw [Host.scatterAdd, Ideal.hostScatterAdd_def]
  exact Cert.Sage.Forms.collect_apply hN _ _ _ v70_zero (dstCol x1) (srcCol x1)
    (val_main_v62 (F := Ideal) x0 x1 x2 x3 x4 x5 x6 x7 x8 x9) n q

/-- The third layer's divisor, laid along every row. -/
theorem den3 (n : Fin 50000) (q : Fin 256) : val_main_v80 (F := Ideal) x1 (ix2 n q) = den (dstCol x1) n := by
  rw [val_main_v80_apply, val_main_v79_apply, val_main_v78_apply]
  have e : idx_main_v79 (idx_main_v80 (ix2 n q)) = ix1 n := funext fun a => by match a with | ⟨0, _⟩ => rfl
  rw [e, v77_one]
  unfold val_main_v76
  rw [show scatter_S50000_S800000x1_S800000_n_0_0_1
      = ScatterGather.vecScatterDims 50000 800000 _ from rfl, v75_eq]
  rw [Ideal.maximumf_def, Host.scatterAdd, Ideal.hostScatterAdd_def]
  exact Cert.Sage.Forms.den_apply _ _ v74_zero (dstCol x1) _ v73_one n

/-- The third layer's mean. -/
theorem mean3 (n : Fin 50000) (q : Fin 256) :
    val_main_v81 (F := Ideal) x0 x1 x2 x3 x4 x5 x6 x7 x8 x9 (ix2 n q)
      = meanDiv hN (dstCol x1) (srcCol x1) (in3 x0 x1 x2 x3 x4 x5 x6 x7 x8 x9) n q := by
  rw [val_main_v81_apply, coll3, den3, Ideal.hostDivf_def]
  rfl

/-- The third layer's bias, laid along every row. -/
theorem bias3 (n : Fin 50000) (j : Fin 128) : val_main_v84 (F := Ideal) x11 (ix2 n j) = x11 (ix1 j) := by
  rw [val_main_v84_apply, val_main_v83_apply]
  exact congrArg x11 (funext fun a => by match a with | ⟨0, _⟩ => rfl)

/-- The third layer. -/
theorem h3_apply (n : Fin 50000) (j : Fin 128) :
    val_main_v88 (F := Ideal) x0 x1 x2 x3 x4 x5 x6 x7 x8 x9 x10 x11 x12 (ix2 n j)
      = layerDiv hN (dstCol x1) (srcCol x1) (in3 x0 x1 x2 x3 x4 x5 x6 x7 x8 x9) (fun k j => x10 (ix2 k j))
          (fun j => x11 (ix1 j)) (fun k j => x12 (ix2 k j)) n j := by
  rw [val_main_v88_apply, val_main_v87_apply, val_main_v85_apply, bias3, relu3_zero, Ideal.maximumf_def, Ideal.addf_def,
    Ideal.addf_def]
  unfold val_main_v82 val_main_v86
  rw [show dot_S50000x256_S256x128_S50000x128_1_0_0_1_n_n = Cert.MatOps.plainDot 50000 256 128 _ from rfl]
  simp only [Host.dotGeneral]
  rw [Cert.Sage.Forms.dense_apply, Cert.Sage.Forms.dense_apply,
    show (fun n k => val_main_v81 (F := Ideal) x0 x1 x2 x3 x4 x5 x6 x7 x8 x9 (ix2 n k))
      = meanDiv hN (dstCol x1) (srcCol x1) (in3 x0 x1 x2 x3 x4 x5 x6 x7 x8 x9) from
        funext fun n => funext fun k => mean3 x0 x1 x2 x3 x4 x5 x6 x7 x8 x9 n k]
  rfl

/-- THE REFERENCE'S RESULT is the three layers over joined inputs with quotient means, entry by entry. -/
theorem val_eq_netDiv :
    val_main_v88 (F := Ideal) x0 x1 x2 x3 x4 x5 x6 x7 x8 x9 x10 x11 x12
      = fun i => netDiv (N := 50000) (E := 800000) (by norm_num) (val_main_v17 (F := Ideal) x1)
          (val_main_v14 (F := Ideal) x1) (fun n k => x0 (ix2 n k)) (fun k j => x2 (ix2 k j)) (fun j => x3 (ix1 j))
          (fun k j => x4 (ix2 k j)) (fun j => x5 (ix1 j)) (fun k j => x6 (ix2 k j)) (fun k j => x7 (ix2 k j))
          (fun j => x8 (ix1 j)) (fun k j => x9 (ix2 k j)) (fun k j => x10 (ix2 k j)) (fun j => x11 (ix1 j))
          (fun k j => x12 (ix2 k j)) (i 0) (i 1) := by
  funext i
  obtain ⟨n, j, rfl⟩ : ∃ n j, i = ix2 n j := ⟨i 0, i 1, eq_ix2 i⟩
  rw [h3_apply, in3_eq, in2_eq]
  rfl

end Layer3

end Cert.ReferenceIdeal.RefValue

end
-- ==== Proof.lean ====
/-
  Three mean-aggregating graph layers computed two ways, equal on the extended reals.

  The reference gathers the rows of a node array along the edges, sums them per destination node, divides by the
  in-degree (at least one), and applies `relu((mean · Wl + bl) + X · Wr)`; the second and third layers take the earlier
  results joined column-wise as their input. The kernel program counts the in-degrees once in 32-bit integers and
  keeps their reciprocals; it collects each result array along the edges once and reuses the collected arrays; it
  never joins the inputs, but splits every weight matrix into the row blocks that meet each part and sums one product
  per part; and it computes each layer in three pipelines over blocks of 2000 rows.

  On the extended reals the two are one function of the arguments. Collecting rows along the edges acts column by
  column, so it commutes with joining columns; a contraction over a joined axis is the sum of the contractions over the
  parts (only commutativity and associativity of addition are used); and dividing by a real number that is at least
  one is multiplying by its reciprocal, for every extended real — so no finiteness of the inputs is needed. The integer
  count and the sum of ones are the same number because there are fewer than 2^31 edges.

  The modules: the specification and its law (LibSageSpec, LibSageLaw); the kernel's bodies at an index (BodyValue); each
  pipeline's output array as a function of the arrays it reads (Region0–2); the buffer contents at each boundary
  between host stretches and pipelines (Stage0–2), ending in the result as a term of the arguments (KernelTerms,
  KernelValue, over the run of KernelRun); that term as the specification's second spelling (KernelForms); and the
  reference's result as its first spelling (LibSageForms, RefValue).
-/
import proofs.«176597_j21869973471634_2_alg».proof.Defs
import proofs.«176597_j21869973471634_2_alg».proof.Proof.Gen.Kernel
import proofs.«176597_j21869973471634_2_alg».proof.Proof.Gen.Kernel.Frame
import proofs.«176597_j21869973471634_2_alg».proof.Proof.Gen.KernelIdeal
import proofs.«176597_j21869973471634_2_alg».proof.Proof.Gen.KernelIdeal.Frame
import proofs.«176597_j21869973471634_2_alg».proof.Proof.Gen.ReferenceIdeal
import proofs.«176597_j21869973471634_2_alg».proof.Proof.Gen.ReferenceIdeal.Run
import proofs.«176597_j21869973471634_2_alg».proof.Proof.Gen.ReferenceIdeal.Read
import proofs.«176597_j21869973471634_2_alg».proof.Proof.Gen.Pre_finite_inputs
import proofs.«176597_j21869973471634_2_alg».proof.Proof.LibSageLaw
import proofs.«176597_j21869973471634_2_alg».proof.Proof.KernelValue
import proofs.«176597_j21869973471634_2_alg».proof.Proof.KernelForms
import proofs.«176597_j21869973471634_2_alg».proof.Proof.RefValue

noncomputable section

namespace Cert.Proof

open Idealize.ShloMosaic Idealize.ShloMosaic.TcCoe Idealize.ShloMosaic.ValueIdx Idealize.SL.Sem

/-- The two programs make the destination column by the same operations of the edge array. -/
theorem dst_col_eq (ei : IVec Cert.KernelIdeal.S2x800000 32) :
    Cert.ReferenceIdeal.Read.val_main_v17 (F := Ideal) ei = Cert.KernelIdeal.Terms.dstCol (Cert.KernelIdeal.Terms.edgeRow1 ei) := rfl

/-- The two programs make the source column by the same operations of the edge array. -/
theorem src_col_eq (ei : IVec Cert.KernelIdeal.S2x800000 32) :
    Cert.ReferenceIdeal.Read.val_main_v14 (F := Ideal) ei = Cert.KernelIdeal.Terms.srcCol (Cert.KernelIdeal.Terms.edgeRow0 ei) := rfl

section
open Cert.KernelIdeal
variable (x : FVec Ideal S50000x64 .f32) (ei : IVec S2x800000 32) (Wp : FVec Ideal S64x64 .f32) (bp : FVec Ideal S64 .f32)
  (Wl1 : FVec Ideal S64x64 .f32) (bl1 : FVec Ideal S64 .f32) (Wr1 : FVec Ideal S64x64 .f32)
  (Wl2 : FVec Ideal S128x128 .f32) (bl2 : FVec Ideal S128 .f32) (Wr2 : FVec Ideal S128x128 .f32)
  (Wl3 : FVec Ideal S256x128 .f32) (bl3 : FVec Ideal S128 .f32) (Wr3 : FVec Ideal S256x128 .f32)

/-- The reference's result term is the kernel program's result term: the first spelling of the three layers against
    the second, joined by the law. -/
theorem result_eq :
    Cert.ReferenceIdeal.Read.val_main_v88 (F := Ideal) x ei Wp bp Wl1 bl1 Wr1 Wl2 bl2 Wr2 Wl3 bl3 Wr3
      = Cert.KernelIdeal.Terms.H3 x ei Wp bp Wl1 bl1 Wr1 Wl2 bl2 Wr2 Wl3 bl3 Wr3 := by
  rw [Cert.ReferenceIdeal.RefValue.val_eq_netDiv, Cert.KernelIdeal.Forms.H3_eq_netMul, Cert.Sage.netMul_eq_netDiv,
    dst_col_eq, src_col_eq]

end

theorem frame_k : Cert.frame_Kernel := fun m ρ _ => Cert.Kernel.Gen.frame m ρ

theorem frame_ki : Cert.frame_KernelIdeal := fun m ρ _ => Cert.KernelIdeal.Gen.frame m ρ

/-- The reference has no pipeline: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel program's result array ends at its result term of the launch contents, the reference's at its own;
    the arguments agree, and the two terms are one function. -/
theorem algebraic : Cert.algebraic_KernelIdeal_ReferenceIdeal := by
  intro m ρ m' ρ' _ hagree
  refine ⟨_, Cert.KernelIdeal.Stages.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v88_eq, e0, e1, e2, e3, e4, e5, e6, e7, e8, e9, e10, e11, e12]
  exact result_eq _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
